-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v215) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x10 : Shape := ⟨2, ![65536, 10]⟩
abbrev S10 : Shape := ⟨1, ![10]⟩
abbrev S_ : Shape := ⟨0, ![]⟩

class Facts : Prop where
  bcast_S_S65536x10 : S_.BroadcastsInDim S65536x10 (![] : Fin 0 → Fin S65536x10.rank)
  reducesTo_S65536x10_S_d0_1 : S65536x10.ReducesTo [0, 1] S_
  h_S_ : 0 < S_.numel
  bcast_S_S10 : S_.BroadcastsInDim S10 (![] : Fin 0 → Fin S10.rank)
  reducesTo_S10_S_d0 : S10.ReducesTo [0] S_

variable [Facts]

def fn {F : FTy → Type} [FloatOps F] (main_arg0 : FVec F S65536x10 .f32) (main_arg1 : FVec F S10 .f32) : IVec S_ 1 :=
  let main_v0 : FVec F S65536x10 .f32 := Host.absf main_arg0
  let main_cst : FVec F S_ .f32 := constant S_ .f32 0x7F800000#32
  let main_v1 : FVec F S65536x10 .f32 := broadcastInDim S65536x10 ![] bcast_S_S65536x10 main_cst
  let main_v2 : IVec S65536x10 1 := cmpf .olt main_v0 main_v1
  let main_c : IVec S_ 1 := constantI S_ 1 1#1
  let main_v3 : IVec S_ 1 := (fun x v => Host.reduce IntOp.andi x v reducesTo_S65536x10_S_d0_1 h_S_) main_v2 main_c
  let main_v4 : FVec F S10 .f32 := Host.absf main_arg1
  let main_cst_0 : FVec F S_ .f32 := constant S_ .f32 0x7F800000#32
  let main_v5 : FVec F S10 .f32 := broadcastInDim S10 ![] bcast_S_S10 main_cst_0
  let main_v6 : IVec S10 1 := cmpf .olt main_v4 main_v5
  let main_c_1 : IVec S_ 1 := constantI S_ 1 1#1
  let main_v7 : IVec S_ 1 := (fun x v => Host.reduce IntOp.andi x v reducesTo_S10_S_d0 h_S_) main_v6 main_c_1
  let main_v8 : IVec S_ 1 := andi main_v3 main_v7
  main_v8
-- ==== Kernel.lean ====
abbrev S65536x10 : Shape := ⟨2, ![65536, 10]⟩
abbrev S10 : Shape := ⟨1, ![10]⟩
abbrev S4096x10 : Shape := ⟨2, ![4096, 10]⟩
abbrev S1x10 : Shape := ⟨2, ![1, 10]⟩
abbrev S4096x1 : Shape := ⟨2, ![4096, 1]⟩

abbrev nBuf : Space → Nat
  | .hbm => 3
  | .vmem => 5
  | .smem => 0
  | _ => 0

abbrev bufTy : (tb : Table) → Fin (tcTables nBuf tb) → BufTy
  | .hbm, ⟨0, _⟩ => ⟨S65536x10, .f32⟩
  | .hbm, ⟨1, _⟩ => ⟨S10, .f32⟩
  | .hbm, ⟨2, _⟩ => ⟨S65536x10, .f32⟩
  | .local _ .vmem, ⟨0, _⟩ => ⟨S4096x10, .f32⟩
  | .local _ .vmem, ⟨1, _⟩ => ⟨S4096x10, .f32⟩
  | .local _ .vmem, ⟨2, _⟩ => ⟨S10, .f32⟩
  | .local _ .vmem, ⟨3, _⟩ => ⟨S4096x10, .f32⟩
  | .local _ .vmem, ⟨4, _⟩ => ⟨S4096x10, .f32⟩
  | _, _ => ⟨S65536x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x10 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4096x10_S4096x10_0_0 : ∀ a, (![0, 0] : Fin 2 → Nat) a + S4096x10.size a ≤ S4096x10.size a
  h_S4096x10 : 0 < S4096x10.numel
  inb_S10_S10_0 : ∀ a, (![0] : Fin 1 → Nat) a + S10.size a ≤ S10.size a
  h_S10 : 0 < S10.numel
  shapeCasts_S10_S1x10 : S10.ShapeCasts S1x10
  broadcasts_S1x10_S4096x10 : S1x10.Broadcasts S4096x10
  slices_S4096x10_o0_1_S4096x1 : S4096x10.Slices ![0, 1] S4096x1
  slices_S4096x10_o0_2_S4096x1 : S4096x10.Slices ![0, 2] S4096x1
  slices_S4096x10_o0_3_S4096x1 : S4096x10.Slices ![0, 3] S4096x1
  slices_S4096x10_o0_4_S4096x1 : S4096x10.Slices ![0, 4] S4096x1
  slices_S4096x10_o0_5_S4096x1 : S4096x10.Slices ![0, 5] S4096x1
  slices_S4096x10_o0_6_S4096x1 : S4096x10.Slices ![0, 6] S4096x1
  slices_S4096x10_o0_7_S4096x1 : S4096x10.Slices ![0, 7] S4096x1
  slices_S4096x10_o0_8_S4096x1 : S4096x10.Slices ![0, 8] S4096x1
  slices_S4096x10_o0_9_S4096x1 : S4096x10.Slices ![0, 9] S4096x1
  slices_S4096x10_o0_0_S4096x1 : S4096x10.Slices ![0, 0] S4096x1
  concatenates_S4096x1_S4096x1_S4096x1_S4096x1_S4096x1_S4096x1_S4096x1_S4096x1_S4096x1_S4096x1_S4096x10_d1 : Shape.Concatenates [S4096x1, S4096x1, S4096x1, S4096x1, S4096x1, S4096x1, S4096x1, S4096x1, S4096x1, S4096x1] S4096x10 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x10.size a ≤ S65536x10.size a
  hwx0_0 : ∀ i : grid0.Coords, EltTy.bits .f32 = 32 ∨ (Rect.block (s := S65536x10) S4096x10.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10.size a ≤ S10.size a
  hwx0_1 : ∀ i : grid0.Coords, EltTy.bits .f32 = 32 ∨ (Rect.block (s := S10) S10.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x10.size a ≤ S65536x10.size a
  hwx0_2 : ∀ i : grid0.Coords, EltTy.bits .f32 = 32 ∨ (Rect.block (s := S65536x10) S4096x10.size (cc0_transform_2 i) (hinb0_2 i)).WholeWords (EltTy.packing .f32)

variable [Facts₀]

abbrev win0_0 : Pipeline.Window sig grid0 :=
  Pipeline.Window.ofSpec (Memref.whole main_arg0) S4096x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x10.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x10 : Shape := ⟨2, ![65536, 10]⟩
abbrev S10 : Shape := ⟨1, ![10]⟩
abbrev S1x10 : Shape := ⟨2, ![1, 10]⟩
abbrev S_ : Shape := ⟨0, ![]⟩
abbrev S65536x1 : Shape := ⟨2, ![65536, 1]⟩
abbrev S65536 : Shape := ⟨1, ![65536]⟩
abbrev S65536x2 : Shape := ⟨2, ![65536, 2]⟩
abbrev S65536x1x1 : Shape := ⟨3, ![65536, 1, 1]⟩
abbrev S65536x1x2 : Shape := ⟨3, ![65536, 1, 2]⟩
abbrev S65536x2x1 : Shape := ⟨3, ![65536, 2, 1]⟩
abbrev S65536x2x2 : Shape := ⟨3, ![65536, 2, 2]⟩
abbrev S65536x4 : Shape := ⟨2, ![65536, 4]⟩
abbrev S65536x4x1 : Shape := ⟨3, ![65536, 4, 1]⟩
abbrev S65536x4x2 : Shape := ⟨3, ![65536, 4, 2]⟩
abbrev S65536x8 : Shape := ⟨2, ![65536, 8]⟩
abbrev S65536x8x1 : Shape := ⟨3, ![65536, 8, 1]⟩
abbrev S65536x8x2 : Shape := ⟨3, ![65536, 8, 2]⟩
abbrev S65536x16 : Shape := ⟨2, ![65536, 16]⟩
abbrev S65536x16x1 : Shape := ⟨3, ![65536, 16, 1]⟩
abbrev S65536x16x2 : Shape := ⟨3, ![65536, 16, 2]⟩
abbrev S65536x32 : Shape := ⟨2, ![65536, 32]⟩
abbrev S65536x32x1 : Shape := ⟨3, ![65536, 32, 1]⟩
abbrev S65536x32x2 : Shape := ⟨3, ![65536, 32, 2]⟩
abbrev S65536x64 : Shape := ⟨2, ![65536, 64]⟩
abbrev S65536x64x1 : Shape := ⟨3, ![65536, 64, 1]⟩
abbrev S65536x64x2 : Shape := ⟨3, ![65536, 64, 2]⟩
abbrev S65536x128 : Shape := ⟨2, ![65536, 128]⟩
abbrev S65536x128x1 : Shape := ⟨3, ![65536, 128, 1]⟩
abbrev S65536x128x2 : Shape := ⟨3, ![65536, 128, 2]⟩
abbrev S65536x256 : Shape := ⟨2, ![65536, 256]⟩
abbrev S65536x256x1 : Shape := ⟨3, ![65536, 256, 1]⟩
abbrev S65536x256x2 : Shape := ⟨3, ![65536, 256, 2]⟩
abbrev S65536x512 : Shape := ⟨2, ![65536, 512]⟩
abbrev S65536x512x1 : Shape := ⟨3, ![65536, 512, 1]⟩
abbrev S65536x512x2 : Shape := ⟨3, ![65536, 512, 2]⟩
abbrev S65536x1024 : Shape := ⟨2, ![65536, 1024]⟩
abbrev S65536x2x2x2x2x2x2x2x2x2x2 : Shape := ⟨11, ![65536, 2, 2, 2, 2, 2, 2, 2, 2, 2, 2]⟩
abbrev S65536x1x2x2x2x2x2x2x2x2x2 : Shape := ⟨11, ![65536, 1, 2, 2, 2, 2, 2, 2, 2, 2, 2]⟩
abbrev S1024 : Shape := ⟨1, ![1024]⟩
abbrev S1024x1 : Shape := ⟨2, ![1024, 1]⟩
abbrev S1024x10 : Shape := ⟨2, ![1024, 10]⟩

abbrev nBuf : Space → Nat
  | .hbm => 224
  | .vmem => 0
  | .smem => 0
  | _ => 0

abbrev hbmTy0_0 (i : Nat) : BufTy := match i % 128 with
  | 0 => ⟨S65536x10, .f32⟩
  | 1 => ⟨S10, .f32⟩
  | 2 => ⟨S1x10, .f32⟩
  | 3 => ⟨S65536x10, .f32⟩
  | 4 => ⟨S65536x10, .f32⟩
  | 5 => ⟨S_, .f32⟩
  | 6 => ⟨S65536x10, .f32⟩
  | 7 => ⟨S65536x10, .f32⟩
  | 8 => ⟨S65536x10, .f32⟩
  | 9 => ⟨S65536x10, .f32⟩
  | 10 => ⟨S_, .f32⟩
  | 11 => ⟨S65536x1, .f32⟩
  | 12 => ⟨S65536x1, .f32⟩
  | 13 => ⟨S65536, .f32⟩
  | 14 => ⟨S65536x1, .f32⟩
  | 15 => ⟨S65536, .f32⟩
  | 16 => ⟨S65536x1, .f32⟩
  | 17 => ⟨S65536x1, .f32⟩
  | 18 => ⟨S65536x2, .f32⟩
  | 19 => ⟨S65536x1x1, .f32⟩
  | 20 => ⟨S65536x1x2, .f32⟩
  | 21 => ⟨S65536x1x2, .f32⟩
  | 22 => ⟨S65536x1x2, .f32⟩
  | 23 => ⟨S65536x2, .f32⟩
  | 24 => ⟨S65536x1, .f32⟩
  | 25 => ⟨S65536, .f32⟩
  | 26 => ⟨S65536x1, .f32⟩
  | 27 => ⟨S65536, .f32⟩
  | 28 => ⟨S65536x1, .f32⟩
  | 29 => ⟨S65536x1, .f32⟩
  | 30 => ⟨S65536x2, .f32⟩
  | 31 => ⟨S65536x2x1, .f32⟩
  | 32 => ⟨S65536x1x2, .f32⟩
  | 33 => ⟨S65536x2x2, .f32⟩
  | 34 => ⟨S65536x2x2, .f32⟩
  | 35 => ⟨S65536x2x2, .f32⟩
  | 36 => ⟨S65536x4, .f32⟩
  | 37 => ⟨S65536x1, .f32⟩
  | 38 => ⟨S65536, .f32⟩
  | 39 => ⟨S65536x1, .f32⟩
  | 40 => ⟨S65536, .f32⟩
  | 41 => ⟨S65536x1, .f32⟩
  | 42 => ⟨S65536x1, .f32⟩
  | 43 => ⟨S65536x2, .f32⟩
  | 44 => ⟨S65536x4x1, .f32⟩
  | 45 => ⟨S65536x1x2, .f32⟩
  | 46 => ⟨S65536x4x2, .f32⟩
  | 47 => ⟨S65536x4x2, .f32⟩
  | 48 => ⟨S65536x4x2, .f32⟩
  | 49 => ⟨S65536x8, .f32⟩
  | 50 => ⟨S65536x1, .f32⟩
  | 51 => ⟨S65536, .f32⟩
  | 52 => ⟨S65536x1, .f32⟩
  | 53 => ⟨S65536, .f32⟩
  | 54 => ⟨S65536x1, .f32⟩
  | 55 => ⟨S65536x1, .f32⟩
  | 56 => ⟨S65536x2, .f32⟩
  | 57 => ⟨S65536x8x1, .f32⟩
  | 58 => ⟨S65536x1x2, .f32⟩
  | 59 => ⟨S65536x8x2, .f32⟩
  | 60 => ⟨S65536x8x2, .f32⟩
  | 61 => ⟨S65536x8x2, .f32⟩
  | 62 => ⟨S65536x16, .f32⟩
  | 63 => ⟨S65536x1, .f32⟩
  | 64 => ⟨S65536, .f32⟩
  | 65 => ⟨S65536x1, .f32⟩
  | 66 => ⟨S65536, .f32⟩
  | 67 => ⟨S65536x1, .f32⟩
  | 68 => ⟨S65536x1, .f32⟩
  | 69 => ⟨S65536x2, .f32⟩
  | 70 => ⟨S65536x16x1, .f32⟩
  | 71 => ⟨S65536x1x2, .f32⟩
  | 72 => ⟨S65536x16x2, .f32⟩
  | 73 => ⟨S65536x16x2, .f32⟩
  | 74 => ⟨S65536x16x2, .f32⟩
  | 75 => ⟨S65536x32, .f32⟩
  | 76 => ⟨S65536x1, .f32⟩
  | 77 => ⟨S65536, .f32⟩
  | 78 => ⟨S65536x1, .f32⟩
  | 79 => ⟨S65536, .f32⟩
  | 80 => ⟨S65536x1, .f32⟩
  | 81 => ⟨S65536x1, .f32⟩
  | 82 => ⟨S65536x2, .f32⟩
  | 83 => ⟨S65536x32x1, .f32⟩
  | 84 => ⟨S65536x1x2, .f32⟩
  | 85 => ⟨S65536x32x2, .f32⟩
  | 86 => ⟨S65536x32x2, .f32⟩
  | 87 => ⟨S65536x32x2, .f32⟩
  | 88 => ⟨S65536x64, .f32⟩
  | 89 => ⟨S65536x1, .f32⟩
  | 90 => ⟨S65536, .f32⟩
  | 91 => ⟨S65536x1, .f32⟩
  | 92 => ⟨S65536, .f32⟩
  | 93 => ⟨S65536x1, .f32⟩
  | 94 => ⟨S65536x1, .f32⟩
  | 95 => ⟨S65536x2, .f32⟩
  | 96 => ⟨S65536x64x1, .f32⟩
  | 97 => ⟨S65536x1x2, .f32⟩
  | 98 => ⟨S65536x64x2, .f32⟩
  | 99 => ⟨S65536x64x2, .f32⟩
  | 100 => ⟨S65536x64x2, .f32⟩
  | 101 => ⟨S65536x128, .f32⟩
  | 102 => ⟨S65536x1, .f32⟩
  | 103 => ⟨S65536, .f32⟩
  | 104 => ⟨S65536x1, .f32⟩
  | 105 => ⟨S65536, .f32⟩
  | 106 => ⟨S65536x1, .f32⟩
  | 107 => ⟨S65536x1, .f32⟩
  | 108 => ⟨S65536x2, .f32⟩
  | 109 => ⟨S65536x128x1, .f32⟩
  | 110 => ⟨S65536x1x2, .f32⟩
  | 111 => ⟨S65536x128x2, .f32⟩
  | 112 => ⟨S65536x128x2, .f32⟩
  | 113 => ⟨S65536x128x2, .f32⟩
  | 114 => ⟨S65536x256, .f32⟩
  | 115 => ⟨S65536x1, .f32⟩
  | 116 => ⟨S65536, .f32⟩
  | 117 => ⟨S65536x1, .f32⟩
  | 118 => ⟨S65536, .f32⟩
  | 119 => ⟨S65536x1, .f32⟩
  | 120 => ⟨S65536x1, .f32⟩
  | 121 => ⟨S65536x2, .f32⟩
  | 122 => ⟨S65536x256x1, .f32⟩
  | 123 => ⟨S65536x1x2, .f32⟩
  | 124 => ⟨S65536x256x2, .f32⟩
  | 125 => ⟨S65536x256x2, .f32⟩
  | 126 => ⟨S65536x256x2, .f32⟩
  | 127 => ⟨S65536x512, .f32⟩
  | _ => ⟨S65536x10, .f32⟩

abbrev hbmTy0_1 (i : Nat) : BufTy := match i % 128 with
  | 0 => ⟨S65536x1, .f32⟩
  | 1 => ⟨S65536, .f32⟩
  | 2 => ⟨S65536x1, .f32⟩
  | 3 => ⟨S65536, .f32⟩
  | 4 => ⟨S65536x1, .f32⟩
  | 5 => ⟨S65536x1, .f32⟩
  | 6 => ⟨S65536x2, .f32⟩
  | 7 => ⟨S65536x512x1, .f32⟩
  | 8 => ⟨S65536x1x2, .f32⟩
  | 9 => ⟨S65536x512x2, .f32⟩
  | 10 => ⟨S65536x512x2, .f32⟩
  | 11 => ⟨S65536x512x2, .f32⟩
  | 12 => ⟨S65536x1024, .f32⟩
  | 13 => ⟨S65536x2x2x2x2x2x2x2x2x2x2, .f32⟩
  | 14 => ⟨S65536x1x2x2x2x2x2x2x2x2x2, .f32⟩
  | 15 => ⟨S65536x1x2x2x2x2x2x2x2x2x2, .f32⟩
  | 16 => ⟨S65536x1x2x2x2x2x2x2x2x2x2, .f32⟩
  | 17 => ⟨S65536x2x2x2x2x2x2x2x2x2x2, .f32⟩
  | 18 => ⟨S65536x2x2x2x2x2x2x2x2x2x2, .f32⟩
  | 19 => ⟨S65536x1x2x2x2x2x2x2x2x2x2, .f32⟩
  | 20 => ⟨S65536x1x2x2x2x2x2x2x2x2x2, .f32⟩
  | 21 => ⟨S65536x1x2x2x2x2x2x2x2x2x2, .f32⟩
  | 22 => ⟨S65536x2x2x2x2x2x2x2x2x2x2, .f32⟩
  | 23 => ⟨S65536x2x2x2x2x2x2x2x2x2x2, .f32⟩
  | 24 => ⟨S65536x2x2x2x2x2x2x2x2x2x2, .f32⟩
  | 25 => ⟨S65536x1x2x2x2x2x2x2x2x2x2, .f32⟩
  | 26 => ⟨S65536x1x2x2x2x2x2x2x2x2x2, .f32⟩
  | 27 => ⟨S65536x1x2x2x2x2x2x2x2x2x2, .f32⟩
  | 28 => ⟨S65536x2x2x2x2x2x2x2x2x2x2, .f32⟩
  | 29 => ⟨S65536x2x2x2x2x2x2x2x2x2x2, .f32⟩
  | 30 => ⟨S65536x2x2x2x2x2x2x2x2x2x2, .f32⟩
  | 31 => ⟨S65536x1x2x2x2x2x2x2x2x2x2, .f32⟩
  | 32 => ⟨S65536x1x2x2x2x2x2x2x2x2x2, .f32⟩
  | 33 => ⟨S65536x1x2x2x2x2x2x2x2x2x2, .f32⟩
  | 34 => ⟨S65536x2x2x2x2x2x2x2x2x2x2, .f32⟩
  | 35 => ⟨S65536x2x2x2x2x2x2x2x2x2x2, .f32⟩
  | 36 => ⟨S65536x2x2x2x2x2x2x2x2x2x2, .f32⟩
  | 37 => ⟨S65536x1x2x2x2x2x2x2x2x2x2, .f32⟩
  | 38 => ⟨S65536x1x2x2x2x2x2x2x2x2x2, .f32⟩
  | 39 => ⟨S65536x1x2x2x2x2x2x2x2x2x2, .f32⟩
  | 40 => ⟨S65536x2x2x2x2x2x2x2x2x2x2, .f32⟩
  | 41 => ⟨S65536x2x2x2x2x2x2x2x2x2x2, .f32⟩
  | 42 => ⟨S65536x2x2x2x2x2x2x2x2x2x2, .f32⟩
  | 43 => ⟨S65536x1x2x2x2x2x2x2x2x2x2, .f32⟩
  | 44 => ⟨S65536x1x2x2x2x2x2x2x2x2x2, .f32⟩
  | 45 => ⟨S65536x1x2x2x2x2x2x2x2x2x2, .f32⟩
  | 46 => ⟨S65536x2x2x2x2x2x2x2x2x2x2, .f32⟩
  | 47 => ⟨S65536x2x2x2x2x2x2x2x2x2x2, .f32⟩
  | 48 => ⟨S65536x2x2x2x2x2x2x2x2x2x2, .f32⟩
  | 49 => ⟨S65536x1x2x2x2x2x2x2x2x2x2, .f32⟩
  | 50 => ⟨S65536x1x2x2x2x2x2x2x2x2x2, .f32⟩
  | 51 => ⟨S65536x1x2x2x2x2x2x2x2x2x2, .f32⟩
  | 52 => ⟨S65536x2x2x2x2x2x2x2x2x2x2, .f32⟩
  | 53 => ⟨S65536x2x2x2x2x2x2x2x2x2x2, .f32⟩
  | 54 => ⟨S65536x2x2x2x2x2x2x2x2x2x2, .f32⟩
  | 55 => ⟨S65536x1x2x2x2x2x2x2x2x2x2, .f32⟩
  | 56 => ⟨S65536x1x2x2x2x2x2x2x2x2x2, .f32⟩
  | 57 => ⟨S65536x1x2x2x2x2x2x2x2x2x2, .f32⟩
  | 58 => ⟨S65536x2x2x2x2x2x2x2x2x2x2, .f32⟩
  | 59 => ⟨S65536x2x2x2x2x2x2x2x2x2x2, .f32⟩
  | 60 => ⟨S65536x2x2x2x2x2x2x2x2x2x2, .f32⟩
  | 61 => ⟨S65536x1x2x2x2x2x2x2x2x2x2, .f32⟩
  | 62 => ⟨S65536x1x2x2x2x2x2x2x2x2x2, .f32⟩
  | 63 => ⟨S65536x1x2x2x2x2x2x2x2x2x2, .f32⟩
  | 64 => ⟨S65536x2x2x2x2x2x2x2x2x2x2, .f32⟩
  | 65 => ⟨S65536x2x2x2x2x2x2x2x2x2x2, .f32⟩
  | 66 => ⟨S65536x2x2x2x2x2x2x2x2x2x2, .f32⟩
  | 67 => ⟨S65536x1x2x2x2x2x2x2x2x2x2, .f32⟩
  | 68 => ⟨S65536x1x2x2x2x2x2x2x2x2x2, .f32⟩
  | 69 => ⟨S65536x1x2x2x2x2x2x2x2x2x2, .f32⟩
  | 70 => ⟨S65536x2x2x2x2x2x2x2x2x2x2, .f32⟩
  | 71 => ⟨S65536x2x2x2x2x2x2x2x2x2x2, .f32⟩
  | 72 => ⟨S65536x2x2x2x2x2x2x2x2x2x2, .f32⟩
  | 73 => ⟨S65536x1024, .f32⟩
  | 74 => ⟨S1024, .i32⟩
  | 75 => ⟨S1024x1, .i32⟩
  | 76 => ⟨S10, .i32⟩
  | 77 => ⟨S_, .i32⟩
  | 78 => ⟨S10, .i32⟩
  | 79 => ⟨S10, .i32⟩
  | 80 => ⟨S1x10, .i32⟩
  | 81 => ⟨S1024x10, .i32⟩
  | 82 => ⟨S1024x10, .i32⟩
  | 83 => ⟨S1024x10, .i32⟩
  | 84 => ⟨S_, .i32⟩
  | 85 => ⟨S1024x10, .i32⟩
  | 86 => ⟨S1024x10, .i32⟩
  | 87 => ⟨S1024x10, .f32⟩
  | 88 => ⟨S_, .f32⟩
  | 89 => ⟨S1024x10, .f32⟩
  | 90 => ⟨S1024x10, .f32⟩
  | 91 => ⟨S_, .f32⟩
  | 92 => ⟨S1024x10, .f32⟩
  | 93 => ⟨S1024x10, .f32⟩
  | 94 => ⟨S1024x10, .f32⟩
  | 95 => ⟨S65536x10, .f32⟩
  | _ => ⟨S65536x10, .f32⟩

abbrev hbmTy (i : Nat) : BufTy := match i / 128 with
  | 0 => hbmTy0_0 i
  | 1 => hbmTy0_1 i
  | _ => ⟨S65536x10, .f32⟩

abbrev bufTy : (tb : Table) → Fin (tcTables nBuf tb) → BufTy
  | .hbm, ⟨i, _⟩ => hbmTy i
  | _, _ => ⟨S65536x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_v67 : Ref sig .tc := ⟨.hbm, 71, rfl⟩
abbrev main_v68 : Ref sig .tc := ⟨.hbm, 72, rfl⟩
abbrev main_v69 : Ref sig .tc := ⟨.hbm, 73, rfl⟩
abbrev main_v70 : Ref sig .tc := ⟨.hbm, 74, rfl⟩
abbrev main_v71 : Ref sig .tc := ⟨.hbm, 75, rfl⟩
abbrev main_v72 : Ref sig .tc := ⟨.hbm, 76, rfl⟩
abbrev main_v73 : Ref sig .tc := ⟨.hbm, 77, rfl⟩
abbrev main_v74 : Ref sig .tc := ⟨.hbm, 78, rfl⟩
abbrev main_v75 : Ref sig .tc := ⟨.hbm, 79, rfl⟩
abbrev main_v76 : Ref sig .tc := ⟨.hbm, 80, rfl⟩
abbrev main_v77 : Ref sig .tc := ⟨.hbm, 81, rfl⟩
abbrev main_v78 : Ref sig .tc := ⟨.hbm, 82, rfl⟩
abbrev main_v79 : Ref sig .tc := ⟨.hbm, 83, rfl⟩
abbrev main_v80 : Ref sig .tc := ⟨.hbm, 84, rfl⟩
abbrev main_v81 : Ref sig .tc := ⟨.hbm, 85, rfl⟩
abbrev main_v82 : Ref sig .tc := ⟨.hbm, 86, rfl⟩
abbrev main_v83 : Ref sig .tc := ⟨.hbm, 87, rfl⟩
abbrev main_v84 : Ref sig .tc := ⟨.hbm, 88, rfl⟩
abbrev main_v85 : Ref sig .tc := ⟨.hbm, 89, rfl⟩
abbrev main_v86 : Ref sig .tc := ⟨.hbm, 90, rfl⟩
abbrev main_v87 : Ref sig .tc := ⟨.hbm, 91, rfl⟩
abbrev main_v88 : Ref sig .tc := ⟨.hbm, 92, rfl⟩
abbrev main_v89 : Ref sig .tc := ⟨.hbm, 93, rfl⟩
abbrev main_v90 : Ref sig .tc := ⟨.hbm, 94, rfl⟩
abbrev main_v91 : Ref sig .tc := ⟨.hbm, 95, rfl⟩
abbrev main_v92 : Ref sig .tc := ⟨.hbm, 96, rfl⟩
abbrev main_v93 : Ref sig .tc := ⟨.hbm, 97, rfl⟩
abbrev main_v94 : Ref sig .tc := ⟨.hbm, 98, rfl⟩
abbrev main_v95 : Ref sig .tc := ⟨.hbm, 99, rfl⟩
abbrev main_v96 : Ref sig .tc := ⟨.hbm, 100, rfl⟩
abbrev main_v97 : Ref sig .tc := ⟨.hbm, 101, rfl⟩
abbrev main_v98 : Ref sig .tc := ⟨.hbm, 102, rfl⟩
abbrev main_v99 : Ref sig .tc := ⟨.hbm, 103, rfl⟩
abbrev main_v100 : Ref sig .tc := ⟨.hbm, 104, rfl⟩
abbrev main_v101 : Ref sig .tc := ⟨.hbm, 105, rfl⟩
abbrev main_v102 : Ref sig .tc := ⟨.hbm, 106, rfl⟩
abbrev main_v103 : Ref sig .tc := ⟨.hbm, 107, rfl⟩
abbrev main_v104 : Ref sig .tc := ⟨.hbm, 108, rfl⟩
abbrev main_v105 : Ref sig .tc := ⟨.hbm, 109, rfl⟩
abbrev main_v106 : Ref sig .tc := ⟨.hbm, 110, rfl⟩
abbrev main_v107 : Ref sig .tc := ⟨.hbm, 111, rfl⟩
abbrev main_v108 : Ref sig .tc := ⟨.hbm, 112, rfl⟩
abbrev main_v109 : Ref sig .tc := ⟨.hbm, 113, rfl⟩
abbrev main_v110 : Ref sig .tc := ⟨.hbm, 114, rfl⟩
abbrev main_v111 : Ref sig .tc := ⟨.hbm, 115, rfl⟩
abbrev main_v112 : Ref sig .tc := ⟨.hbm, 116, rfl⟩
abbrev main_v113 : Ref sig .tc := ⟨.hbm, 117, rfl⟩
abbrev main_v114 : Ref sig .tc := ⟨.hbm, 118, rfl⟩
abbrev main_v115 : Ref sig .tc := ⟨.hbm, 119, rfl⟩
abbrev main_v116 : Ref sig .tc := ⟨.hbm, 120, rfl⟩
abbrev main_v117 : Ref sig .tc := ⟨.hbm, 121, rfl⟩
abbrev main_v118 : Ref sig .tc := ⟨.hbm, 122, rfl⟩
abbrev main_v119 : Ref sig .tc := ⟨.hbm, 123, rfl⟩
abbrev main_v120 : Ref sig .tc := ⟨.hbm, 124, rfl⟩
abbrev main_v121 : Ref sig .tc := ⟨.hbm, 125, rfl⟩
abbrev main_v122 : Ref sig .tc := ⟨.hbm, 126, rfl⟩
abbrev main_v123 : Ref sig .tc := ⟨.hbm, 127, rfl⟩
abbrev main_v124 : Ref sig .tc := ⟨.hbm, 128, rfl⟩
abbrev main_v125 : Ref sig .tc := ⟨.hbm, 129, rfl⟩
abbrev main_v126 : Ref sig .tc := ⟨.hbm, 130, rfl⟩
abbrev main_v127 : Ref sig .tc := ⟨.hbm, 131, rfl⟩
abbrev main_v128 : Ref sig .tc := ⟨.hbm, 132, rfl⟩
abbrev main_v129 : Ref sig .tc := ⟨.hbm, 133, rfl⟩
abbrev main_v130 : Ref sig .tc := ⟨.hbm, 134, rfl⟩
abbrev main_v131 : Ref sig .tc := ⟨.hbm, 135, rfl⟩
abbrev main_v132 : Ref sig .tc := ⟨.hbm, 136, rfl⟩
abbrev main_v133 : Ref sig .tc := ⟨.hbm, 137, rfl⟩
abbrev main_v134 : Ref sig .tc := ⟨.hbm, 138, rfl⟩
abbrev main_v135 : Ref sig .tc := ⟨.hbm, 139, rfl⟩
abbrev main_v136 : Ref sig .tc := ⟨.hbm, 140, rfl⟩
abbrev main_v137 : Ref sig .tc := ⟨.hbm, 141, rfl⟩
abbrev main_v138 : Ref sig .tc := ⟨.hbm, 142, rfl⟩
abbrev main_v139 : Ref sig .tc := ⟨.hbm, 143, rfl⟩
abbrev main_v140 : Ref sig .tc := ⟨.hbm, 144, rfl⟩
abbrev main_v141 : Ref sig .tc := ⟨.hbm, 145, rfl⟩
abbrev main_v142 : Ref sig .tc := ⟨.hbm, 146, rfl⟩
abbrev main_v143 : Ref sig .tc := ⟨.hbm, 147, rfl⟩
abbrev main_v144 : Ref sig .tc := ⟨.hbm, 148, rfl⟩
abbrev main_v145 : Ref sig .tc := ⟨.hbm, 149, rfl⟩
abbrev main_v146 : Ref sig .tc := ⟨.hbm, 150, rfl⟩
abbrev main_v147 : Ref sig .tc := ⟨.hbm, 151, rfl⟩
abbrev main_v148 : Ref sig .tc := ⟨.hbm, 152, rfl⟩
abbrev main_v149 : Ref sig .tc := ⟨.hbm, 153, rfl⟩
abbrev main_v150 : Ref sig .tc := ⟨.hbm, 154, rfl⟩
abbrev main_v151 : Ref sig .tc := ⟨.hbm, 155, rfl⟩
abbrev main_v152 : Ref sig .tc := ⟨.hbm, 156, rfl⟩
abbrev main_v153 : Ref sig .tc := ⟨.hbm, 157, rfl⟩
abbrev main_v154 : Ref sig .tc := ⟨.hbm, 158, rfl⟩
abbrev main_v155 : Ref sig .tc := ⟨.hbm, 159, rfl⟩
abbrev main_v156 : Ref sig .tc := ⟨.hbm, 160, rfl⟩
abbrev main_v157 : Ref sig .tc := ⟨.hbm, 161, rfl⟩
abbrev main_v158 : Ref sig .tc := ⟨.hbm, 162, rfl⟩
abbrev main_v159 : Ref sig .tc := ⟨.hbm, 163, rfl⟩
abbrev main_v160 : Ref sig .tc := ⟨.hbm, 164, rfl⟩
abbrev main_v161 : Ref sig .tc := ⟨.hbm, 165, rfl⟩
abbrev main_v162 : Ref sig .tc := ⟨.hbm, 166, rfl⟩
abbrev main_v163 : Ref sig .tc := ⟨.hbm, 167, rfl⟩
abbrev main_v164 : Ref sig .tc := ⟨.hbm, 168, rfl⟩
abbrev main_v165 : Ref sig .tc := ⟨.hbm, 169, rfl⟩
abbrev main_v166 : Ref sig .tc := ⟨.hbm, 170, rfl⟩
abbrev main_v167 : Ref sig .tc := ⟨.hbm, 171, rfl⟩
abbrev main_v168 : Ref sig .tc := ⟨.hbm, 172, rfl⟩
abbrev main_v169 : Ref sig .tc := ⟨.hbm, 173, rfl⟩
abbrev main_v170 : Ref sig .tc := ⟨.hbm, 174, rfl⟩
abbrev main_v171 : Ref sig .tc := ⟨.hbm, 175, rfl⟩
abbrev main_v172 : Ref sig .tc := ⟨.hbm, 176, rfl⟩
abbrev main_v173 : Ref sig .tc := ⟨.hbm, 177, rfl⟩
abbrev main_v174 : Ref sig .tc := ⟨.hbm, 178, rfl⟩
abbrev main_v175 : Ref sig .tc := ⟨.hbm, 179, rfl⟩
abbrev main_v176 : Ref sig .tc := ⟨.hbm, 180, rfl⟩
abbrev main_v177 : Ref sig .tc := ⟨.hbm, 181, rfl⟩
abbrev main_v178 : Ref sig .tc := ⟨.hbm, 182, rfl⟩
abbrev main_v179 : Ref sig .tc := ⟨.hbm, 183, rfl⟩
abbrev main_v180 : Ref sig .tc := ⟨.hbm, 184, rfl⟩
abbrev main_v181 : Ref sig .tc := ⟨.hbm, 185, rfl⟩
abbrev main_v182 : Ref sig .tc := ⟨.hbm, 186, rfl⟩
abbrev main_v183 : Ref sig .tc := ⟨.hbm, 187, rfl⟩
abbrev main_v184 : Ref sig .tc := ⟨.hbm, 188, rfl⟩
abbrev main_v185 : Ref sig .tc := ⟨.hbm, 189, rfl⟩
abbrev main_v186 : Ref sig .tc := ⟨.hbm, 190, rfl⟩
abbrev main_v187 : Ref sig .tc := ⟨.hbm, 191, rfl⟩
abbrev main_v188 : Ref sig .tc := ⟨.hbm, 192, rfl⟩
abbrev main_v189 : Ref sig .tc := ⟨.hbm, 193, rfl⟩
abbrev main_v190 : Ref sig .tc := ⟨.hbm, 194, rfl⟩
abbrev main_v191 : Ref sig .tc := ⟨.hbm, 195, rfl⟩
abbrev main_v192 : Ref sig .tc := ⟨.hbm, 196, rfl⟩
abbrev main_v193 : Ref sig .tc := ⟨.hbm, 197, rfl⟩
abbrev main_v194 : Ref sig .tc := ⟨.hbm, 198, rfl⟩
abbrev main_v195 : Ref sig .tc := ⟨.hbm, 199, rfl⟩
abbrev main_v196 : Ref sig .tc := ⟨.hbm, 200, rfl⟩
abbrev main_v197 : Ref sig .tc := ⟨.hbm, 201, rfl⟩
abbrev main_v198 : Ref sig .tc := ⟨.hbm, 202, rfl⟩
abbrev main_v199 : Ref sig .tc := ⟨.hbm, 203, rfl⟩
abbrev main_v200 : Ref sig .tc := ⟨.hbm, 204, rfl⟩
abbrev main_c : Ref sig .tc := ⟨.hbm, 205, rfl⟩
abbrev main_v201 : Ref sig .tc := ⟨.hbm, 206, rfl⟩
abbrev main_v202 : Ref sig .tc := ⟨.hbm, 207, rfl⟩
abbrev main_v203 : Ref sig .tc := ⟨.hbm, 208, rfl⟩
abbrev main_v204 : Ref sig .tc := ⟨.hbm, 209, rfl⟩
abbrev main_v205 : Ref sig .tc := ⟨.hbm, 210, rfl⟩
abbrev main_v206 : Ref sig .tc := ⟨.hbm, 211, rfl⟩
abbrev main_c_1 : Ref sig .tc := ⟨.hbm, 212, rfl⟩
abbrev main_v207 : Ref sig .tc := ⟨.hbm, 213, rfl⟩
abbrev main_v208 : Ref sig .tc := ⟨.hbm, 214, rfl⟩
abbrev main_v209 : Ref sig .tc := ⟨.hbm, 215, rfl⟩
abbrev main_cst_2 : Ref sig .tc := ⟨.hbm, 216, rfl⟩
abbrev main_v210 : Ref sig .tc := ⟨.hbm, 217, rfl⟩
abbrev main_v211 : Ref sig .tc := ⟨.hbm, 218, rfl⟩
abbrev main_cst_3 : Ref sig .tc := ⟨.hbm, 219, rfl⟩
abbrev main_v212 : Ref sig .tc := ⟨.hbm, 220, rfl⟩
abbrev main_v213 : Ref sig .tc := ⟨.hbm, 221, rfl⟩
abbrev main_v214 : Ref sig .tc := ⟨.hbm, 222, rfl⟩
abbrev main_v215 : Ref sig .tc := ⟨.hbm, 223, rfl⟩

abbrev nD : Nat := 1
abbrev τ : Topo := Topo.v7x

variable {F : FTy → Type} [FloatOps F]

class Facts₀ : Prop where
  bcast_S10_S1x10_1 : S10.BroadcastsInDim S1x10 (![1] : Fin 1 → Fin S1x10.rank)
  bcast_S1x10_S65536x10_0_1 : S1x10.BroadcastsInDim S65536x10 (![0, 1] : Fin 2 → Fin S65536x10.rank)
  bcast_S_S65536x10 : S_.BroadcastsInDim S65536x10 (![] : Fin 0 → Fin S65536x10.rank)
  bcast_S_S65536x1 : S_.BroadcastsInDim S65536x1 (![] : Fin 0 → Fin S65536x1.rank)
  slices_S65536x10_S65536x1_0_0 : S65536x10.Slices ![0, 0] S65536x1
  shapeCasts_S65536x1_S65536 : S65536x1.ShapeCasts S65536
  bcast_S65536_S65536x1_0 : S65536.BroadcastsInDim S65536x1 (![0] : Fin 1 → Fin S65536x1.rank)
  concatenates_S65536x1_S65536x1_S65536x2_d1 : Shape.Concatenates [S65536x1, S65536x1] S65536x2 1
  bcast_S65536x1_S65536x1x1_0_1 : S65536x1.BroadcastsInDim S65536x1x1 (![0, 1] : Fin 2 → Fin S65536x1x1.rank)
  bcast_S65536x2_S65536x1x2_0_2 : S65536x2.BroadcastsInDim S65536x1x2 (![0, 2] : Fin 2 → Fin S65536x1x2.rank)
  bcast_S65536x1x1_S65536x1x2_0_1_2 : S65536x1x1.BroadcastsInDim S65536x1x2 (![0, 1, 2] : Fin 3 → Fin S65536x1x2.rank)
  shapeCasts_S65536x1x2_S65536x2 : S65536x1x2.ShapeCasts S65536x2
  slices_S65536x10_S65536x1_0_1 : S65536x10.Slices ![0, 1] S65536x1
  bcast_S65536x2_S65536x2x1_0_1 : S65536x2.BroadcastsInDim S65536x2x1 (![0, 1] : Fin 2 → Fin S65536x2x1.rank)
  bcast_S65536x2x1_S65536x2x2_0_1_2 : S65536x2x1.BroadcastsInDim S65536x2x2 (![0, 1, 2] : Fin 3 → Fin S65536x2x2.rank)
  bcast_S65536x1x2_S65536x2x2_0_1_2 : S65536x1x2.BroadcastsInDim S65536x2x2 (![0, 1, 2] : Fin 3 → Fin S65536x2x2.rank)
  shapeCasts_S65536x2x2_S65536x4 : S65536x2x2.ShapeCasts S65536x4
  slices_S65536x10_S65536x1_0_2 : S65536x10.Slices ![0, 2] S65536x1
  bcast_S65536x4_S65536x4x1_0_1 : S65536x4.BroadcastsInDim S65536x4x1 (![0, 1] : Fin 2 → Fin S65536x4x1.rank)
  bcast_S65536x4x1_S65536x4x2_0_1_2 : S65536x4x1.BroadcastsInDim S65536x4x2 (![0, 1, 2] : Fin 3 → Fin S65536x4x2.rank)
  bcast_S65536x1x2_S65536x4x2_0_1_2 : S65536x1x2.BroadcastsInDim S65536x4x2 (![0, 1, 2] : Fin 3 → Fin S65536x4x2.rank)
  shapeCasts_S65536x4x2_S65536x8 : S65536x4x2.ShapeCasts S65536x8
  slices_S65536x10_S65536x1_0_3 : S65536x10.Slices ![0, 3] S65536x1
  bcast_S65536x8_S65536x8x1_0_1 : S65536x8.BroadcastsInDim S65536x8x1 (![0, 1] : Fin 2 → Fin S65536x8x1.rank)
  bcast_S65536x8x1_S65536x8x2_0_1_2 : S65536x8x1.BroadcastsInDim S65536x8x2 (![0, 1, 2] : Fin 3 → Fin S65536x8x2.rank)
  bcast_S65536x1x2_S65536x8x2_0_1_2 : S65536x1x2.BroadcastsInDim S65536x8x2 (![0, 1, 2] : Fin 3 → Fin S65536x8x2.rank)
  shapeCasts_S65536x8x2_S65536x16 : S65536x8x2.ShapeCasts S65536x16
  slices_S65536x10_S65536x1_0_4 : S65536x10.Slices ![0, 4] S65536x1
  bcast_S65536x16_S65536x16x1_0_1 : S65536x16.BroadcastsInDim S65536x16x1 (![0, 1] : Fin 2 → Fin S65536x16x1.rank)
  bcast_S65536x16x1_S65536x16x2_0_1_2 : S65536x16x1.BroadcastsInDim S65536x16x2 (![0, 1, 2] : Fin 3 → Fin S65536x16x2.rank)
  bcast_S65536x1x2_S65536x16x2_0_1_2 : S65536x1x2.BroadcastsInDim S65536x16x2 (![0, 1, 2] : Fin 3 → Fin S65536x16x2.rank)
  shapeCasts_S65536x16x2_S65536x32 : S65536x16x2.ShapeCasts S65536x32
  slices_S65536x10_S65536x1_0_5 : S65536x10.Slices ![0, 5] S65536x1
  bcast_S65536x32_S65536x32x1_0_1 : S65536x32.BroadcastsInDim S65536x32x1 (![0, 1] : Fin 2 → Fin S65536x32x1.rank)
  bcast_S65536x32x1_S65536x32x2_0_1_2 : S65536x32x1.BroadcastsInDim S65536x32x2 (![0, 1, 2] : Fin 3 → Fin S65536x32x2.rank)
  bcast_S65536x1x2_S65536x32x2_0_1_2 : S65536x1x2.BroadcastsInDim S65536x32x2 (![0, 1, 2] : Fin 3 → Fin S65536x32x2.rank)
  shapeCasts_S65536x32x2_S65536x64 : S65536x32x2.ShapeCasts S65536x64
  slices_S65536x10_S65536x1_0_6 : S65536x10.Slices ![0, 6] S65536x1
  bcast_S65536x64_S65536x64x1_0_1 : S65536x64.BroadcastsInDim S65536x64x1 (![0, 1] : Fin 2 → Fin S65536x64x1.rank)
  bcast_S65536x64x1_S65536x64x2_0_1_2 : S65536x64x1.BroadcastsInDim S65536x64x2 (![0, 1, 2] : Fin 3 → Fin S65536x64x2.rank)
  bcast_S65536x1x2_S65536x64x2_0_1_2 : S65536x1x2.BroadcastsInDim S65536x64x2 (![0, 1, 2] : Fin 3 → Fin S65536x64x2.rank)
  shapeCasts_S65536x64x2_S65536x128 : S65536x64x2.ShapeCasts S65536x128
  slices_S65536x10_S65536x1_0_7 : S65536x10.Slices ![0, 7] S65536x1
  bcast_S65536x128_S65536x128x1_0_1 : S65536x128.BroadcastsInDim S65536x128x1 (![0, 1] : Fin 2 → Fin S65536x128x1.rank)
  bcast_S65536x128x1_S65536x128x2_0_1_2 : S65536x128x1.BroadcastsInDim S65536x128x2 (![0, 1, 2] : Fin 3 → Fin S65536x128x2.rank)
  bcast_S65536x1x2_S65536x128x2_0_1_2 : S65536x1x2.BroadcastsInDim S65536x128x2 (![0, 1, 2] : Fin 3 → Fin S65536x128x2.rank)
  shapeCasts_S65536x128x2_S65536x256 : S65536x128x2.ShapeCasts S65536x256
  slices_S65536x10_S65536x1_0_8 : S65536x10.Slices ![0, 8] S65536x1
  bcast_S65536x256_S65536x256x1_0_1 : S65536x256.BroadcastsInDim S65536x256x1 (![0, 1] : Fin 2 → Fin S65536x256x1.rank)
  bcast_S65536x256x1_S65536x256x2_0_1_2 : S65536x256x1.BroadcastsInDim S65536x256x2 (![0, 1, 2] : Fin 3 → Fin S65536x256x2.rank)
  bcast_S65536x1x2_S65536x256x2_0_1_2 : S65536x1x2.BroadcastsInDim S65536x256x2 (![0, 1, 2] : Fin 3 → Fin S65536x256x2.rank)
  shapeCasts_S65536x256x2_S65536x512 : S65536x256x2.ShapeCasts S65536x512
  slices_S65536x10_S65536x1_0_9 : S65536x10.Slices ![0, 9] S65536x1
  bcast_S65536x512_S65536x512x1_0_1 : S65536x512.BroadcastsInDim S65536x512x1 (![0, 1] : Fin 2 → Fin S65536x512x1.rank)
  bcast_S65536x512x1_S65536x512x2_0_1_2 : S65536x512x1.BroadcastsInDim S65536x512x2 (![0, 1, 2] : Fin 3 → Fin S65536x512x2.rank)
  bcast_S65536x1x2_S65536x512x2_0_1_2 : S65536x1x2.BroadcastsInDim S65536x512x2 (![0, 1, 2] : Fin 3 → Fin S65536x512x2.rank)
  shapeCasts_S65536x512x2_S65536x1024 : S65536x512x2.ShapeCasts S65536x1024
  shapeCasts_S65536x1024_S65536x2x2x2x2x2x2x2x2x2x2 : S65536x1024.ShapeCasts S65536x2x2x2x2x2x2x2x2x2x2
  slices_S65536x2x2x2x2x2x2x2x2x2x2_S65536x1x2x2x2x2x2x2x2x2x2_0_0_0_0_0_0_0_0_0_0_0 : S65536x2x2x2x2x2x2x2x2x2x2.Slices ![0, 0, 0, 0, 0, 0, 0, 0, 0, 0, 0] S65536x1x2x2x2x2x2x2x2x2x2
  slices_S65536x2x2x2x2x2x2x2x2x2x2_S65536x1x2x2x2x2x2x2x2x2x2_0_1_0_0_0_0_0_0_0_0_0 : S65536x2x2x2x2x2x2x2x2x2x2.Slices ![0, 1, 0, 0, 0, 0, 0, 0, 0, 0, 0] S65536x1x2x2x2x2x2x2x2x2x2
  concatenates_S65536x1x2x2x2x2x2x2x2x2x2_S65536x1x2x2x2x2x2x2x2x2x2_S65536x2x2x2x2x2x2x2x2x2x2_d1 : Shape.Concatenates [S65536x1x2x2x2x2x2x2x2x2x2, S65536x1x2x2x2x2x2x2x2x2x2] S65536x2x2x2x2x2x2x2x2x2x2 1
  transposes_S65536x2x2x2x2x2x2x2x2x2x2_S65536x2x2x2x2x2x2x2x2x2x2_0_2_3_1_4_5_6_7_8_9_10 : S65536x2x2x2x2x2x2x2x2x2x2.Transposes [0, 2, 3, 1, 4, 5, 6, 7, 8, 9, 10] S65536x2x2x2x2x2x2x2x2x2x2
  transposes_S65536x2x2x2x2x2x2x2x2x2x2_S65536x2x2x2x2x2x2x2x2x2x2_0_3_1_2_4_5_6_7_8_9_10 : S65536x2x2x2x2x2x2x2x2x2x2.Transposes [0, 3, 1, 2, 4, 5, 6, 7, 8, 9, 10] S65536x2x2x2x2x2x2x2x2x2x2
  transposes_S65536x2x2x2x2x2x2x2x2x2x2_S65536x2x2x2x2x2x2x2x2x2x2_0_3_4_1_2_5_6_7_8_9_10 : S65536x2x2x2x2x2x2x2x2x2x2.Transposes [0, 3, 4, 1, 2, 5, 6, 7, 8, 9, 10] S65536x2x2x2x2x2x2x2x2x2x2
  transposes_S65536x2x2x2x2x2x2x2x2x2x2_S65536x2x2x2x2x2x2x2x2x2x2_0_4_5_1_2_3_6_7_8_9_10 : S65536x2x2x2x2x2x2x2x2x2x2.Transposes [0, 4, 5, 1, 2, 3, 6, 7, 8, 9, 10] S65536x2x2x2x2x2x2x2x2x2x2
  transposes_S65536x2x2x2x2x2x2x2x2x2x2_S65536x2x2x2x2x2x2x2x2x2x2_0_3_4_5_1_2_6_7_8_9_10 : S65536x2x2x2x2x2x2x2x2x2x2.Transposes [0, 3, 4, 5, 1, 2, 6, 7, 8, 9, 10] S65536x2x2x2x2x2x2x2x2x2x2
  transposes_S65536x2x2x2x2x2x2x2x2x2x2_S65536x2x2x2x2x2x2x2x2x2x2_0_5_6_1_2_3_4_7_8_9_10 : S65536x2x2x2x2x2x2x2x2x2x2.Transposes [0, 5, 6, 1, 2, 3, 4, 7, 8, 9, 10] S65536x2x2x2x2x2x2x2x2x2x2
  transposes_S65536x2x2x2x2x2x2x2x2x2x2_S65536x2x2x2x2x2x2x2x2x2x2_0_3_4_5_6_1_2_7_8_9_10 : S65536x2x2x2x2x2x2x2x2x2x2.Transposes [0, 3, 4, 5, 6, 1, 2, 7, 8, 9, 10] S65536x2x2x2x2x2x2x2x2x2x2
  transposes_S65536x2x2x2x2x2x2x2x2x2x2_S65536x2x2x2x2x2x2x2x2x2x2_0_6_7_1_2_3_4_5_8_9_10 : S65536x2x2x2x2x2x2x2x2x2x2.Transposes [0, 6, 7, 1, 2, 3, 4, 5, 8, 9, 10] S65536x2x2x2x2x2x2x2x2x2x2
  transposes_S65536x2x2x2x2x2x2x2x2x2x2_S65536x2x2x2x2x2x2x2x2x2x2_0_3_4_5_6_7_1_2_8_9_10 : S65536x2x2x2x2x2x2x2x2x2x2.Transposes [0, 3, 4, 5, 6, 7, 1, 2, 8, 9, 10] S65536x2x2x2x2x2x2x2x2x2x2
  transposes_S65536x2x2x2x2x2x2x2x2x2x2_S65536x2x2x2x2x2x2x2x2x2x2_0_7_8_1_2_3_4_5_6_9_10 : S65536x2x2x2x2x2x2x2x2x2x2.Transposes [0, 7, 8, 1, 2, 3, 4, 5, 6, 9, 10] S65536x2x2x2x2x2x2x2x2x2x2
  transposes_S65536x2x2x2x2x2x2x2x2x2x2_S65536x2x2x2x2x2x2x2x2x2x2_0_3_4_5_6_7_8_1_2_9_10 : S65536x2x2x2x2x2x2x2x2x2x2.Transposes [0, 3, 4, 5, 6, 7, 8, 1, 2, 9, 10] S65536x2x2x2x2x2x2x2x2x2x2
  transposes_S65536x2x2x2x2x2x2x2x2x2x2_S65536x2x2x2x2x2x2x2x2x2x2_0_8_9_1_2_3_4_5_6_7_10 : S65536x2x2x2x2x2x2x2x2x2x2.Transposes [0, 8, 9, 1, 2, 3, 4, 5, 6, 7, 10] S65536x2x2x2x2x2x2x2x2x2x2
  transposes_S65536x2x2x2x2x2x2x2x2x2x2_S65536x2x2x2x2x2x2x2x2x2x2_0_3_4_5_6_7_8_9_1_2_10 : S65536x2x2x2x2x2x2x2x2x2x2.Transposes [0, 3, 4, 5, 6, 7, 8, 9, 1, 2, 10] S65536x2x2x2x2x2x2x2x2x2x2
  transposes_S65536x2x2x2x2x2x2x2x2x2x2_S65536x2x2x2x2x2x2x2x2x2x2_0_9_10_1_2_3_4_5_6_7_8 : S65536x2x2x2x2x2x2x2x2x2x2.Transposes [0, 9, 10, 1, 2, 3, 4, 5, 6, 7, 8] S65536x2x2x2x2x2x2x2x2x2x2
  transposes_S65536x2x2x2x2x2x2x2x2x2x2_S65536x2x2x2x2x2x2x2x2x2x2_0_3_4_5_6_7_8_9_10_1_2 : S65536x2x2x2x2x2x2x2x2x2x2.Transposes [0, 3, 4, 5, 6, 7, 8, 9, 10, 1, 2] S65536x2x2x2x2x2x2x2x2x2x2
  transposes_S65536x2x2x2x2x2x2x2x2x2x2_S65536x2x2x2x2x2x2x2x2x2x2_0_10_1_2_3_4_5_6_7_8_9 : S65536x2x2x2x2x2x2x2x2x2x2.Transposes [0, 10, 1, 2, 3, 4, 5, 6, 7, 8, 9] S65536x2x2x2x2x2x2x2x2x2x2
  transposes_S65536x2x2x2x2x2x2x2x2x2x2_S65536x2x2x2x2x2x2x2x2x2x2_0_2_3_4_5_6_7_8_9_10_1 : S65536x2x2x2x2x2x2x2x2x2x2.Transposes [0, 2, 3, 4, 5, 6, 7, 8, 9, 10, 1] S65536x2x2x2x2x2x2x2x2x2x2
  shapeCasts_S65536x2x2x2x2x2x2x2x2x2x2_S65536x1024 : S65536x2x2x2x2x2x2x2x2x2x2.ShapeCasts S65536x1024
  bcast_S1024_S1024x1_0 : S1024.BroadcastsInDim S1024x1 (![0] : Fin 1 → Fin S1024x1.rank)
  bcast_S_S10 : S_.BroadcastsInDim S10 (![] : Fin 0 → Fin S10.rank)
  bcast_S1024x1_S1024x10_0_1 : S1024x1.BroadcastsInDim S1024x10 (![0, 1] : Fin 2 → Fin S1024x10.rank)
  bcast_S1x10_S1024x10_0_1 : S1x10.BroadcastsInDim S1024x10 (![0, 1] : Fin 2 → Fin S1024x10.rank)
  bcast_S_S1024x10 : S_.BroadcastsInDim S1024x10 (![] : Fin 0 → Fin S1024x10.rank)
  dot_S65536x1024_S1024x10_S65536x10_1_0_0_1_n_n_wf : DotDims.WF S65536x1024 S1024x10 S65536x10 [1] [0] [0] [1] [] []

variable [Facts₀]

def dot_S65536x1024_S1024x10_S65536x10_1_0_0_1_n_n : DotDims S65536x1024 S1024x10 S65536x10 where
  lhsContracting := [1]
  rhsContracting := [0]
  lhsNonContracting := [0]
  rhsNonContracting := [1]
  lhsBatch := []
  rhsBatch := []
  wf := dot_S65536x1024_S1024x10_S65536x10_1_0_0_1_n_n_wf

class Facts : Prop extends Facts₀ where

variable [Facts]
-- ==== Proof.Spec.lean ====
/-
  The one function both programs compute.

  Row `b` of the input holds ten rotation angles; wire `u` starts in the state
  (cos(a/2), sin(a/2)) with a = x(b,u) + θ(u).  A chain of controlled flips 0→1, 1→2, …, 8→9 and then 9→0 permutes the
  1024 basis states, and the result is, per wire `w`, the expectation of the sign (−1)^(bit w).  The chain is linear over
  the field of two elements, so bit `w` after the chain is the parity of a fixed set of the original bits: bits 1…9 for
  w = 0 and bits 0…w for w ≥ 1.  The wires being independent, the expectation of a parity sign is the product over the
  set of cos²(a/2) − sin²(a/2) = cos a, the remaining wires contributing cos² + sin² = 1.  So entry (b,w) is a product
  of cosines of the full angles over that set, written below with the products associated to the left.
-/
import Idealize.ShloMosaic.PureOps.Ideal
import Idealize.ShloMosaic.Lib.ValueIdx

noncomputable section

namespace Cert.Spec

open Idealize.ShloMosaic Idealize.ShloMosaic.ValueIdx

/-- The shape of the angle array and of the result: 65536 rows of ten wires. -/
abbrev SX : Shape := ⟨2, ![65536, 10]⟩
/-- The shape of the shared angle offsets: one per wire. -/
abbrev ST : Shape := ⟨1, ![10]⟩

/-- The cosine of the full angle of wire `u` in row `b`. -/
def cv (x : FVec Ideal SX .f32) (θ : FVec Ideal ST .f32) (b : Fin 65536) (u : Fin 10) : EReal :=
  Ideal.cos (x (ix2 b u) + θ (ix1 u))

/-- Column `w` from the ten cosines of a row: the product over the wires whose parity wire `w` carries after the
    chain (wires 1…9 for w = 0, wires 0…w otherwise), associated to the left. -/
def col (c : Fin 10 → EReal) (w : Fin 10) : EReal :=
  ![c 1 * c 2 * c 3 * c 4 * c 5 * c 6 * c 7 * c 8 * c 9,
    c 0 * c 1,
    c 0 * c 1 * c 2,
    c 0 * c 1 * c 2 * c 3,
    c 0 * c 1 * c 2 * c 3 * c 4,
    c 0 * c 1 * c 2 * c 3 * c 4 * c 5,
    c 0 * c 1 * c 2 * c 3 * c 4 * c 5 * c 6,
    c 0 * c 1 * c 2 * c 3 * c 4 * c 5 * c 6 * c 7,
    c 0 * c 1 * c 2 * c 3 * c 4 * c 5 * c 6 * c 7 * c 8,
    c 0 * c 1 * c 2 * c 3 * c 4 * c 5 * c 6 * c 7 * c 8 * c 9] w

/-- The result array as one function of the two argument arrays. -/
def G (x : FVec Ideal SX .f32) (θ : FVec Ideal ST .f32) : FVec Ideal SX .f32 :=
  fun j => col (cv x θ (j 0)) (j 1)

theorem G_apply (x : FVec Ideal SX .f32) (θ : FVec Ideal ST .f32) (b : Fin 65536) (w : Fin 10) :
    G x θ (ix2 b w) = col (cv x θ b) w := rfl

end Cert.Spec

end
-- ==== Proof.KernelBlock.lean ====
/-
  One block of the kernel's result, entry by entry.

  The body of the kernel forms, from a block of 4096 rows of angles and the ten per-wire offsets, the block of cosines
  cos(x(r,u) + θ(u)), and then builds each of the ten result columns as a product, associated to the left, of
  single-column slices of that block: column 0 from wires 1…9, column w ≥ 1 from wires 0…w.  Read at one entry (r, w)
  this is exactly the specification's column function applied to the ten cosines of row r.
-/
import proofs.«177797_j65481071397000_2_alg».proof.Proof.Spec
import proofs.«177797_j65481071397000_2_alg».proof.Proof.Gen.KernelIdeal.Value
import Idealize.ShloMosaic.Lib.Pipeline.Value
import Idealize.ShloMosaic.Lib.ValueIdx
import Idealize.ShloMosaic.PureOps.Ideal

noncomputable section

namespace Cert.KernelIdeal.Whole

open Cert.KernelIdeal Cert.KernelIdeal.Gen Idealize.ShloMosaic Idealize.ShloMosaic.ValueIdx

/-- The block of cosines: entry (r, u) is the cosine of the block's angle in row r plus wire u's offset. -/
abbrev cosBlock (P0 : Vec Ideal S4096x10 .f32) (P1 : Vec Ideal S10 .f32) : FVec Ideal S4096x10 .f32 :=
  cos (F := Ideal) (φ := .f32) (addf (F := Ideal) (φ := .f32) P0
    (broadcastTo S4096x10 (shapeCast S1x10 P1 shapeCasts_S10_S1x10) broadcasts_S1x10_S4096x10))

/-- Read at (r, u): the offsets, one row of ten repeated down the block, contribute wire u's offset. -/
theorem cosBlock_apply (P0 : Vec Ideal S4096x10 .f32) (P1 : Vec Ideal S10 .f32) (r : Fin 4096) (u : Fin 10) :
    cosBlock P0 P1 (ix2 r u) = Ideal.cos (P0 (ix2 r u) + P1 (ix1 u)) := by
  show Ideal.cos (P0 (ix2 r u) + broadcastTo S4096x10 (shapeCast S1x10 P1 shapeCasts_S10_S1x10) broadcasts_S1x10_S4096x10 (ix2 r u)) = _
  rw [broadcastTo_apply _ broadcasts_S1x10_S4096x10 (ix2 r u) (ix2 (0 : Fin 1) u)
        (fun a => match a with | ⟨0, _⟩ => rfl | ⟨1, _⟩ => rfl),
      shapeCast_apply P1 shapeCasts_S10_S1x10 (ix2 (0 : Fin 1) u) (ix1 u)
        (by rw [Shape.rowMajor_val_one, Shape.rowMajor_val_two]; show u.val = 0 * 10 + u.val; omega)]

/-- A one-column slice of the block at column offset o exists only for o below ten. -/
theorem wire_lt {o : Nat} (h : S4096x10.Slices ![0, o] S4096x1) : o < 10 := by
  have h1 : o + 1 ≤ 10 := h.2 (1 : Fin 2)
  omega

/-- The one-column slice at offset o, read in row r, is the cosine of wire o in that row. -/
theorem slice_at (P0 : Vec Ideal S4096x10 .f32) (P1 : Vec Ideal S10 .f32) (r : Fin 4096) (w : Fin 10) (o : Nat)
    (h : S4096x10.Slices ![0, o] S4096x1) :
    extractStridedSlice S4096x1 ![0, o] (cosBlock P0 P1) h (Value.ix2_0 (ix2 r w))
      = Ideal.cos (P0 (ix2 r ⟨o, wire_lt h⟩) + P1 (ix1 ⟨o, wire_lt h⟩)) := by
  rw [extractStridedSlice_apply ![0, o] (cosBlock P0 P1) h (Value.ix2_0 (ix2 r w)) (ix2 r ⟨o, wire_lt h⟩)
        (fun a => match a with
          | ⟨0, _⟩ => by show r.val = 0 + r.val; omega
          | ⟨1, _⟩ => by show o = o + 0; omega),
      cosBlock_apply]

/-- ENTRY (r, w) OF THE BLOCK the body leaves: the specification's column w of the ten cosines of row r. Column by
    column, the product of slices read at the entry is the product of the wires' cosines in the same order. -/
theorem block_entry (P0 : Vec Ideal S4096x10 .f32) (P1 : Vec Ideal S10 .f32) (r : Fin 4096) (w : Fin 10) :
    Value.E2 (F := Ideal) P0 P1 (ix2 r w) = Cert.Spec.col (fun u => Ideal.cos (P0 (ix2 r u) + P1 (ix1 u))) w := by
  obtain ⟨w, hw⟩ := w
  interval_cases w <;>
    (dsimp only [Value.E2, Value.Cat2_0, Value.csel2_0]; simp only [mulf_apply, slice_at]; rfl)

end Cert.KernelIdeal.Whole

end
-- ==== Proof.KernelArray.lean ====
/-
  From the kernel's blocks to its result array.

  The grid has 16 points.  Point t loads rows 4096·t … 4096·t + 4095 of the angle array and all ten offsets, and writes
  back rows 4096·t … 4096·t + 4095 of the result.  Entry (r, w) of the block it writes is the specification's column w
  of the cosines of row r of the loaded block, which is row 4096·t + r of the angle array; so the block is exactly the
  restriction of the specification's array to those rows.  Row b of the result lies in the block of point b / 4096,
  and 16 · 4096 = 65536, so the blocks cover the whole result and the array after the run is the specification's.
-/
import proofs.«177797_j65481071397000_2_alg».proof.Proof.Spec
import proofs.«177797_j65481071397000_2_alg».proof.Proof.KernelBlock
import proofs.«177797_j65481071397000_2_alg».proof.Proof.Gen.KernelIdeal.Frame
import proofs.«177797_j65481071397000_2_alg».proof.Proof.Gen.KernelIdeal.Value
import Idealize.ShloMosaic.Lib.Pipeline.Value
import Idealize.ShloMosaic.Lib.ValueIdx
import Idealize.ShloMosaic.PureOps.Ideal

noncomputable section

namespace Cert.KernelIdeal.Whole

open Cert.KernelIdeal Cert.KernelIdeal.Gen Idealize.ShloMosaic Idealize.ShloMosaic.ValueIdx
open Idealize.ShloMosaic.TcCoe Idealize.SL.Sem
open Idealize.ShloMosaic.Pipeline (Dat)

variable (m : (ℓ : Loc nD τ sig) → Buf (Elt Ideal) ℓ) (ρ : Dev nD → PrngReg)

/-- The body's loads and its store go through the whole staging buffer: offsets zero on both axes … -/
theorem zero_offsets2 : (![0, 0] : Fin 2 → Nat) = fun _ => 0 := funext fun a => by fin_cases a <;> rfl
/-- … and on the one axis of the offsets' buffer. -/
theorem zero_offsets1 : (![0] : Fin 1 → Nat) = fun _ => 0 := funext fun a => by fin_cases a <;> rfl

/-- What the body leaves at entry (r, w) of its block, from the two blocks it loads. -/
theorem out_entry (x0 : Vec Ideal S4096x10 .f32) (x1 : Vec Ideal S10 .f32) (r : Fin 4096) (w : Fin 10) :
    out0_2 (F := Ideal) x0 x1 (ix2 r w) = Cert.Spec.col (fun u => Ideal.cos (x0 (ix2 r u) + x1 (ix1 u))) w := by
  unfold out0_2
  simp only [View.ld_unit_zero (S := S4096x10) zero_offsets2, View.ld_unit_zero (S := S10) zero_offsets1]
  rw [Value.canon2_eq, block_entry]

/-- If the loaded blocks are rows of two whole arrays — row r of the angle block is row b of X, the offsets are Θ — then
    the body's block at an entry of row r is the specification's array of X and Θ at the entry of row b in the same
    column. Stated over arbitrary blocks and arrays, with the coordinates related by hypotheses. -/
theorem out_is_G (X : FVec Ideal Cert.Spec.SX .f32) (Θ : FVec Ideal Cert.Spec.ST .f32)
    (x0 : Vec Ideal S4096x10 .f32) (x1 : Vec Ideal S10 .f32) (r : Fin 4096) (b : Fin 65536)
    (h0 : ∀ u : Fin 10, x0 (ix2 r u) = X (ix2 b u)) (h1 : ∀ u : Fin 10, x1 (ix1 u) = Θ (ix1 u))
    (y : S4096x10.Idx) (i : S65536x10.Idx) (hy0 : (y 0).val = r.val) (hi0 : (i 0).val = b.val) (hw : (i 1).val = (y 1).val) :
    out0_2 (F := Ideal) x0 x1 y = Cert.Spec.G X Θ i := by
  obtain ⟨w, rfl⟩ : ∃ w : Fin 10, y = ix2 r w :=
    ⟨y 1, by funext a; match a with | ⟨0, _⟩ => exact Fin.ext hy0 | ⟨1, _⟩ => rfl⟩
  obtain rfl : i = ix2 b w := by
    funext a; match a with | ⟨0, _⟩ => exact Fin.ext hi0 | ⟨1, _⟩ => exact Fin.ext hw
  rw [out_entry, Cert.Spec.G_apply]
  congr 1
  funext u
  unfold Cert.Spec.cv
  rw [h0, h1]

/-- The index maps, decided over the 16 points: point t's angle block and result block are both block t along the rows
    and block 0 along the ten columns; the offsets' block is always block 0. -/
theorem idx_facts : ∀ t : Fin cfg0.N, win0_0.index t (0 : Fin 2) = t.val ∧ win0_0.index t (1 : Fin 2) = 0
    ∧ win0_1.index t (0 : Fin 1) = 0
    ∧ win0_2.index t (0 : Fin 2) = t.val ∧ win0_2.index t (1 : Fin 2) = 0 :=
  (by decide +kernel : ∀ t : Fin grid0.N, _)

/-- WHAT POINT t WRITES BACK is block t of the specification's array of the argument arrays: the angle block is read at
    rows 4096·t + r, the offsets whole. -/
theorem flushed_eq (c : Dev nD) (t : Fin cfg0.N) :
    (dats m 0 c).flushed 2 t
      = ((cfg0.win 2).blk t).view.read (Elt Ideal) (Cert.Spec.G (V m c main_arg0) (V m c main_arg1)) := by
  rw [Value.flushed2]
  obtain ⟨e00, e01, e10, e20, e21⟩ := idx_facts t
  funext j
  show out0_2 (F := Ideal) (iblk m c 0 t) (iblk m c 1 t) j
      = Cert.Spec.G (V m c main_arg0) (V m c main_arg1) (((cfg0.win 2).blk t).view.emb j)
  have hj0 : (j 0).val < 4096 := (j 0).isLt
  have hj1 : (j 1).val < 10 := (j 1).isLt
  have ht : t.val < 16 := by have h := t.isLt; have hN : cfg0.N = 16 := N_0; omega
  refine out_is_G (V m c main_arg0) (V m c main_arg1) (iblk m c 0 t) (iblk m c 1 t) ⟨(j 0).val, hj0⟩
    ⟨t.val * 4096 + (j 0).val, by omega⟩ (fun u => ?_) (fun u => ?_) j _ rfl ?_ ?_
  · unfold iblk
    rw [View.read_apply]
    show V m c main_arg0 (((cfg0.win 0).blk t).view.emb (ix2 ⟨(j 0).val, hj0⟩ u)) = V m c main_arg0 _
    congr 1
    funext a
    apply Fin.ext
    match a with
    | ⟨0, _⟩ => show win0_0.index t (0 : Fin 2) * 4096 + 1 * (j 0).val = t.val * 4096 + (j 0).val; omega
    | ⟨1, _⟩ => show win0_0.index t (1 : Fin 2) * 10 + 1 * u.val = u.val; omega
  · unfold iblk
    rw [View.read_apply]
    show V m c main_arg1 (((cfg0.win 1).blk t).view.emb (ix1 u)) = V m c main_arg1 _
    congr 1
    funext a
    apply Fin.ext
    match a with
    | ⟨0, _⟩ => show win0_1.index t (0 : Fin 1) * 10 + 1 * u.val = u.val; omega
  · show win0_2.index t (0 : Fin 2) * 4096 + 1 * (j 0).val = t.val * 4096 + (j 0).val; omega
  · show win0_2.index t (1 : Fin 2) * 10 + 1 * (j 1).val = (j 1).val; omega

/-- An index of the array is in point t's block iff each coordinate is in the block's range on its axis. -/
theorem mem_blk (t : Fin cfg0.N) (i : S65536x10.Idx) :
    i ∈ ((cfg0.win 2).blk t).view.set ↔ ∀ a : Fin 2, win0_2.index t a * S4096x10.size a ≤ (i a).val
      ∧ (i a).val < win0_2.index t a * S4096x10.size a + S4096x10.size a := by
  show i ∈ ((View.whole main_v0).slice (win0_2.rect t)).set ↔ _
  rw [View.set_slice_whole, Rect.mem_set_unit]
  exact Iff.rfl

/-- Every index of the result is in some point's block: row b lies in block b / 4096, and 16 · 4096 = 65536. -/
theorem cover (i : S65536x10.Idx) :
    ∃ t : Fin cfg0.N, (cfg0.win 2).flush t = true ∧ i ∈ ((cfg0.win 2).blk t).view.set := by
  have hi0 : (i 0).val < 65536 := (i 0).isLt
  have hi1 : (i 1).val < 10 := (i 1).isLt
  have hN : cfg0.N = 16 := N_0
  let t : Fin cfg0.N := ⟨(i 0).val / 4096, by omega⟩
  obtain ⟨-, -, -, e20, e21⟩ := idx_facts t
  have q0 : win0_2.index t (0 : Fin 2) = (i 0).val / 4096 := e20
  refine ⟨t, flush0_2 t, ?_⟩
  rw [mem_blk]
  intro a
  match a with
  | ⟨0, _⟩ => show win0_2.index t (0 : Fin 2) * 4096 ≤ (i 0).val ∧ (i 0).val < win0_2.index t (0 : Fin 2) * 4096 + 4096; omega
  | ⟨1, _⟩ => show win0_2.index t (1 : Fin 2) * 10 ≤ (i 1).val ∧ (i 1).val < win0_2.index t (1 : Fin 2) * 10 + 10; omega

/-- THE ARRAY after the run is the specification's function of the two argument arrays. -/
theorem final (c : Dev nD) :
    (dats m 0 c).arrAt 2 cfg0.N = Cert.Spec.G (V m c main_arg0) (V m c main_arg1) :=
  (dats m 0 c).arrAt_eq_of_cover 2 (Cert.Spec.G (V m c main_arg0) (V m c main_arg1)) (fun t _ => flushed_eq m c t) cover

/-- The kernel's run: it terminates, the result array holds the specification's function of the arguments, and the
    arguments are unchanged. -/
theorem run : θ_run Cert.KernelIdeal.defs (onTc (τ := Cert.KernelIdeal.τ) (Cert.KernelIdeal.main (F := Ideal))) ⟨m, fun _ => 0, ρ⟩
    fun r => ∀ c : Dev nD,
      r.2.mem ((c.tc : Thread nD τ).loc main_v0)
        = Cert.Spec.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (final m c), (h c).2⟩) (Value.run_blocks m ρ)

end Cert.KernelIdeal.Whole

end
-- ==== Proof.Bits11.lean ====
/-
  Indices of the rank-11 array of amplitudes — a row `b` and ten bits, one axis per wire — and the one array
  operation the chain of controlled flips is made of.

  A controlled flip with control on axis 1 and target on axis 2 keeps the half of the array whose control bit is 0
  and reverses, along the target axis, the half whose control bit is 1; joined again along the control axis the
  result at (b, i₀, i₁, …) is the operand at (b, i₀, i₁ + i₀, …), the sum taken modulo 2.
-/
import Idealize.ShloMosaic.Lib.Pipeline.Value
import Idealize.ShloMosaic.Lib.ValueIdx

noncomputable section

namespace Cert.Bits11

open Idealize.ShloMosaic Idealize.ShloMosaic.ValueIdx

/-- One row index and ten bits. -/
abbrev S11 : Shape := ⟨11, ![65536, 2, 2, 2, 2, 2, 2, 2, 2, 2, 2]⟩
/-- The same with the first bit's axis cut to one value: a half of the array. -/
abbrev S11h : Shape := ⟨11, ![65536, 1, 2, 2, 2, 2, 2, 2, 2, 2, 2]⟩
/-- The flat form: 1024 basis states per row. -/
abbrev S2 : Shape := ⟨2, ![65536, 1024]⟩

/-- The rank-11 index with row `b` and bit `i u` on axis `u + 1`. -/
abbrev ix11 (b : Fin 65536) (i : Fin 10 → Fin 2) : S11.Idx := fun a => match a with
  | ⟨0, _⟩ => b | ⟨1, _⟩ => i 0 | ⟨2, _⟩ => i 1 | ⟨3, _⟩ => i 2 | ⟨4, _⟩ => i 3 | ⟨5, _⟩ => i 4
  | ⟨6, _⟩ => i 5 | ⟨7, _⟩ => i 6 | ⟨8, _⟩ => i 7 | ⟨9, _⟩ => i 8 | ⟨10, _⟩ => i 9

/-- The index into a half: the first bit's axis has the one value 0, the others as `ix11`. -/
abbrev hx11 (b : Fin 65536) (i : Fin 10 → Fin 2) : S11h.Idx := fun a => match a with
  | ⟨0, _⟩ => b | ⟨1, _⟩ => (0 : Fin 1) | ⟨2, _⟩ => i 1 | ⟨3, _⟩ => i 2 | ⟨4, _⟩ => i 3 | ⟨5, _⟩ => i 4
  | ⟨6, _⟩ => i 5 | ⟨7, _⟩ => i 6 | ⟨8, _⟩ => i 7 | ⟨9, _⟩ => i 8 | ⟨10, _⟩ => i 9

/-- Every rank-11 index is `ix11` of its coordinates. -/
theorem eq_ix11 (j : S11.Idx) : j = ix11 (j 0) ![j 1, j 2, j 3, j 4, j 5, j 6, j 7, j 8, j 9, j 10] := by
  funext a
  match a with
  | ⟨0, _⟩ => rfl | ⟨1, _⟩ => rfl | ⟨2, _⟩ => rfl | ⟨3, _⟩ => rfl | ⟨4, _⟩ => rfl | ⟨5, _⟩ => rfl
  | ⟨6, _⟩ => rfl | ⟨7, _⟩ => rfl | ⟨8, _⟩ => rfl | ⟨9, _⟩ => rfl | ⟨10, _⟩ => rfl

/-- The number whose binary digits, most significant first, are the ten bits. -/
def pos (i : Fin 10 → Fin 2) : Nat :=
  (((((((((i 0).val * 2 + (i 1).val) * 2 + (i 2).val) * 2 + (i 3).val) * 2 + (i 4).val) * 2 + (i 5).val) * 2
    + (i 6).val) * 2 + (i 7).val) * 2 + (i 8).val) * 2 + (i 9).val

theorem pos_lt (i : Fin 10 → Fin 2) : pos i < 1024 := by
  unfold pos
  have h0 := (i 0).isLt; have h1 := (i 1).isLt; have h2 := (i 2).isLt; have h3 := (i 3).isLt; have h4 := (i 4).isLt
  have h5 := (i 5).isLt; have h6 := (i 6).isLt; have h7 := (i 7).isLt; have h8 := (i 8).isLt; have h9 := (i 9).isLt
  omega

/-- Row-major position of a rank-11 index: the row times 1024 plus the number the bits spell. -/
theorem rowMajor_ix11 (b : Fin 65536) (i : Fin 10 → Fin 2) :
    (S11.rowMajor (ix11 b i)).val = b.val * 1024 + pos i := by
  show (Shape.rowMajorPi _ (ix11 b i)).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val, Shape.rowMajorPi_succ_val,
    Shape.rowMajorPi_succ_val, Shape.rowMajorPi_succ_val, Shape.rowMajorPi_succ_val]
  have e0 : ((ix11 b i 0 : Fin 65536) : Nat) = b.val := rfl
  have e1 : ((ix11 b i 1 : Fin 2) : Nat) = (i 0).val := rfl
  have e2 : ((ix11 b i 2 : Fin 2) : Nat) = (i 1).val := rfl
  have e3 : ((ix11 b i 3 : Fin 2) : Nat) = (i 2).val := rfl
  have e4 : ((ix11 b i 4 : Fin 2) : Nat) = (i 3).val := rfl
  have e5 : ((ix11 b i 5 : Fin 2) : Nat) = (i 4).val := rfl
  have e6 : ((ix11 b i 6 : Fin 2) : Nat) = (i 5).val := rfl
  have e7 : ((ix11 b i 7 : Fin 2) : Nat) = (i 6).val := rfl
  have e8 : ((ix11 b i 8 : Fin 2) : Nat) = (i 7).val := rfl
  have e9 : ((ix11 b i 9 : Fin 2) : Nat) = (i 8).val := rfl
  have e10 : ((ix11 b i 10 : Fin 2) : Nat) = (i 9).val := rfl
  simp [Shape.rowMajorPi_zero, Fin.prod_univ_succ, pos]
  omega

/-! ## One controlled flip -/

/-- The bits at which a controlled flip (control the first bit, target the second) reads its operand: the target bit
    is added to the control bit modulo 2, the others are kept. -/
def flip01 (i : Fin 10 → Fin 2) : Fin 10 → Fin 2 :=
  ![i 0, i 1 + i 0, i 2, i 3, i 4, i 5, i 6, i 7, i 8, i 9]

/-- On one bit, adding 1 modulo 2 is the reversal of the two positions. -/
theorem add_one_val_eq_rev : ∀ p : Fin 2, (p + 1).val = 0 + p.rev.val := by decide

/-- The half with control bit 0 kept, the half with control bit 1 reversed along the target axis, joined along the
    control axis: at (b, i) the result is the operand at (b, flip01 i). -/
theorem cflip_apply {α : Type} (T : S11.Idx → α)
    (h0 : S11.Slices ![0, 0, 0, 0, 0, 0, 0, 0, 0, 0, 0] S11h) (h1 : S11.Slices ![0, 1, 0, 0, 0, 0, 0, 0, 0, 0, 0] S11h)
    (hc : Shape.Concatenates [S11h, S11h] S11 1) (b : Fin 65536) (i : Fin 10 → Fin 2) :
    concatenate S11 1 [⟨S11h, extractStridedSlice S11h ![0, 0, 0, 0, 0, 0, 0, 0, 0, 0, 0] T h0⟩,
      ⟨S11h, Host.reverse [2] (extractStridedSlice S11h ![0, 1, 0, 0, 0, 0, 0, 0, 0, 0, 0] T h1)⟩] hc (ix11 b i)
      = T (ix11 b (flip01 i)) := by
  match h : i 0 with
  | 0 =>
    refine (concatenate_pair_apply_left (1 : Fin S11.rank) _ _ hc (ix11 b i) rfl (hx11 b i) ?_).trans ?_
    · intro a
      match a with
      | ⟨0, _⟩ => rfl
      | ⟨1, _⟩ => show (0 : Nat) = (i 0).val; rw [h]; rfl
      | ⟨2, _⟩ => rfl | ⟨3, _⟩ => rfl | ⟨4, _⟩ => rfl | ⟨5, _⟩ => rfl | ⟨6, _⟩ => rfl
      | ⟨7, _⟩ => rfl | ⟨8, _⟩ => rfl | ⟨9, _⟩ => rfl | ⟨10, _⟩ => rfl
    · refine extractStridedSlice_apply _ T h0 (hx11 b i) (ix11 b (flip01 i)) ?_
      intro a
      match a with
      | ⟨0, _⟩ => show b.val = 0 + b.val; omega
      | ⟨1, _⟩ => show (i 0).val = 0 + 0; rw [h]; rfl
      | ⟨2, _⟩ => show (i 1 + i 0).val = 0 + (i 1).val; rw [h]; simp
      | ⟨3, _⟩ => show (i 2).val = 0 + (i 2).val; omega
      | ⟨4, _⟩ => show (i 3).val = 0 + (i 3).val; omega
      | ⟨5, _⟩ => show (i 4).val = 0 + (i 4).val; omega
      | ⟨6, _⟩ => show (i 5).val = 0 + (i 5).val; omega
      | ⟨7, _⟩ => show (i 6).val = 0 + (i 6).val; omega
      | ⟨8, _⟩ => show (i 7).val = 0 + (i 7).val; omega
      | ⟨9, _⟩ => show (i 8).val = 0 + (i 8).val; omega
      | ⟨10, _⟩ => show (i 9).val = 0 + (i 9).val; omega
  | 1 =>
    refine (concatenate_pair_apply_right (1 : Fin S11.rank) _ _ hc (ix11 b i) rfl rfl (hx11 b i) ?_ ?_).trans ?_
    · intro a ha
      match a, ha with
      | ⟨0, _⟩, _ => rfl
      | ⟨1, _⟩, ha => exact absurd rfl ha
      | ⟨2, _⟩, _ => rfl | ⟨3, _⟩, _ => rfl | ⟨4, _⟩, _ => rfl | ⟨5, _⟩, _ => rfl | ⟨6, _⟩, _ => rfl
      | ⟨7, _⟩, _ => rfl | ⟨8, _⟩, _ => rfl | ⟨9, _⟩, _ => rfl | ⟨10, _⟩, _ => rfl
    · show (0 : Nat) + 1 = (i 0).val
      rw [h]; rfl
    · show extractStridedSlice S11h _ T h1 (fun a => if a ∈ [2] then (hx11 b i a).rev else hx11 b i a) = _
      refine extractStridedSlice_apply _ T h1 _ (ix11 b (flip01 i)) ?_
      intro a
      match a with
      | ⟨0, _⟩ => show b.val = 0 + b.val; omega
      | ⟨1, _⟩ => show (i 0).val = 1 + 0; rw [h]; rfl
      | ⟨2, _⟩ => show (i 1 + i 0).val = 0 + (i 1).rev.val; rw [h]; exact add_one_val_eq_rev _
      | ⟨3, _⟩ => show (i 2).val = 0 + (i 2).val; omega
      | ⟨4, _⟩ => show (i 3).val = 0 + (i 3).val; omega
      | ⟨5, _⟩ => show (i 4).val = 0 + (i 4).val; omega
      | ⟨6, _⟩ => show (i 5).val = 0 + (i 5).val; omega
      | ⟨7, _⟩ => show (i 6).val = 0 + (i 6).val; omega
      | ⟨8, _⟩ => show (i 7).val = 0 + (i 7).val; omega
      | ⟨9, _⟩ => show (i 8).val = 0 + (i 8).val; omega
      | ⟨10, _⟩ => show (i 9).val = 0 + (i 9).val; omega

/-- The bits of the product state that the bits `i` of the final state read, after the whole chain of controlled
    flips 0→1, 1→2, …, 8→9, 9→0 (sums modulo 2). -/
def chainBits (i : Fin 10 → Fin 2) : Fin 10 → Fin 2 :=
  ![i 0 + i 9, i 1 + (i 0 + i 9), i 2 + i 1, i 3 + i 2, i 4 + i 3, i 5 + i 4, i 6 + i 5, i 7 + i 6, i 8 + i 7, i 9 + i 8]

end Cert.Bits11

end
-- ==== Proof.RefChain.lean ====
/-
  The chain of controlled flips read at an index.

  Between the product state (the rank-11 array of amplitudes, one axis per wire) and the array that is squared, the
  program applies ten controlled flips, each on the first two bit axes, with transpositions of the axes in between that
  bring the next control and target wires to the front and finally restore the order of the wires.  Read backwards from
  the result, each transposition renames the coordinates and each flip adds the control bit to the target bit modulo 2.
  Composed, the result at bits i is the product state at the bits
      (i₀+i₉, i₁+(i₀+i₉), i₂+i₁, i₃+i₂, …, i₉+i₈).
-/
import proofs.«177797_j65481071397000_2_alg».proof.Proof.RefRead
import proofs.«177797_j65481071397000_2_alg».proof.Proof.Bits11

noncomputable section

namespace Cert.RefChain

open Cert.ReferenceIdeal Cert.ReferenceIdeal.ReadP Cert.Bits11 Idealize.ShloMosaic Idealize.ShloMosaic.ValueIdx

/-- The index at which a controlled-flip block reads its operand, for an arbitrary index of the result. -/
def cnIdx (j : S11.Idx) : S11.Idx :=
  ix11 (j 0) (flip01 ![j 1, j 2, j 3, j 4, j 5, j 6, j 7, j 8, j 9, j 10])

/-- A controlled-flip block at any index. -/
theorem cn_step {α : Type} (T : S11.Idx → α)
    (h0 : S11.Slices ![0, 0, 0, 0, 0, 0, 0, 0, 0, 0, 0] S11h) (h1 : S11.Slices ![0, 1, 0, 0, 0, 0, 0, 0, 0, 0, 0] S11h)
    (hc : Shape.Concatenates [S11h, S11h] S11 1) (j : S11.Idx) :
    concatenate S11 1 [⟨S11h, extractStridedSlice S11h ![0, 0, 0, 0, 0, 0, 0, 0, 0, 0, 0] T h0⟩,
      ⟨S11h, Host.reverse [2] (extractStridedSlice S11h ![0, 1, 0, 0, 0, 0, 0, 0, 0, 0, 0] T h1)⟩] hc j
      = T (cnIdx j) := by
  have h := cflip_apply T h0 h1 hc (j 0) ![j 1, j 2, j 3, j 4, j 5, j 6, j 7, j 8, j 9, j 10]
  rw [← eq_ix11 j] at h
  exact h

variable (x0 : FVec Ideal S65536x10 .f32) (x1 : FVec Ideal S10 .f32)

/-- The state after the whole chain, at row `b` and bits `i`, is the product state at row `b` and bits `chainBits i`. -/
theorem after_chain (b : Fin 65536) (i : Fin 10 → Fin 2) :
    val_main_v195 (F := Ideal) x0 x1 (ix11 b i) = val_main_v137 (F := Ideal) x0 x1 (ix11 b (chainBits i)) := by
  rw [val_main_v195_apply]
  refine (cn_step (val_main_v190 (F := Ideal) x0 x1) _ _ _ _).trans ?_
  rw [val_main_v190_apply, val_main_v189_apply]
  refine (cn_step (val_main_v184 (F := Ideal) x0 x1) _ _ _ _).trans ?_
  rw [val_main_v184_apply, val_main_v183_apply]
  refine (cn_step (val_main_v178 (F := Ideal) x0 x1) _ _ _ _).trans ?_
  rw [val_main_v178_apply, val_main_v177_apply]
  refine (cn_step (val_main_v172 (F := Ideal) x0 x1) _ _ _ _).trans ?_
  rw [val_main_v172_apply, val_main_v171_apply]
  refine (cn_step (val_main_v166 (F := Ideal) x0 x1) _ _ _ _).trans ?_
  rw [val_main_v166_apply, val_main_v165_apply]
  refine (cn_step (val_main_v160 (F := Ideal) x0 x1) _ _ _ _).trans ?_
  rw [val_main_v160_apply, val_main_v159_apply]
  refine (cn_step (val_main_v154 (F := Ideal) x0 x1) _ _ _ _).trans ?_
  rw [val_main_v154_apply, val_main_v153_apply]
  refine (cn_step (val_main_v148 (F := Ideal) x0 x1) _ _ _ _).trans ?_
  rw [val_main_v148_apply, val_main_v147_apply]
  refine (cn_step (val_main_v142 (F := Ideal) x0 x1) _ _ _ _).trans ?_
  rw [val_main_v142_apply]
  refine (cn_step (val_main_v137 (F := Ideal) x0 x1) _ _ _ _).trans ?_
  refine congrArg _ ?_
  funext a
  match a with
  | ⟨0, _⟩ => rfl | ⟨1, _⟩ => rfl | ⟨2, _⟩ => rfl | ⟨3, _⟩ => rfl | ⟨4, _⟩ => rfl | ⟨5, _⟩ => rfl
  | ⟨6, _⟩ => rfl | ⟨7, _⟩ => rfl | ⟨8, _⟩ => rfl | ⟨9, _⟩ => rfl | ⟨10, _⟩ => rfl

end Cert.RefChain

end
-- ==== Proof.RefEnds.lean ====
/-
  The two ends of the chain of controlled flips in the reference.

  Before the chain the 1024 basis states of a row are cut into ten bits, one axis per wire, the first wire the most
  significant bit; after it the ten axes are flattened back, each entry squared first.  Neither step moves an entry:
  row b and bits i sit at row-major position b * 1024 + (the number the bits spell) in both forms.  The result is then
  the contraction of the squared amplitudes with the table of signs over the 1024 basis states.
-/
import proofs.«177797_j65481071397000_2_alg».proof.Proof.RefRead
import proofs.«177797_j65481071397000_2_alg».proof.Proof.Bits11

noncomputable section

namespace Cert.RefEnds

open Cert.ReferenceIdeal Cert.ReferenceIdeal.Gen Cert.ReferenceIdeal.ReadP Cert.Bits11 Idealize.ShloMosaic
  Idealize.ShloMosaic.ValueIdx
open scoped BigOperators

variable (x0 : FVec Ideal S65536x10 .f32) (x1 : FVec Ideal S10 .f32)

/-- Cutting the 1024 basis states of a row into ten bits: the entry at row `b` and bits `i` is the entry of the flat
    state at the number the bits spell, most significant bit first — both sit at row-major position
    `b * 1024 + pos i`. -/
theorem to_bits (b : Fin 65536) (i : Fin 10 → Fin 2) :
    val_main_v137 (F := Ideal) x0 x1 (ix11 b i)
      = val_main_v136 (F := Ideal) x0 x1 (ix2 b ⟨pos i, pos_lt i⟩) := by
  unfold val_main_v137
  generalize val_main_v136 (F := Ideal) x0 x1 = y
  refine shapeCast_apply y shapeCasts_S65536x1024_S65536x2x2x2x2x2x2x2x2x2x2 (ix11 b i) (ix2 b ⟨pos i, pos_lt i⟩) ?_
  refine (Shape.rowMajor_val_two _).trans ?_
  exact (rowMajor_ix11 b i).symm

/-- Flattening the ten bits back into 1024 basis states, after squaring: the entry at the number the bits `i` spell is
    the square of the entry at row `b` and bits `i`. -/
theorem from_bits (b : Fin 65536) (i : Fin 10 → Fin 2) :
    val_main_v197 (F := Ideal) x0 x1 (ix2 b ⟨pos i, pos_lt i⟩)
      = val_main_v195 (F := Ideal) x0 x1 (ix11 b i) * val_main_v195 (F := Ideal) x0 x1 (ix11 b i) := by
  unfold val_main_v197
  refine (shapeCast_apply (val_main_v196 (F := Ideal) x0 x1) shapeCasts_S65536x2x2x2x2x2x2x2x2x2x2_S65536x1024
    (ix2 b ⟨pos i, pos_lt i⟩) (ix11 b i) ?_).trans ?_
  · refine Eq.symm ((Shape.rowMajor_val_two _).trans ?_)
    exact (rowMajor_ix11 b i).symm
  · exact val_main_v196_apply (F := Ideal) x0 x1 (ix11 b i)

/-- The final contraction: entry `(b, w)` is the sum over the 1024 basis states `k` of the squared amplitude of `k` in
    row `b` times the sign table's entry `(k, w)`. -/
theorem dot_apply (b : Fin 65536) (w : Fin 10) :
    val_main_v215 (F := Ideal) x0 x1 (ix2 b w)
      = ∑ k : Fin 1024, val_main_v197 (F := Ideal) x0 x1 (ix2 b k) * val_main_v214 (F := Ideal) (ix2 k w) := by
  rw [val_main_v215_apply]
  refine Finset.sum_congr rfl fun k _ => ?_
  have el : lidx_main_v215 (ix2 b w) k = ix2 b k := by
    funext a
    match a with
    | ⟨0, _⟩ => rfl
    | ⟨1, _⟩ => rfl
  have er : ridx_main_v215 (ix2 b w) k = ix2 k w := by
    funext a
    match a with
    | ⟨0, _⟩ => rfl
    | ⟨1, _⟩ => rfl
  rw [el, er]

end Cert.RefEnds

end
-- ==== Proof.ProductState.lean ====
/-
  The product state of the ten wires.

  Row b gives wire u the pair (cos, sin) of its half angle.  The state of no wires is the constant 1; joining wire u to a
  state of width n makes the state of width 2n whose entry j is the old entry j / 2 times the cosine of wire u when j is
  even and its sine when j is odd: the last wire joined is the least significant bit of the basis-state number.  After
  the ten wires, entry j of the 1024 is the product over the wires u of the cosine or sine of wire u according to bit
  9 - u of j, wire 0 being the most significant bit.
-/
import proofs.«177797_j65481071397000_2_alg».proof.Proof.RefRead

noncomputable section

namespace Cert.ProductState

open Cert.ReferenceIdeal Cert.ReferenceIdeal.Gen Cert.ReferenceIdeal.ReadP Idealize.ShloMosaic Idealize.ShloMosaic.ValueIdx

/-- The amplitude of wire `u` in row `b` on a bit `r`: the entry of `c` (the cosines) for bit 0, of `s` (the sines)
    otherwise. -/
def amp (c s : FVec Ideal S65536x10 .f32) (b : Fin 65536) (u : Fin 10) (r : ℕ) : EReal :=
  if r = 0 then c (ix2 b u) else s (ix2 b u)

variable (x0 : FVec Ideal S65536x10 .f32) (x1 : FVec Ideal S10 .f32)

/-! ## The pair of wire u: column u of the cosines beside column u of the sines -/

/-- Entry `(b, r)` of the pair of wire 0 is the amplitude of wire 0 on the bit `r`. -/
theorem pair0 (b : Fin 65536) (r : Fin 2) :
    val_main_v14 (F := Ideal) x0 x1 (ix2 b r) = amp (val_main_v5 (F := Ideal) x0 x1) (val_main_v6 (F := Ideal) x0 x1) b 0 r.val := by
  unfold val_main_v14
  match r with
  | ⟨0, h0⟩ =>
    have e : idx_main_v8 (idx_main_v9 (idx_main_v12 (ix2 b (⟨0, Nat.one_pos⟩ : Fin 1)))) = ix2 b (0 : Fin 10) := by
      funext a
      match a with
      | ⟨0, _⟩ => exact Fin.ext (by show b.val / 1 = b.val; omega)
      | ⟨1, _⟩ => rfl
    refine (concatenate_pair_apply_left _ _ _ concatenates_S65536x1_S65536x1_S65536x2_d1 (ix2 b (⟨0, h0⟩ : Fin 2)) rfl
      (ix2 b (⟨0, Nat.one_pos⟩ : Fin 1)) (fun a => match a with | ⟨0, _⟩ => rfl | ⟨1, _⟩ => rfl)).trans ?_
    rw [val_main_v12_apply, val_main_v9_apply, val_main_v8_apply, e]
    exact (if_pos (rfl : (0 : ℕ) = 0)).symm
  | ⟨1, h1⟩ =>
    have e : idx_main_v10 (idx_main_v11 (idx_main_v13 (ix2 b (⟨0, Nat.one_pos⟩ : Fin 1)))) = ix2 b (0 : Fin 10) := by
      funext a
      match a with
      | ⟨0, _⟩ => exact Fin.ext (by show b.val / 1 = b.val; omega)
      | ⟨1, _⟩ => rfl
    refine (concatenate_pair_apply_right _ _ _ concatenates_S65536x1_S65536x1_S65536x2_d1 (ix2 b (⟨1, h1⟩ : Fin 2)) rfl rfl
      (ix2 b (⟨0, Nat.one_pos⟩ : Fin 1))
      (fun a => match a with | ⟨0, _⟩ => fun _ => rfl | ⟨1, _⟩ => fun h => absurd rfl h) rfl).trans ?_
    rw [val_main_v13_apply, val_main_v11_apply, val_main_v10_apply, e]
    exact (if_neg (by decide : ¬ (1 : ℕ) = 0)).symm

/-- Entry `(b, r)` of the pair of wire 1 is the amplitude of wire 1 on the bit `r`. -/
theorem pair1 (b : Fin 65536) (r : Fin 2) :
    val_main_v26 (F := Ideal) x0 x1 (ix2 b r) = amp (val_main_v5 (F := Ideal) x0 x1) (val_main_v6 (F := Ideal) x0 x1) b 1 r.val := by
  unfold val_main_v26
  match r with
  | ⟨0, h0⟩ =>
    have e : idx_main_v20 (idx_main_v21 (idx_main_v24 (ix2 b (⟨0, Nat.one_pos⟩ : Fin 1)))) = ix2 b (1 : Fin 10) := by
      funext a
      match a with
      | ⟨0, _⟩ => exact Fin.ext (by show b.val / 1 = b.val; omega)
      | ⟨1, _⟩ => rfl
    refine (concatenate_pair_apply_left _ _ _ concatenates_S65536x1_S65536x1_S65536x2_d1 (ix2 b (⟨0, h0⟩ : Fin 2)) rfl
      (ix2 b (⟨0, Nat.one_pos⟩ : Fin 1)) (fun a => match a with | ⟨0, _⟩ => rfl | ⟨1, _⟩ => rfl)).trans ?_
    rw [val_main_v24_apply, val_main_v21_apply, val_main_v20_apply, e]
    exact (if_pos (rfl : (0 : ℕ) = 0)).symm
  | ⟨1, h1⟩ =>
    have e : idx_main_v22 (idx_main_v23 (idx_main_v25 (ix2 b (⟨0, Nat.one_pos⟩ : Fin 1)))) = ix2 b (1 : Fin 10) := by
      funext a
      match a with
      | ⟨0, _⟩ => exact Fin.ext (by show b.val / 1 = b.val; omega)
      | ⟨1, _⟩ => rfl
    refine (concatenate_pair_apply_right _ _ _ concatenates_S65536x1_S65536x1_S65536x2_d1 (ix2 b (⟨1, h1⟩ : Fin 2)) rfl rfl
      (ix2 b (⟨0, Nat.one_pos⟩ : Fin 1))
      (fun a => match a with | ⟨0, _⟩ => fun _ => rfl | ⟨1, _⟩ => fun h => absurd rfl h) rfl).trans ?_
    rw [val_main_v25_apply, val_main_v23_apply, val_main_v22_apply, e]
    exact (if_neg (by decide : ¬ (1 : ℕ) = 0)).symm

/-- Entry `(b, r)` of the pair of wire 2 is the amplitude of wire 2 on the bit `r`. -/
theorem pair2 (b : Fin 65536) (r : Fin 2) :
    val_main_v39 (F := Ideal) x0 x1 (ix2 b r) = amp (val_main_v5 (F := Ideal) x0 x1) (val_main_v6 (F := Ideal) x0 x1) b 2 r.val := by
  unfold val_main_v39
  match r with
  | ⟨0, h0⟩ =>
    have e : idx_main_v33 (idx_main_v34 (idx_main_v37 (ix2 b (⟨0, Nat.one_pos⟩ : Fin 1)))) = ix2 b (2 : Fin 10) := by
      funext a
      match a with
      | ⟨0, _⟩ => exact Fin.ext (by show b.val / 1 = b.val; omega)
      | ⟨1, _⟩ => rfl
    refine (concatenate_pair_apply_left _ _ _ concatenates_S65536x1_S65536x1_S65536x2_d1 (ix2 b (⟨0, h0⟩ : Fin 2)) rfl
      (ix2 b (⟨0, Nat.one_pos⟩ : Fin 1)) (fun a => match a with | ⟨0, _⟩ => rfl | ⟨1, _⟩ => rfl)).trans ?_
    rw [val_main_v37_apply, val_main_v34_apply, val_main_v33_apply, e]
    exact (if_pos (rfl : (0 : ℕ) = 0)).symm
  | ⟨1, h1⟩ =>
    have e : idx_main_v35 (idx_main_v36 (idx_main_v38 (ix2 b (⟨0, Nat.one_pos⟩ : Fin 1)))) = ix2 b (2 : Fin 10) := by
      funext a
      match a with
      | ⟨0, _⟩ => exact Fin.ext (by show b.val / 1 = b.val; omega)
      | ⟨1, _⟩ => rfl
    refine (concatenate_pair_apply_right _ _ _ concatenates_S65536x1_S65536x1_S65536x2_d1 (ix2 b (⟨1, h1⟩ : Fin 2)) rfl rfl
      (ix2 b (⟨0, Nat.one_pos⟩ : Fin 1))
      (fun a => match a with | ⟨0, _⟩ => fun _ => rfl | ⟨1, _⟩ => fun h => absurd rfl h) rfl).trans ?_
    rw [val_main_v38_apply, val_main_v36_apply, val_main_v35_apply, e]
    exact (if_neg (by decide : ¬ (1 : ℕ) = 0)).symm

/-- Entry `(b, r)` of the pair of wire 3 is the amplitude of wire 3 on the bit `r`. -/
theorem pair3 (b : Fin 65536) (r : Fin 2) :
    val_main_v52 (F := Ideal) x0 x1 (ix2 b r) = amp (val_main_v5 (F := Ideal) x0 x1) (val_main_v6 (F := Ideal) x0 x1) b 3 r.val := by
  unfold val_main_v52
  match r with
  | ⟨0, h0⟩ =>
    have e : idx_main_v46 (idx_main_v47 (idx_main_v50 (ix2 b (⟨0, Nat.one_pos⟩ : Fin 1)))) = ix2 b (3 : Fin 10) := by
      funext a
      match a with
      | ⟨0, _⟩ => exact Fin.ext (by show b.val / 1 = b.val; omega)
      | ⟨1, _⟩ => rfl
    refine (concatenate_pair_apply_left _ _ _ concatenates_S65536x1_S65536x1_S65536x2_d1 (ix2 b (⟨0, h0⟩ : Fin 2)) rfl
      (ix2 b (⟨0, Nat.one_pos⟩ : Fin 1)) (fun a => match a with | ⟨0, _⟩ => rfl | ⟨1, _⟩ => rfl)).trans ?_
    rw [val_main_v50_apply, val_main_v47_apply, val_main_v46_apply, e]
    exact (if_pos (rfl : (0 : ℕ) = 0)).symm
  | ⟨1, h1⟩ =>
    have e : idx_main_v48 (idx_main_v49 (idx_main_v51 (ix2 b (⟨0, Nat.one_pos⟩ : Fin 1)))) = ix2 b (3 : Fin 10) := by
      funext a
      match a with
      | ⟨0, _⟩ => exact Fin.ext (by show b.val / 1 = b.val; omega)
      | ⟨1, _⟩ => rfl
    refine (concatenate_pair_apply_right _ _ _ concatenates_S65536x1_S65536x1_S65536x2_d1 (ix2 b (⟨1, h1⟩ : Fin 2)) rfl rfl
      (ix2 b (⟨0, Nat.one_pos⟩ : Fin 1))
      (fun a => match a with | ⟨0, _⟩ => fun _ => rfl | ⟨1, _⟩ => fun h => absurd rfl h) rfl).trans ?_
    rw [val_main_v51_apply, val_main_v49_apply, val_main_v48_apply, e]
    exact (if_neg (by decide : ¬ (1 : ℕ) = 0)).symm

/-- Entry `(b, r)` of the pair of wire 4 is the amplitude of wire 4 on the bit `r`. -/
theorem pair4 (b : Fin 65536) (r : Fin 2) :
    val_main_v65 (F := Ideal) x0 x1 (ix2 b r) = amp (val_main_v5 (F := Ideal) x0 x1) (val_main_v6 (F := Ideal) x0 x1) b 4 r.val := by
  unfold val_main_v65
  match r with
  | ⟨0, h0⟩ =>
    have e : idx_main_v59 (idx_main_v60 (idx_main_v63 (ix2 b (⟨0, Nat.one_pos⟩ : Fin 1)))) = ix2 b (4 : Fin 10) := by
      funext a
      match a with
      | ⟨0, _⟩ => exact Fin.ext (by show b.val / 1 = b.val; omega)
      | ⟨1, _⟩ => rfl
    refine (concatenate_pair_apply_left _ _ _ concatenates_S65536x1_S65536x1_S65536x2_d1 (ix2 b (⟨0, h0⟩ : Fin 2)) rfl
      (ix2 b (⟨0, Nat.one_pos⟩ : Fin 1)) (fun a => match a with | ⟨0, _⟩ => rfl | ⟨1, _⟩ => rfl)).trans ?_
    rw [val_main_v63_apply, val_main_v60_apply, val_main_v59_apply, e]
    exact (if_pos (rfl : (0 : ℕ) = 0)).symm
  | ⟨1, h1⟩ =>
    have e : idx_main_v61 (idx_main_v62 (idx_main_v64 (ix2 b (⟨0, Nat.one_pos⟩ : Fin 1)))) = ix2 b (4 : Fin 10) := by
      funext a
      match a with
      | ⟨0, _⟩ => exact Fin.ext (by show b.val / 1 = b.val; omega)
      | ⟨1, _⟩ => rfl
    refine (concatenate_pair_apply_right _ _ _ concatenates_S65536x1_S65536x1_S65536x2_d1 (ix2 b (⟨1, h1⟩ : Fin 2)) rfl rfl
      (ix2 b (⟨0, Nat.one_pos⟩ : Fin 1))
      (fun a => match a with | ⟨0, _⟩ => fun _ => rfl | ⟨1, _⟩ => fun h => absurd rfl h) rfl).trans ?_
    rw [val_main_v64_apply, val_main_v62_apply, val_main_v61_apply, e]
    exact (if_neg (by decide : ¬ (1 : ℕ) = 0)).symm

/-- Entry `(b, r)` of the pair of wire 5 is the amplitude of wire 5 on the bit `r`. -/
theorem pair5 (b : Fin 65536) (r : Fin 2) :
    val_main_v78 (F := Ideal) x0 x1 (ix2 b r) = amp (val_main_v5 (F := Ideal) x0 x1) (val_main_v6 (F := Ideal) x0 x1) b 5 r.val := by
  unfold val_main_v78
  match r with
  | ⟨0, h0⟩ =>
    have e : idx_main_v72 (idx_main_v73 (idx_main_v76 (ix2 b (⟨0, Nat.one_pos⟩ : Fin 1)))) = ix2 b (5 : Fin 10) := by
      funext a
      match a with
      | ⟨0, _⟩ => exact Fin.ext (by show b.val / 1 = b.val; omega)
      | ⟨1, _⟩ => rfl
    refine (concatenate_pair_apply_left _ _ _ concatenates_S65536x1_S65536x1_S65536x2_d1 (ix2 b (⟨0, h0⟩ : Fin 2)) rfl
      (ix2 b (⟨0, Nat.one_pos⟩ : Fin 1)) (fun a => match a with | ⟨0, _⟩ => rfl | ⟨1, _⟩ => rfl)).trans ?_
    rw [val_main_v76_apply, val_main_v73_apply, val_main_v72_apply, e]
    exact (if_pos (rfl : (0 : ℕ) = 0)).symm
  | ⟨1, h1⟩ =>
    have e : idx_main_v74 (idx_main_v75 (idx_main_v77 (ix2 b (⟨0, Nat.one_pos⟩ : Fin 1)))) = ix2 b (5 : Fin 10) := by
      funext a
      match a with
      | ⟨0, _⟩ => exact Fin.ext (by show b.val / 1 = b.val; omega)
      | ⟨1, _⟩ => rfl
    refine (concatenate_pair_apply_right _ _ _ concatenates_S65536x1_S65536x1_S65536x2_d1 (ix2 b (⟨1, h1⟩ : Fin 2)) rfl rfl
      (ix2 b (⟨0, Nat.one_pos⟩ : Fin 1))
      (fun a => match a with | ⟨0, _⟩ => fun _ => rfl | ⟨1, _⟩ => fun h => absurd rfl h) rfl).trans ?_
    rw [val_main_v77_apply, val_main_v75_apply, val_main_v74_apply, e]
    exact (if_neg (by decide : ¬ (1 : ℕ) = 0)).symm

/-- Entry `(b, r)` of the pair of wire 6 is the amplitude of wire 6 on the bit `r`. -/
theorem pair6 (b : Fin 65536) (r : Fin 2) :
    val_main_v91 (F := Ideal) x0 x1 (ix2 b r) = amp (val_main_v5 (F := Ideal) x0 x1) (val_main_v6 (F := Ideal) x0 x1) b 6 r.val := by
  unfold val_main_v91
  match r with
  | ⟨0, h0⟩ =>
    have e : idx_main_v85 (idx_main_v86 (idx_main_v89 (ix2 b (⟨0, Nat.one_pos⟩ : Fin 1)))) = ix2 b (6 : Fin 10) := by
      funext a
      match a with
      | ⟨0, _⟩ => exact Fin.ext (by show b.val / 1 = b.val; omega)
      | ⟨1, _⟩ => rfl
    refine (concatenate_pair_apply_left _ _ _ concatenates_S65536x1_S65536x1_S65536x2_d1 (ix2 b (⟨0, h0⟩ : Fin 2)) rfl
      (ix2 b (⟨0, Nat.one_pos⟩ : Fin 1)) (fun a => match a with | ⟨0, _⟩ => rfl | ⟨1, _⟩ => rfl)).trans ?_
    rw [val_main_v89_apply, val_main_v86_apply, val_main_v85_apply, e]
    exact (if_pos (rfl : (0 : ℕ) = 0)).symm
  | ⟨1, h1⟩ =>
    have e : idx_main_v87 (idx_main_v88 (idx_main_v90 (ix2 b (⟨0, Nat.one_pos⟩ : Fin 1)))) = ix2 b (6 : Fin 10) := by
      funext a
      match a with
      | ⟨0, _⟩ => exact Fin.ext (by show b.val / 1 = b.val; omega)
      | ⟨1, _⟩ => rfl
    refine (concatenate_pair_apply_right _ _ _ concatenates_S65536x1_S65536x1_S65536x2_d1 (ix2 b (⟨1, h1⟩ : Fin 2)) rfl rfl
      (ix2 b (⟨0, Nat.one_pos⟩ : Fin 1))
      (fun a => match a with | ⟨0, _⟩ => fun _ => rfl | ⟨1, _⟩ => fun h => absurd rfl h) rfl).trans ?_
    rw [val_main_v90_apply, val_main_v88_apply, val_main_v87_apply, e]
    exact (if_neg (by decide : ¬ (1 : ℕ) = 0)).symm

/-- Entry `(b, r)` of the pair of wire 7 is the amplitude of wire 7 on the bit `r`. -/
theorem pair7 (b : Fin 65536) (r : Fin 2) :
    val_main_v104 (F := Ideal) x0 x1 (ix2 b r) = amp (val_main_v5 (F := Ideal) x0 x1) (val_main_v6 (F := Ideal) x0 x1) b 7 r.val := by
  unfold val_main_v104
  match r with
  | ⟨0, h0⟩ =>
    have e : idx_main_v98 (idx_main_v99 (idx_main_v102 (ix2 b (⟨0, Nat.one_pos⟩ : Fin 1)))) = ix2 b (7 : Fin 10) := by
      funext a
      match a with
      | ⟨0, _⟩ => exact Fin.ext (by show b.val / 1 = b.val; omega)
      | ⟨1, _⟩ => rfl
    refine (concatenate_pair_apply_left _ _ _ concatenates_S65536x1_S65536x1_S65536x2_d1 (ix2 b (⟨0, h0⟩ : Fin 2)) rfl
      (ix2 b (⟨0, Nat.one_pos⟩ : Fin 1)) (fun a => match a with | ⟨0, _⟩ => rfl | ⟨1, _⟩ => rfl)).trans ?_
    rw [val_main_v102_apply, val_main_v99_apply, val_main_v98_apply, e]
    exact (if_pos (rfl : (0 : ℕ) = 0)).symm
  | ⟨1, h1⟩ =>
    have e : idx_main_v100 (idx_main_v101 (idx_main_v103 (ix2 b (⟨0, Nat.one_pos⟩ : Fin 1)))) = ix2 b (7 : Fin 10) := by
      funext a
      match a with
      | ⟨0, _⟩ => exact Fin.ext (by show b.val / 1 = b.val; omega)
      | ⟨1, _⟩ => rfl
    refine (concatenate_pair_apply_right _ _ _ concatenates_S65536x1_S65536x1_S65536x2_d1 (ix2 b (⟨1, h1⟩ : Fin 2)) rfl rfl
      (ix2 b (⟨0, Nat.one_pos⟩ : Fin 1))
      (fun a => match a with | ⟨0, _⟩ => fun _ => rfl | ⟨1, _⟩ => fun h => absurd rfl h) rfl).trans ?_
    rw [val_main_v103_apply, val_main_v101_apply, val_main_v100_apply, e]
    exact (if_neg (by decide : ¬ (1 : ℕ) = 0)).symm

/-- Entry `(b, r)` of the pair of wire 8 is the amplitude of wire 8 on the bit `r`. -/
theorem pair8 (b : Fin 65536) (r : Fin 2) :
    val_main_v117 (F := Ideal) x0 x1 (ix2 b r) = amp (val_main_v5 (F := Ideal) x0 x1) (val_main_v6 (F := Ideal) x0 x1) b 8 r.val := by
  unfold val_main_v117
  match r with
  | ⟨0, h0⟩ =>
    have e : idx_main_v111 (idx_main_v112 (idx_main_v115 (ix2 b (⟨0, Nat.one_pos⟩ : Fin 1)))) = ix2 b (8 : Fin 10) := by
      funext a
      match a with
      | ⟨0, _⟩ => exact Fin.ext (by show b.val / 1 = b.val; omega)
      | ⟨1, _⟩ => rfl
    refine (concatenate_pair_apply_left _ _ _ concatenates_S65536x1_S65536x1_S65536x2_d1 (ix2 b (⟨0, h0⟩ : Fin 2)) rfl
      (ix2 b (⟨0, Nat.one_pos⟩ : Fin 1)) (fun a => match a with | ⟨0, _⟩ => rfl | ⟨1, _⟩ => rfl)).trans ?_
    rw [val_main_v115_apply, val_main_v112_apply, val_main_v111_apply, e]
    exact (if_pos (rfl : (0 : ℕ) = 0)).symm
  | ⟨1, h1⟩ =>
    have e : idx_main_v113 (idx_main_v114 (idx_main_v116 (ix2 b (⟨0, Nat.one_pos⟩ : Fin 1)))) = ix2 b (8 : Fin 10) := by
      funext a
      match a with
      | ⟨0, _⟩ => exact Fin.ext (by show b.val / 1 = b.val; omega)
      | ⟨1, _⟩ => rfl
    refine (concatenate_pair_apply_right _ _ _ concatenates_S65536x1_S65536x1_S65536x2_d1 (ix2 b (⟨1, h1⟩ : Fin 2)) rfl rfl
      (ix2 b (⟨0, Nat.one_pos⟩ : Fin 1))
      (fun a => match a with | ⟨0, _⟩ => fun _ => rfl | ⟨1, _⟩ => fun h => absurd rfl h) rfl).trans ?_
    rw [val_main_v116_apply, val_main_v114_apply, val_main_v113_apply, e]
    exact (if_neg (by decide : ¬ (1 : ℕ) = 0)).symm

/-- Entry `(b, r)` of the pair of wire 9 is the amplitude of wire 9 on the bit `r`. -/
theorem pair9 (b : Fin 65536) (r : Fin 2) :
    val_main_v130 (F := Ideal) x0 x1 (ix2 b r) = amp (val_main_v5 (F := Ideal) x0 x1) (val_main_v6 (F := Ideal) x0 x1) b 9 r.val := by
  unfold val_main_v130
  match r with
  | ⟨0, h0⟩ =>
    have e : idx_main_v124 (idx_main_v125 (idx_main_v128 (ix2 b (⟨0, Nat.one_pos⟩ : Fin 1)))) = ix2 b (9 : Fin 10) := by
      funext a
      match a with
      | ⟨0, _⟩ => exact Fin.ext (by show b.val / 1 = b.val; omega)
      | ⟨1, _⟩ => rfl
    refine (concatenate_pair_apply_left _ _ _ concatenates_S65536x1_S65536x1_S65536x2_d1 (ix2 b (⟨0, h0⟩ : Fin 2)) rfl
      (ix2 b (⟨0, Nat.one_pos⟩ : Fin 1)) (fun a => match a with | ⟨0, _⟩ => rfl | ⟨1, _⟩ => rfl)).trans ?_
    rw [val_main_v128_apply, val_main_v125_apply, val_main_v124_apply, e]
    exact (if_pos (rfl : (0 : ℕ) = 0)).symm
  | ⟨1, h1⟩ =>
    have e : idx_main_v126 (idx_main_v127 (idx_main_v129 (ix2 b (⟨0, Nat.one_pos⟩ : Fin 1)))) = ix2 b (9 : Fin 10) := by
      funext a
      match a with
      | ⟨0, _⟩ => exact Fin.ext (by show b.val / 1 = b.val; omega)
      | ⟨1, _⟩ => rfl
    refine (concatenate_pair_apply_right _ _ _ concatenates_S65536x1_S65536x1_S65536x2_d1 (ix2 b (⟨1, h1⟩ : Fin 2)) rfl rfl
      (ix2 b (⟨0, Nat.one_pos⟩ : Fin 1))
      (fun a => match a with | ⟨0, _⟩ => fun _ => rfl | ⟨1, _⟩ => fun h => absurd rfl h) rfl).trans ?_
    rw [val_main_v129_apply, val_main_v127_apply, val_main_v126_apply, e]
    exact (if_neg (by decide : ¬ (1 : ℕ) = 0)).symm

/-! ## Joining one wire: entry j of the new state is entry j / 2 of the old one times the wire's amplitude on j % 2 -/

/-- Wire 0 joins the state of no wires, the constant 1. -/
theorem round0 (b : Fin 65536) (j : Fin 2) (r : ℕ) (hr : r = j.val % 2) :
    val_main_v19 (F := Ideal) x0 x1 (ix2 b j)
      = Ideal.ofBits .f32 0x3F800000#32 * amp (val_main_v5 (F := Ideal) x0 x1) (val_main_v6 (F := Ideal) x0 x1) b 0 r := by
  have hj : j.val < 2 := j.isLt
  have hb : b.val < 65536 := b.isLt
  have e2 : idx_main_v16 (idx_main_v19 (ix2 b j)) = ix2 b (⟨j.val % 2, Nat.mod_lt _ (by decide)⟩ : Fin 2) := by
    funext a
    match a with
    | ⟨0, _⟩ => exact Fin.ext (by show (b.val * 2 + j.val) / 2 = b.val; omega)
    | ⟨1, _⟩ => exact Fin.ext (by show (b.val * 2 + j.val) % 2 = j.val % 2; omega)
  rw [val_main_v19_apply, val_main_v18_apply, val_main_v17_apply, val_main_v15_apply, val_main_v7_apply,
    val_main_cst_0_apply, val_main_v16_apply, e2, pair0 x0 x1 b, hr]
  rfl

/-- Wire 1 joins the state of wires 0…0. -/
theorem round1 (b : Fin 65536) (j : Fin 4) (q : Fin 2) (r : ℕ) (hq : q.val = j.val / 2) (hr : r = j.val % 2) :
    val_main_v32 (F := Ideal) x0 x1 (ix2 b j)
      = val_main_v19 (F := Ideal) x0 x1 (ix2 b q) * amp (val_main_v5 (F := Ideal) x0 x1) (val_main_v6 (F := Ideal) x0 x1) b 1 r := by
  have hj : j.val < 4 := j.isLt
  have hb : b.val < 65536 := b.isLt
  have e1 : idx_main_v27 (idx_main_v29 (idx_main_v32 (ix2 b j))) = ix2 b q := by
    funext a
    match a with
    | ⟨0, _⟩ => exact Fin.ext (by show (b.val * 4 + j.val) / 4 = b.val; omega)
    | ⟨1, _⟩ => exact Fin.ext (by show (b.val * 4 + j.val) / 2 % 2 = q.val; omega)
  have e2 : idx_main_v28 (idx_main_v30 (idx_main_v32 (ix2 b j)))
      = ix2 b (⟨j.val % 2, Nat.mod_lt _ (by decide)⟩ : Fin 2) := by
    funext a
    match a with
    | ⟨0, _⟩ => exact Fin.ext (by show (b.val * 4 + j.val) / 4 = b.val; omega)
    | ⟨1, _⟩ => exact Fin.ext (by show (b.val * 4 + j.val) % 2 = j.val % 2; omega)
  rw [val_main_v32_apply, val_main_v31_apply, val_main_v29_apply, val_main_v27_apply, val_main_v30_apply,
    val_main_v28_apply, e1, e2, pair1 x0 x1 b, hr]
  rfl

/-- Wire 2 joins the state of wires 0…1. -/
theorem round2 (b : Fin 65536) (j : Fin 8) (q : Fin 4) (r : ℕ) (hq : q.val = j.val / 2) (hr : r = j.val % 2) :
    val_main_v45 (F := Ideal) x0 x1 (ix2 b j)
      = val_main_v32 (F := Ideal) x0 x1 (ix2 b q) * amp (val_main_v5 (F := Ideal) x0 x1) (val_main_v6 (F := Ideal) x0 x1) b 2 r := by
  have hj : j.val < 8 := j.isLt
  have hb : b.val < 65536 := b.isLt
  have e1 : idx_main_v40 (idx_main_v42 (idx_main_v45 (ix2 b j))) = ix2 b q := by
    funext a
    match a with
    | ⟨0, _⟩ => exact Fin.ext (by show (b.val * 8 + j.val) / 8 = b.val; omega)
    | ⟨1, _⟩ => exact Fin.ext (by show (b.val * 8 + j.val) / 2 % 4 = q.val; omega)
  have e2 : idx_main_v41 (idx_main_v43 (idx_main_v45 (ix2 b j)))
      = ix2 b (⟨j.val % 2, Nat.mod_lt _ (by decide)⟩ : Fin 2) := by
    funext a
    match a with
    | ⟨0, _⟩ => exact Fin.ext (by show (b.val * 8 + j.val) / 8 = b.val; omega)
    | ⟨1, _⟩ => exact Fin.ext (by show (b.val * 8 + j.val) % 2 = j.val % 2; omega)
  rw [val_main_v45_apply, val_main_v44_apply, val_main_v42_apply, val_main_v40_apply, val_main_v43_apply,
    val_main_v41_apply, e1, e2, pair2 x0 x1 b, hr]
  rfl

/-- Wire 3 joins the state of wires 0…2. -/
theorem round3 (b : Fin 65536) (j : Fin 16) (q : Fin 8) (r : ℕ) (hq : q.val = j.val / 2) (hr : r = j.val % 2) :
    val_main_v58 (F := Ideal) x0 x1 (ix2 b j)
      = val_main_v45 (F := Ideal) x0 x1 (ix2 b q) * amp (val_main_v5 (F := Ideal) x0 x1) (val_main_v6 (F := Ideal) x0 x1) b 3 r := by
  have hj : j.val < 16 := j.isLt
  have hb : b.val < 65536 := b.isLt
  have e1 : idx_main_v53 (idx_main_v55 (idx_main_v58 (ix2 b j))) = ix2 b q := by
    funext a
    match a with
    | ⟨0, _⟩ => exact Fin.ext (by show (b.val * 16 + j.val) / 16 = b.val; omega)
    | ⟨1, _⟩ => exact Fin.ext (by show (b.val * 16 + j.val) / 2 % 8 = q.val; omega)
  have e2 : idx_main_v54 (idx_main_v56 (idx_main_v58 (ix2 b j)))
      = ix2 b (⟨j.val % 2, Nat.mod_lt _ (by decide)⟩ : Fin 2) := by
    funext a
    match a with
    | ⟨0, _⟩ => exact Fin.ext (by show (b.val * 16 + j.val) / 16 = b.val; omega)
    | ⟨1, _⟩ => exact Fin.ext (by show (b.val * 16 + j.val) % 2 = j.val % 2; omega)
  rw [val_main_v58_apply, val_main_v57_apply, val_main_v55_apply, val_main_v53_apply, val_main_v56_apply,
    val_main_v54_apply, e1, e2, pair3 x0 x1 b, hr]
  rfl

/-- Wire 4 joins the state of wires 0…3. -/
theorem round4 (b : Fin 65536) (j : Fin 32) (q : Fin 16) (r : ℕ) (hq : q.val = j.val / 2) (hr : r = j.val % 2) :
    val_main_v71 (F := Ideal) x0 x1 (ix2 b j)
      = val_main_v58 (F := Ideal) x0 x1 (ix2 b q) * amp (val_main_v5 (F := Ideal) x0 x1) (val_main_v6 (F := Ideal) x0 x1) b 4 r := by
  have hj : j.val < 32 := j.isLt
  have hb : b.val < 65536 := b.isLt
  have e1 : idx_main_v66 (idx_main_v68 (idx_main_v71 (ix2 b j))) = ix2 b q := by
    funext a
    match a with
    | ⟨0, _⟩ => exact Fin.ext (by show (b.val * 32 + j.val) / 32 = b.val; omega)
    | ⟨1, _⟩ => exact Fin.ext (by show (b.val * 32 + j.val) / 2 % 16 = q.val; omega)
  have e2 : idx_main_v67 (idx_main_v69 (idx_main_v71 (ix2 b j)))
      = ix2 b (⟨j.val % 2, Nat.mod_lt _ (by decide)⟩ : Fin 2) := by
    funext a
    match a with
    | ⟨0, _⟩ => exact Fin.ext (by show (b.val * 32 + j.val) / 32 = b.val; omega)
    | ⟨1, _⟩ => exact Fin.ext (by show (b.val * 32 + j.val) % 2 = j.val % 2; omega)
  rw [val_main_v71_apply, val_main_v70_apply, val_main_v68_apply, val_main_v66_apply, val_main_v69_apply,
    val_main_v67_apply, e1, e2, pair4 x0 x1 b, hr]
  rfl

/-- Wire 5 joins the state of wires 0…4. -/
theorem round5 (b : Fin 65536) (j : Fin 64) (q : Fin 32) (r : ℕ) (hq : q.val = j.val / 2) (hr : r = j.val % 2) :
    val_main_v84 (F := Ideal) x0 x1 (ix2 b j)
      = val_main_v71 (F := Ideal) x0 x1 (ix2 b q) * amp (val_main_v5 (F := Ideal) x0 x1) (val_main_v6 (F := Ideal) x0 x1) b 5 r := by
  have hj : j.val < 64 := j.isLt
  have hb : b.val < 65536 := b.isLt
  have e1 : idx_main_v79 (idx_main_v81 (idx_main_v84 (ix2 b j))) = ix2 b q := by
    funext a
    match a with
    | ⟨0, _⟩ => exact Fin.ext (by show (b.val * 64 + j.val) / 64 = b.val; omega)
    | ⟨1, _⟩ => exact Fin.ext (by show (b.val * 64 + j.val) / 2 % 32 = q.val; omega)
  have e2 : idx_main_v80 (idx_main_v82 (idx_main_v84 (ix2 b j)))
      = ix2 b (⟨j.val % 2, Nat.mod_lt _ (by decide)⟩ : Fin 2) := by
    funext a
    match a with
    | ⟨0, _⟩ => exact Fin.ext (by show (b.val * 64 + j.val) / 64 = b.val; omega)
    | ⟨1, _⟩ => exact Fin.ext (by show (b.val * 64 + j.val) % 2 = j.val % 2; omega)
  rw [val_main_v84_apply, val_main_v83_apply, val_main_v81_apply, val_main_v79_apply, val_main_v82_apply,
    val_main_v80_apply, e1, e2, pair5 x0 x1 b, hr]
  rfl

/-- Wire 6 joins the state of wires 0…5. -/
theorem round6 (b : Fin 65536) (j : Fin 128) (q : Fin 64) (r : ℕ) (hq : q.val = j.val / 2) (hr : r = j.val % 2) :
    val_main_v97 (F := Ideal) x0 x1 (ix2 b j)
      = val_main_v84 (F := Ideal) x0 x1 (ix2 b q) * amp (val_main_v5 (F := Ideal) x0 x1) (val_main_v6 (F := Ideal) x0 x1) b 6 r := by
  have hj : j.val < 128 := j.isLt
  have hb : b.val < 65536 := b.isLt
  have e1 : idx_main_v92 (idx_main_v94 (idx_main_v97 (ix2 b j))) = ix2 b q := by
    funext a
    match a with
    | ⟨0, _⟩ => exact Fin.ext (by show (b.val * 128 + j.val) / 128 = b.val; omega)
    | ⟨1, _⟩ => exact Fin.ext (by show (b.val * 128 + j.val) / 2 % 64 = q.val; omega)
  have e2 : idx_main_v93 (idx_main_v95 (idx_main_v97 (ix2 b j)))
      = ix2 b (⟨j.val % 2, Nat.mod_lt _ (by decide)⟩ : Fin 2) := by
    funext a
    match a with
    | ⟨0, _⟩ => exact Fin.ext (by show (b.val * 128 + j.val) / 128 = b.val; omega)
    | ⟨1, _⟩ => exact Fin.ext (by show (b.val * 128 + j.val) % 2 = j.val % 2; omega)
  rw [val_main_v97_apply, val_main_v96_apply, val_main_v94_apply, val_main_v92_apply, val_main_v95_apply,
    val_main_v93_apply, e1, e2, pair6 x0 x1 b, hr]
  rfl

/-- Wire 7 joins the state of wires 0…6. -/
theorem round7 (b : Fin 65536) (j : Fin 256) (q : Fin 128) (r : ℕ) (hq : q.val = j.val / 2) (hr : r = j.val % 2) :
    val_main_v110 (F := Ideal) x0 x1 (ix2 b j)
      = val_main_v97 (F := Ideal) x0 x1 (ix2 b q) * amp (val_main_v5 (F := Ideal) x0 x1) (val_main_v6 (F := Ideal) x0 x1) b 7 r := by
  have hj : j.val < 256 := j.isLt
  have hb : b.val < 65536 := b.isLt
  have e1 : idx_main_v105 (idx_main_v107 (idx_main_v110 (ix2 b j))) = ix2 b q := by
    funext a
    match a with
    | ⟨0, _⟩ => exact Fin.ext (by show (b.val * 256 + j.val) / 256 = b.val; omega)
    | ⟨1, _⟩ => exact Fin.ext (by show (b.val * 256 + j.val) / 2 % 128 = q.val; omega)
  have e2 : idx_main_v106 (idx_main_v108 (idx_main_v110 (ix2 b j)))
      = ix2 b (⟨j.val % 2, Nat.mod_lt _ (by decide)⟩ : Fin 2) := by
    funext a
    match a with
    | ⟨0, _⟩ => exact Fin.ext (by show (b.val * 256 + j.val) / 256 = b.val; omega)
    | ⟨1, _⟩ => exact Fin.ext (by show (b.val * 256 + j.val) % 2 = j.val % 2; omega)
  rw [val_main_v110_apply, val_main_v109_apply, val_main_v107_apply, val_main_v105_apply, val_main_v108_apply,
    val_main_v106_apply, e1, e2, pair7 x0 x1 b, hr]
  rfl

/-- Wire 8 joins the state of wires 0…7. -/
theorem round8 (b : Fin 65536) (j : Fin 512) (q : Fin 256) (r : ℕ) (hq : q.val = j.val / 2) (hr : r = j.val % 2) :
    val_main_v123 (F := Ideal) x0 x1 (ix2 b j)
      = val_main_v110 (F := Ideal) x0 x1 (ix2 b q) * amp (val_main_v5 (F := Ideal) x0 x1) (val_main_v6 (F := Ideal) x0 x1) b 8 r := by
  have hj : j.val < 512 := j.isLt
  have hb : b.val < 65536 := b.isLt
  have e1 : idx_main_v118 (idx_main_v120 (idx_main_v123 (ix2 b j))) = ix2 b q := by
    funext a
    match a with
    | ⟨0, _⟩ => exact Fin.ext (by show (b.val * 512 + j.val) / 512 = b.val; omega)
    | ⟨1, _⟩ => exact Fin.ext (by show (b.val * 512 + j.val) / 2 % 256 = q.val; omega)
  have e2 : idx_main_v119 (idx_main_v121 (idx_main_v123 (ix2 b j)))
      = ix2 b (⟨j.val % 2, Nat.mod_lt _ (by decide)⟩ : Fin 2) := by
    funext a
    match a with
    | ⟨0, _⟩ => exact Fin.ext (by show (b.val * 512 + j.val) / 512 = b.val; omega)
    | ⟨1, _⟩ => exact Fin.ext (by show (b.val * 512 + j.val) % 2 = j.val % 2; omega)
  rw [val_main_v123_apply, val_main_v122_apply, val_main_v120_apply, val_main_v118_apply, val_main_v121_apply,
    val_main_v119_apply, e1, e2, pair8 x0 x1 b, hr]
  rfl

/-- Wire 9 joins the state of wires 0…8. -/
theorem round9 (b : Fin 65536) (j : Fin 1024) (q : Fin 512) (r : ℕ) (hq : q.val = j.val / 2) (hr : r = j.val % 2) :
    val_main_v136 (F := Ideal) x0 x1 (ix2 b j)
      = val_main_v123 (F := Ideal) x0 x1 (ix2 b q) * amp (val_main_v5 (F := Ideal) x0 x1) (val_main_v6 (F := Ideal) x0 x1) b 9 r := by
  have hj : j.val < 1024 := j.isLt
  have hb : b.val < 65536 := b.isLt
  have e1 : idx_main_v131 (idx_main_v133 (idx_main_v136 (ix2 b j))) = ix2 b q := by
    funext a
    match a with
    | ⟨0, _⟩ => exact Fin.ext (by show (b.val * 1024 + j.val) / 1024 = b.val; omega)
    | ⟨1, _⟩ => exact Fin.ext (by show (b.val * 1024 + j.val) / 2 % 512 = q.val; omega)
  have e2 : idx_main_v132 (idx_main_v134 (idx_main_v136 (ix2 b j)))
      = ix2 b (⟨j.val % 2, Nat.mod_lt _ (by decide)⟩ : Fin 2) := by
    funext a
    match a with
    | ⟨0, _⟩ => exact Fin.ext (by show (b.val * 1024 + j.val) / 1024 = b.val; omega)
    | ⟨1, _⟩ => exact Fin.ext (by show (b.val * 1024 + j.val) % 2 = j.val % 2; omega)
  rw [val_main_v136_apply, val_main_v135_apply, val_main_v133_apply, val_main_v131_apply, val_main_v134_apply,
    val_main_v132_apply, e1, e2, pair9 x0 x1 b, hr]
  rfl

/-! ## The state of the ten wires -/

/-- Entry `(b, j)` of the state of the ten wires: the constant 1 times, for each wire `u` in turn, its amplitude on bit
    `9 - u` of `j`. -/
theorem state_apply (b : Fin 65536) (j : Fin 1024) :
    val_main_v136 (F := Ideal) x0 x1 (ix2 b j)
      = Ideal.ofBits .f32 0x3F800000#32
        * amp (val_main_v5 (F := Ideal) x0 x1) (val_main_v6 (F := Ideal) x0 x1) b 0 (j.val / 512 % 2)
        * amp (val_main_v5 (F := Ideal) x0 x1) (val_main_v6 (F := Ideal) x0 x1) b 1 (j.val / 256 % 2)
        * amp (val_main_v5 (F := Ideal) x0 x1) (val_main_v6 (F := Ideal) x0 x1) b 2 (j.val / 128 % 2)
        * amp (val_main_v5 (F := Ideal) x0 x1) (val_main_v6 (F := Ideal) x0 x1) b 3 (j.val / 64 % 2)
        * amp (val_main_v5 (F := Ideal) x0 x1) (val_main_v6 (F := Ideal) x0 x1) b 4 (j.val / 32 % 2)
        * amp (val_main_v5 (F := Ideal) x0 x1) (val_main_v6 (F := Ideal) x0 x1) b 5 (j.val / 16 % 2)
        * amp (val_main_v5 (F := Ideal) x0 x1) (val_main_v6 (F := Ideal) x0 x1) b 6 (j.val / 8 % 2)
        * amp (val_main_v5 (F := Ideal) x0 x1) (val_main_v6 (F := Ideal) x0 x1) b 7 (j.val / 4 % 2)
        * amp (val_main_v5 (F := Ideal) x0 x1) (val_main_v6 (F := Ideal) x0 x1) b 8 (j.val / 2 % 2)
        * amp (val_main_v5 (F := Ideal) x0 x1) (val_main_v6 (F := Ideal) x0 x1) b 9 (j.val % 2) := by
  have hj : j.val < 1024 := j.isLt
  rw [round9 x0 x1 b j ⟨j.val / 2, by omega⟩ (j.val % 2) rfl rfl,
    round8 x0 x1 b ⟨j.val / 2, by omega⟩ ⟨j.val / 4, by omega⟩ (j.val / 2 % 2) (by show j.val / 4 = j.val / 2 / 2; omega) rfl,
    round7 x0 x1 b ⟨j.val / 4, by omega⟩ ⟨j.val / 8, by omega⟩ (j.val / 4 % 2) (by show j.val / 8 = j.val / 4 / 2; omega) rfl,
    round6 x0 x1 b ⟨j.val / 8, by omega⟩ ⟨j.val / 16, by omega⟩ (j.val / 8 % 2) (by show j.val / 16 = j.val / 8 / 2; omega) rfl,
    round5 x0 x1 b ⟨j.val / 16, by omega⟩ ⟨j.val / 32, by omega⟩ (j.val / 16 % 2) (by show j.val / 32 = j.val / 16 / 2; omega) rfl,
    round4 x0 x1 b ⟨j.val / 32, by omega⟩ ⟨j.val / 64, by omega⟩ (j.val / 32 % 2) (by show j.val / 64 = j.val / 32 / 2; omega) rfl,
    round3 x0 x1 b ⟨j.val / 64, by omega⟩ ⟨j.val / 128, by omega⟩ (j.val / 64 % 2) (by show j.val / 128 = j.val / 64 / 2; omega) rfl,
    round2 x0 x1 b ⟨j.val / 128, by omega⟩ ⟨j.val / 256, by omega⟩ (j.val / 128 % 2) (by show j.val / 256 = j.val / 128 / 2; omega) rfl,
    round1 x0 x1 b ⟨j.val / 256, by omega⟩ ⟨j.val / 512, by omega⟩ (j.val / 256 % 2) (by show j.val / 512 = j.val / 256 / 2; omega) rfl,
    round0 x0 x1 b ⟨j.val / 512, by omega⟩ (j.val / 512 % 2) rfl]

end Cert.ProductState

end
-- ==== Proof.SignTable.lean ====
/-
  The sign table of the reference.

  The reference ends by contracting the 1024 squared amplitudes of a row against a table with one row per basis
  state and one column per wire, whose entry is +1 if the wire's bit of the basis state is 0 and −1 if it is 1.
  The table is built from integers alone: entry (j, w) is 1 − 2·b where b is bit (9 − w) of j, obtained by
  shifting j right by 9 − w places and keeping the lowest bit. (Wire 0 is the most significant of the ten bits.)

  For 0 ≤ j < 1024 the 32-bit word of j is nonnegative, so the arithmetic right shift is the logical one, which is
  the quotient by a power of two; keeping the lowest bit is the remainder modulo 2. Hence b = (j / 2^(9−w)) mod 2,
  a natural number below 2, and the table entry is the real number 1 − 2b.
-/
import proofs.«177797_j65481071397000_2_alg».proof.Proof.RefRead
import Idealize.ShloMosaic.PureOps.Ideal
import Idealize.ShloMosaic.Lib.ValueIdx

noncomputable section

namespace Cert.SignTable

open Idealize.ShloMosaic Idealize.ShloMosaic.ValueIdx Cert.ReferenceIdeal

/-! ### The shift amount and the extracted bit, as 32-bit words -/

/-- For a wire w below ten, the word 9 minus the word of w is the word of the natural number 9 − w
    (the subtraction does not wrap). -/
theorem amount (w : ℕ) (hw : w < 10) : IntOp.subi 9#32 (BitVec.ofNat 32 w) = BitVec.ofNat 32 (9 - w) := by
  apply BitVec.eq_of_toNat_eq
  simp only [IntOp.subi, BitVec.toNat_sub, BitVec.toNat_ofNat]
  omega

/-- For j below 1024 and a wire w below ten: shifting the word of j right (arithmetically) by 9 − w and keeping
    the lowest bit gives the word of (j / 2^(9−w)) mod 2. The word of j has its top bit clear, so the arithmetic
    shift is the logical one, whose value is the quotient by 2^(9−w); the conjunction with 1 is the remainder
    modulo 2. -/
theorem bit_word (j w : ℕ) (hj : j < 1024) (hw : w < 10) :
    IntOp.andi (IntOp.shrsi .host (BitVec.ofNat 32 j) (IntOp.subi 9#32 (BitVec.ofNat 32 w))) 1#32
      = BitVec.ofNat 32 ((j / 2 ^ (9 - w)) % 2) := by
  rw [amount w hw]
  have hk : (BitVec.ofNat 32 (9 - w)).toNat = 9 - w := by
    rw [BitVec.toNat_ofNat]; omega
  have hmsb : (BitVec.ofNat 32 j).msb = false := by
    rw [BitVec.msb_eq_false_iff_two_mul_lt, BitVec.toNat_ofNat]; omega
  unfold IntOp.shrsi IntOp.andi
  rw [if_pos (by rw [hk]; omega), BitVec.sshiftRight_eq', hk, BitVec.sshiftRight_eq_of_msb_false hmsb]
  apply BitVec.eq_of_toNat_eq
  rw [BitVec.toNat_and, BitVec.toNat_ushiftRight, BitVec.toNat_ofNat, BitVec.toNat_ofNat, BitVec.toNat_ofNat,
    Nat.shiftRight_eq_div_pow]
  have h1 : j % 2 ^ 32 = j := Nat.mod_eq_of_lt (by omega)
  have h2 : (j / 2 ^ (9 - w)) % 2 % 2 ^ 32 = (j / 2 ^ (9 - w)) % 2 := Nat.mod_eq_of_lt (by omega)
  rw [h1, h2]
  exact Nat.and_one_is_mod _

/-- The word of a natural number below 2, read as a signed integer and converted to a float, is that number
    as a real. -/
theorem sitofp_bit (b : ℕ) (hb : b < 2) :
    (FloatOps.sitofp (F := Ideal) .f32 (BitVec.ofNat 32 b) : EReal) = ((b : ℝ) : EReal) := by
  show (((BitVec.ofNat 32 b).toInt : ℝ) : EReal) = _
  have : (BitVec.ofNat 32 b).toInt = (b : ℤ) := by
    interval_cases b <;> rfl
  rw [this]; simp

/-! ### The two float literals -/

/-- The single-precision pattern 0x40000000 (exponent field 128, fraction 0) denotes the real number two. -/
theorem ofBits_two : Ideal.ofBits .f32 0x40000000#32 = ((2 : ℝ) : EReal) := by
  simp [Ideal.ofBits, Ideal.ieee, -EReal.coe_mul]; norm_num

/-- The single-precision pattern 0x3F800000 (exponent field 127, fraction 0) denotes the real number one. -/
theorem ofBits_one : Ideal.ofBits .f32 0x3F800000#32 = ((1 : ℝ) : EReal) := by
  simp [Ideal.ofBits, Ideal.ieee, -EReal.coe_mul]; norm_num

/-! ### The table entry -/

/-- The table at any index i = (j, w): 1 − 2·((j / 2^(9−w)) mod 2), a real number. -/
theorem sign_apply_idx (i : S1024x10.Idx) :
    ReadP.val_main_v214 (F := Ideal) i
      = ((1 - 2 * ((((i 0).val / 2 ^ (9 - (i 1).val)) % 2 : ℕ) : ℝ) : ℝ) : EReal) := by
  rw [ReadP.val_main_v214_apply, ReadP.val_main_v213_apply, ReadP.val_main_v212_apply, ReadP.val_main_cst_3_apply,
    ReadP.val_main_v211_apply, ReadP.val_main_v210_apply, ReadP.val_main_cst_2_apply, ReadP.val_main_v209_apply,
    ReadP.val_main_v208_apply, ReadP.val_main_v207_apply, ReadP.val_main_c_1_apply, ReadP.val_main_v206_apply,
    ReadP.val_main_v204_apply, ReadP.val_main_v199_apply, ReadP.val_main_v198_apply,
    ReadP.val_main_v205_apply, ReadP.val_main_v203_apply, ReadP.val_main_v202_apply, ReadP.val_main_v201_apply,
    ReadP.val_main_c_apply, ReadP.val_main_v200_apply]
  show (Ideal.ofBits .f32 0x3F800000#32 : EReal) - Ideal.ofBits .f32 0x40000000#32 *
      (FloatOps.sitofp (F := Ideal) .f32 (IntOp.andi (IntOp.shrsi .host (BitVec.ofNat 32 (i 0).val)
        (IntOp.subi 9#32 (BitVec.ofNat 32 (i 1).val))) 1#32) : EReal) = _
  rw [bit_word _ _ (idx2_lt0 i) (idx2_lt1 i), sitofp_bit _ (Nat.mod_lt _ Nat.two_pos), ofBits_one, ofBits_two,
    EReal.coe_sub, EReal.coe_mul]

/-- The table at basis state j and wire w. -/
theorem sign_apply (j : Fin 1024) (w : Fin 10) :
    ReadP.val_main_v214 (F := Ideal) (ix2 j w)
      = ((1 - 2 * (((j.val / 2 ^ (9 - w.val)) % 2 : ℕ) : ℝ) : ℝ) : EReal) :=
  sign_apply_idx (ix2 j w)

end Cert.SignTable

end
-- ==== Proof.BitsSum.lean ====
/-
  A sum over the 1024 basis states as a sum over ten bits.

  The ten bits `i 0, …, i 9` spell, most significant first, a number `pos i` below 1024, and every number below 1024
  is spelt by exactly one bit string: the digit of weight `2^(9−w)` of `pos i` is `i w`, so `pos` is injective, and
  there are as many bit strings as numbers below 1024.  A sum over the numbers below 1024 is therefore the sum of the
  same terms over the bit strings.  The sum over the bit strings is stated for an arbitrary enumeration of them.
-/
import proofs.«177797_j65481071397000_2_alg».proof.Proof.Bits11

namespace Cert.BitsSum

open Cert.Bits11

/-- The binary digits of the number the ten bits spell are the bits. -/
theorem pos_digit (i : Fin 10 → Fin 2) :
    pos i / 512 % 2 = (i 0).val ∧ pos i / 256 % 2 = (i 1).val ∧ pos i / 128 % 2 = (i 2).val ∧
    pos i / 64 % 2 = (i 3).val ∧ pos i / 32 % 2 = (i 4).val ∧ pos i / 16 % 2 = (i 5).val ∧
    pos i / 8 % 2 = (i 6).val ∧ pos i / 4 % 2 = (i 7).val ∧ pos i / 2 % 2 = (i 8).val ∧
    pos i % 2 = (i 9).val := by
  unfold pos
  have h0 := (i 0).isLt; have h1 := (i 1).isLt; have h2 := (i 2).isLt; have h3 := (i 3).isLt; have h4 := (i 4).isLt
  have h5 := (i 5).isLt; have h6 := (i 6).isLt; have h7 := (i 7).isLt; have h8 := (i 8).isLt; have h9 := (i 9).isLt
  omega

/-- The digit of weight `2^(9−w)` is bit `w`. -/
theorem pos_digit_pow (i : Fin 10 → Fin 2) (w : Fin 10) : (pos i / 2 ^ (9 - w.val)) % 2 = (i w).val := by
  obtain ⟨h0, h1, h2, h3, h4, h5, h6, h7, h8, h9⟩ := pos_digit i
  fin_cases w
  · simpa using h0
  · simpa using h1
  · simpa using h2
  · simpa using h3
  · simpa using h4
  · simpa using h5
  · simpa using h6
  · simpa using h7
  · simpa using h8
  · simpa using h9

/-- A bit string is determined by the number it spells. -/
theorem pos_injective : Function.Injective pos := by
  intro i j h
  funext w
  apply Fin.ext
  rw [← pos_digit_pow i w, ← pos_digit_pow j w, h]

/-- Spelling a number below 1024 is a bijection from the bit strings. -/
theorem state_bijective :
    Function.Bijective (fun i : Fin 10 → Fin 2 => (⟨pos i, pos_lt i⟩ : Fin 1024)) := by
  refine Function.Injective.bijective_of_nat_card_le ?_ ?_
  · intro i j h
    exact pos_injective (Fin.mk.inj h)
  · have h1 : Nat.card (Fin 10 → Fin 2) = 1024 := by
      rw [Nat.card_fun]
      simp only [Nat.card_eq_fintype_card, Fintype.card_fin]
      norm_num
    have h2 : Nat.card (Fin 1024) = 1024 := by
      simp only [Nat.card_eq_fintype_card, Fintype.card_fin]
    rw [h1, h2]

/-- A sum over the 1024 basis states is the sum over the ten bits of the term at the number they spell. -/
theorem sum_states {M : Type} [AddCommMonoid M] {inst : Fintype (Fin 10 → Fin 2)} (F : Fin 1024 → M) :
    ∑ k : Fin 1024, F k = ∑ i : Fin 10 → Fin 2, F ⟨pos i, pos_lt i⟩ :=
  (state_bijective.sum_comp F).symm

end Cert.BitsSum
-- ==== Proof.RefSum.lean ====
/-
  The reference's result as one sum over bit strings.

  The result at row `b` and wire `w` is the inner product of the squared amplitudes of the 1024 basis states with the
  column of signs of wire `w`.  Indexing the basis states by their ten bits `i`, the amplitude at `i` after the chain of
  controlled flips is the product state's amplitude at the bits `chainBits i`, which is the product over the wires `u` of
  the cosine (bit 0) or the sine (bit 1) of half of wire `u`'s angle; the sign is 1 − 2·(bit w of i).
-/
import proofs.«177797_j65481071397000_2_alg».proof.Proof.RefChain
import proofs.«177797_j65481071397000_2_alg».proof.Proof.RefEnds
import proofs.«177797_j65481071397000_2_alg».proof.Proof.ProductState
import proofs.«177797_j65481071397000_2_alg».proof.Proof.SignTable
import proofs.«177797_j65481071397000_2_alg».proof.Proof.BitsSum

noncomputable section

namespace Cert.RefSum

open Cert.ReferenceIdeal Cert.ReferenceIdeal.ReadP Cert.Bits11 Cert.ProductState
open Idealize.ShloMosaic Idealize.ShloMosaic.ValueIdx

/-- The product state's amplitude at row `b` and bits `k`: the literal one times, wire by wire, the cosine or the sine
    of the half angle as the wire's bit is 0 or 1; associated to the left as the program multiplies. -/
def ampProd (c s : FVec Ideal S65536x10 .f32) (b : Fin 65536) (k : Fin 10 → Fin 2) : EReal :=
  Ideal.ofBits .f32 0x3F800000#32 * amp c s b 0 (k 0).val * amp c s b 1 (k 1).val * amp c s b 2 (k 2).val
    * amp c s b 3 (k 3).val * amp c s b 4 (k 4).val * amp c s b 5 (k 5).val * amp c s b 6 (k 6).val
    * amp c s b 7 (k 7).val * amp c s b 8 (k 8).val * amp c s b 9 (k 9).val

variable (x0 : FVec Ideal S65536x10 .f32) (x1 : FVec Ideal S10 .f32)

/-- The product state at a rank-11 index is `ampProd` at its bits. -/
theorem product_state (b : Fin 65536) (k : Fin 10 → Fin 2) :
    val_main_v137 (F := Ideal) x0 x1 (ix11 b k)
      = ampProd (val_main_v5 (F := Ideal) x0 x1) (val_main_v6 (F := Ideal) x0 x1) b k := by
  rw [Cert.RefEnds.to_bits, Cert.ProductState.state_apply]
  obtain ⟨d0, d1, d2, d3, d4, d5, d6, d7, d8, d9⟩ := Cert.BitsSum.pos_digit k
  show Ideal.ofBits .f32 0x3F800000#32 * amp _ _ b 0 (pos k / 512 % 2) * amp _ _ b 1 (pos k / 256 % 2)
      * amp _ _ b 2 (pos k / 128 % 2) * amp _ _ b 3 (pos k / 64 % 2) * amp _ _ b 4 (pos k / 32 % 2)
      * amp _ _ b 5 (pos k / 16 % 2) * amp _ _ b 6 (pos k / 8 % 2) * amp _ _ b 7 (pos k / 4 % 2)
      * amp _ _ b 8 (pos k / 2 % 2) * amp _ _ b 9 (pos k % 2) = _
  rw [d0, d1, d2, d3, d4, d5, d6, d7, d8, d9]
  rfl

/-- The reference's result at (b, w) as the sum over the ten bits. -/
theorem ref_sum {inst : Fintype (Fin 10 → Fin 2)} (b : Fin 65536) (w : Fin 10) :
    val_main_v215 (F := Ideal) x0 x1 (ix2 b w)
      = ∑ i : Fin 10 → Fin 2,
          (ampProd (val_main_v5 (F := Ideal) x0 x1) (val_main_v6 (F := Ideal) x0 x1) b (chainBits i)
            * ampProd (val_main_v5 (F := Ideal) x0 x1) (val_main_v6 (F := Ideal) x0 x1) b (chainBits i))
          * (((1 - 2 * (((i w).val : ℕ) : ℝ) : ℝ)) : EReal) := by
  rw [Cert.RefEnds.dot_apply, Cert.BitsSum.sum_states (inst := inst)]
  refine Finset.sum_congr rfl fun i _ => ?_
  rw [Cert.RefEnds.from_bits, Cert.RefChain.after_chain, product_state, Cert.SignTable.sign_apply]
  show _ * (((1 - 2 * (((pos i / 2 ^ (9 - w.val)) % 2 : ℕ) : ℝ) : ℝ)) : EReal) = _
  rw [Cert.BitsSum.pos_digit_pow i w]

end Cert.RefSum

end
-- ==== Proof.RefAmp.lean ====
/-
  The amplitudes of the reference.

  Wire u of row b is prepared with the angle a = x(b,u) + θ(u); its two amplitudes are the cosine and the sine
  of half that angle. The reference forms the half angle as the product of the constant one half with the sum,
  the offsets θ being repeated along the rows, and applies cosine and sine entry by entry. When the two inputs
  are real numbers xr and tr, the sum and the product are the real ones, and the amplitudes are the real numbers
  cos((xr + tr)/2) and sin((xr + tr)/2).
-/
import proofs.«177797_j65481071397000_2_alg».proof.Proof.RefRead
import Idealize.ShloMosaic.PureOps.Ideal
import Idealize.ShloMosaic.Lib.ValueIdx

noncomputable section

namespace Cert.RefAmp

open Idealize.ShloMosaic Idealize.ShloMosaic.ValueIdx Cert.ReferenceIdeal

/-- The single-precision pattern 0x3F000000 (exponent field 126, fraction 0) denotes the real number one half. -/
theorem ofBits_half : Ideal.ofBits .f32 0x3F000000#32 = ((2⁻¹ : ℝ) : EReal) := by
  simp [Ideal.ofBits, Ideal.ieee, -EReal.coe_mul]; norm_num

variable (x0 : FVec Ideal S65536x10 .f32) (x1 : FVec Ideal S10 .f32) (b : Fin 65536) (u : Fin 10)

/-- The half angle at row b and wire u: one half times the sum of the row's angle and the wire's offset. The
    offsets are repeated along the rows, so the entry read at (b, u) is the offset of wire u. -/
theorem half_angle_apply :
    ReadP.val_main_v4 (F := Ideal) x0 x1 (ix2 b u)
      = Ideal.ofBits .f32 0x3F000000#32 * (x0 (ix2 b u) + x1 (ix1 u)) := by
  rw [ReadP.val_main_v4_apply, ReadP.val_main_v3_apply, ReadP.val_main_cst_apply, ReadP.val_main_v2_apply,
    ReadP.val_main_v1_apply, ReadP.val_main_v0_apply]
  have hidx : ReadP.idx_main_v0 (ReadP.idx_main_v1 (ix2 b u)) = ix1 u := by
    funext a; match a with | ⟨0, _⟩ => rfl
  rw [hidx]; rfl

/-- The first amplitude: the cosine of the half angle. -/
theorem cos_apply :
    ReadP.val_main_v5 (F := Ideal) x0 x1 (ix2 b u)
      = Ideal.cos (Ideal.ofBits .f32 0x3F000000#32 * (x0 (ix2 b u) + x1 (ix1 u))) := by
  rw [ReadP.val_main_v5_apply, half_angle_apply]; rfl

/-- The second amplitude: the sine of the half angle. -/
theorem sin_apply :
    ReadP.val_main_v6 (F := Ideal) x0 x1 (ix2 b u)
      = Ideal.sin (Ideal.ofBits .f32 0x3F000000#32 * (x0 (ix2 b u) + x1 (ix1 u))) := by
  rw [ReadP.val_main_v6_apply, half_angle_apply]; rfl

/-- With real inputs the first amplitude is the real cosine of half the real angle. -/
theorem cos_real (xr tr : ℝ) (hx : x0 (ix2 b u) = (xr : EReal)) (ht : x1 (ix1 u) = (tr : EReal)) :
    ReadP.val_main_v5 (F := Ideal) x0 x1 (ix2 b u) = ((Real.cos (2⁻¹ * (xr + tr)) : ℝ) : EReal) := by
  rw [cos_apply, hx, ht, ofBits_half, ← EReal.coe_add, ← EReal.coe_mul, Ideal.cos_coe]

/-- With real inputs the second amplitude is the real sine of half the real angle. -/
theorem sin_real (xr tr : ℝ) (hx : x0 (ix2 b u) = (xr : EReal)) (ht : x1 (ix1 u) = (tr : EReal)) :
    ReadP.val_main_v6 (F := Ideal) x0 x1 (ix2 b u) = ((Real.sin (2⁻¹ * (xr + tr)) : ℝ) : EReal) := by
  rw [sin_apply, hx, ht, ofBits_half, ← EReal.coe_add, ← EReal.coe_mul, Ideal.sin_coe]

end Cert.RefAmp

end
-- ==== Proof.ParitySum.lean ====
/-
  The expectation of a parity sign under a product distribution on ten bits.

  A bit is an element of `Fin 2`, whose own addition is exclusive or.  Ten independent wires, wire `u` carrying the
  amplitudes `q u 0`, `q u 1` with `(q u 0)² + (q u 1)² = 1`, give the basis state `k : Fin 10 → Fin 2` the
  probability `∏ u, (q u (k u))²`.  A bijection `τ` of the basis states relabels them; if bit `w` of the label `i`
  is the parity of the bits `τ i u`, `u ∈ g`, then the expectation of the sign `(−1)^(i w)` is the product over
  `u ∈ g` of `(q u 0)² − (q u 1)²`: the sign of a parity is the product of the signs, the sum over all bit strings of
  a product of one-bit factors is the product of the one-bit sums, and a wire outside `g` contributes
  `(q u 0)² + (q u 1)² = 1`.

  For the chain of controlled flips 0→1, 1→2, …, 8→9, 9→0 the relabelling is linear over the field of two elements,
  bit `w` after the chain is the parity of the original bits 1…9 (for `w = 0`) or 0…w (for `w ≥ 1`), and with
  `q u = (cos(a/2), sin(a/2))` each factor is `cos² − sin² = cos a`.

  The sums over all bit strings are stated for an arbitrary enumeration of the bit strings (the `Fintype` structure is
  an argument), since the value of a finite sum does not depend on the enumeration.
-/
import proofs.«177797_j65481071397000_2_alg».proof.Proof.Spec

namespace Cert.ParitySum

open Finset

/-- The sign `(−1)^a` of a bit, as a real number. -/
def sgn (a : Fin 2) : ℝ := 1 - 2 * ((a.val : ℕ) : ℝ)

@[simp] theorem sgn_zero : sgn 0 = 1 := by simp [sgn]

@[simp] theorem sgn_one : sgn 1 = -1 := by simp [sgn]; norm_num

/-- The sign is multiplicative: the sign of an exclusive or is the product of the signs. -/
theorem sgn_add (a b : Fin 2) : sgn (a + b) = sgn a * sgn b := by
  have h : ∀ a b : Fin 2, sgn (a + b) = sgn a * sgn b := by
    intro a b
    fin_cases a <;> fin_cases b <;> simp [sgn] <;> norm_num
  exact h a b

/-- The sign of a parity is the product of the signs. -/
theorem sgn_sum (g : Finset (Fin 10)) (k : Fin 10 → Fin 2) :
    sgn (∑ u ∈ g, k u) = ∏ u ∈ g, sgn (k u) := by
  induction g using Finset.induction_on with
  | empty => simp
  | insert a s ha ih => rw [Finset.sum_insert ha, Finset.prod_insert ha, sgn_add, ih]

/-- A sum over all bit strings does not depend on how the bit strings are enumerated. -/
theorem sum_univ_inst (I J : Fintype (Fin 10 → Fin 2)) (F : (Fin 10 → Fin 2) → ℝ) :
    @Finset.sum _ _ _ (@Finset.univ _ I) F = @Finset.sum _ _ _ (@Finset.univ _ J) F := by
  rw [Subsingleton.elim I J]

/-- The sum over all ten-bit strings of a product of one-bit factors is the product of the one-bit sums. -/
theorem sum_prod_bits {inst : Fintype (Fin 10 → Fin 2)} (f : Fin 10 → Fin 2 → ℝ) :
    ∑ k : Fin 10 → Fin 2, ∏ u, f u (k u) = ∏ u, (f u 0 + f u 1) :=
  (sum_univ_inst _ _ _).trans
    ((Fintype.prod_sum f).symm.trans (Finset.prod_congr rfl fun u _ => Fin.sum_univ_two _))

/-- The expectation of the sign of bit `w` of the relabelled basis state, when that bit is the parity over `g` of the
    original bits. -/
theorem expectation_general {inst : Fintype (Fin 10 → Fin 2)}
    (τ : (Fin 10 → Fin 2) → (Fin 10 → Fin 2)) (g : Finset (Fin 10)) (w : Fin 10)
    (q : Fin 10 → Fin 2 → ℝ) (hq : ∀ u, q u 0 * q u 0 + q u 1 * q u 1 = 1)
    (hτ : Function.Injective τ) (hw : ∀ i, i w = ∑ u ∈ g, τ i u) :
    ∑ i : Fin 10 → Fin 2, ((∏ u, q u (τ i u)) * (∏ u, q u (τ i u))) * (1 - 2 * (((i w).val : ℕ) : ℝ))
      = ∏ u ∈ g, (q u 0 * q u 0 - q u 1 * q u 1) := by
  have hbij : Function.Bijective τ := Finite.injective_iff_bijective.mp hτ
  -- the summand as a function of the original bit string `k = τ i`
  have h1 : ∀ i : Fin 10 → Fin 2,
      ((∏ u, q u (τ i u)) * (∏ u, q u (τ i u))) * (1 - 2 * (((i w).val : ℕ) : ℝ))
        = (fun k : Fin 10 → Fin 2 =>
            ∏ u, (q u (k u) * q u (k u) * (if u ∈ g then sgn (k u) else 1))) (τ i) := by
    intro i
    have hs : (1 - 2 * (((i w).val : ℕ) : ℝ)) = ∏ u ∈ g, sgn (τ i u) := by
      rw [← sgn_sum, ← hw i]; rfl
    rw [hs]
    simp only [Finset.prod_mul_distrib]
    congr 1
    rw [Finset.prod_ite_mem, Finset.univ_inter]
  rw [Finset.sum_congr rfl fun i _ => h1 i]
  rw [hbij.sum_comp (fun k : Fin 10 → Fin 2 =>
        ∏ u, (q u (k u) * q u (k u) * (if u ∈ g then sgn (k u) else 1)))]
  rw [sum_prod_bits (fun u b => q u b * q u b * (if u ∈ g then sgn b else 1))]
  have h2 : ∏ u ∈ g, (q u 0 * q u 0 - q u 1 * q u 1)
      = ∏ u, (if u ∈ g then (q u 0 * q u 0 - q u 1 * q u 1) else 1) := by
    rw [Finset.prod_ite_mem, Finset.univ_inter]
  rw [h2]
  refine Finset.prod_congr rfl fun u _ => ?_
  by_cases hu : u ∈ g
  · simp only [hu, if_true, sgn_zero, sgn_one]; ring
  · simp only [hu, if_false]; rw [mul_one, mul_one]; exact hq u

/-- The bit string before the chain of controlled flips, read from the bit string `i` after it. -/
def chain (i : Fin 10 → Fin 2) : Fin 10 → Fin 2 :=
  ![i 0 + i 9, i 1 + i 0 + i 9, i 2 + i 1, i 3 + i 2, i 4 + i 3, i 5 + i 4, i 6 + i 5, i 7 + i 6, i 8 + i 7,
    i 9 + i 8]

/-- The wires whose parity bit `w` carries after the chain: wires 1…9 for `w = 0`, wires 0…w otherwise. -/
def wires (w : Fin 10) : Finset (Fin 10) :=
  if w = 0 then Finset.univ.filter (fun u => u ≠ 0) else Finset.univ.filter (fun u => u ≤ w)

/-- Exclusive or of a bit with itself is zero. -/
theorem bit_add_self (a : Fin 2) : a + a = 0 := by revert a; decide

theorem bit_add_self_left (a b : Fin 2) : a + (a + b) = b := by
  rw [← add_assoc, bit_add_self, zero_add]

/-- The ten sets of wires, listed. -/
theorem wires_eq (w : Fin 10) :
    wires w = (![{1, 2, 3, 4, 5, 6, 7, 8, 9}, {0, 1}, {0, 1, 2}, {0, 1, 2, 3}, {0, 1, 2, 3, 4}, {0, 1, 2, 3, 4, 5},
      {0, 1, 2, 3, 4, 5, 6}, {0, 1, 2, 3, 4, 5, 6, 7}, {0, 1, 2, 3, 4, 5, 6, 7, 8},
      {0, 1, 2, 3, 4, 5, 6, 7, 8, 9}] : Fin 10 → Finset (Fin 10)) w := by
  revert w; decide

/-- Bit `w` after the chain is the parity over `wires w` of the bits before it: the sums telescope, every bit
    that occurs twice cancelling. -/
theorem bit_eq_parity (w : Fin 10) (i : Fin 10 → Fin 2) : i w = ∑ u ∈ wires w, chain i u := by
  rw [wires_eq]
  fin_cases w <;> simp [chain] <;>
    simp only [add_assoc, add_comm, add_left_comm, bit_add_self, bit_add_self_left, add_zero, zero_add]

/-- The chain is injective: the bit string after it is recovered from the one before it by the ten parities. -/
theorem chain_injective : Function.Injective chain := by
  intro i j h
  funext w
  rw [bit_eq_parity w i, bit_eq_parity w j, h]

/-- The expectation of the sign of bit `w` after the chain of controlled flips. -/
theorem expectation {inst : Fintype (Fin 10 → Fin 2)}
    (q : Fin 10 → Fin 2 → ℝ) (hq : ∀ u, q u 0 * q u 0 + q u 1 * q u 1 = 1) (w : Fin 10) :
    ∑ i : Fin 10 → Fin 2,
        ((∏ u, q u (chain i u)) * (∏ u, q u (chain i u))) * (1 - 2 * (((i w).val : ℕ) : ℝ))
      = ∏ u ∈ wires w, (q u 0 * q u 0 - q u 1 * q u 1) :=
  expectation_general chain (wires w) w q hq chain_injective (bit_eq_parity w)

/-- The double-angle formula at half the angle: `cos²(y/2) − sin²(y/2) = cos y`. -/
theorem cos_sq_sub_sin_sq_half (y : ℝ) :
    Real.cos (2⁻¹ * y) * Real.cos (2⁻¹ * y) - Real.sin (2⁻¹ * y) * Real.sin (2⁻¹ * y) = Real.cos y := by
  have h2 := Real.cos_two_mul (2⁻¹ * y)
  have h3 : 2 * (2⁻¹ * y) = y := by ring
  rw [h3] at h2
  have h4 := Real.cos_sq_add_sin_sq (2⁻¹ * y)
  rw [h2]
  linear_combination (-1 : ℝ) * h4

/-- `cos²(y/2) + sin²(y/2) = 1`. -/
theorem cos_sq_add_sin_sq_half (y : ℝ) :
    Real.cos (2⁻¹ * y) * Real.cos (2⁻¹ * y) + Real.sin (2⁻¹ * y) * Real.sin (2⁻¹ * y) = 1 := by
  have h4 := Real.cos_sq_add_sin_sq (2⁻¹ * y)
  linear_combination h4

/-- The product of the cosines over `wires w`, as an extended real, is column `w` of the specification. -/
theorem prod_wires_eq_col (c : Fin 10 → ℝ) (w : Fin 10) :
    ((∏ u ∈ wires w, c u : ℝ) : EReal) = Cert.Spec.col (fun u => (c u : EReal)) w := by
  rw [wires_eq]
  fin_cases w <;> simp [Cert.Spec.col, EReal.coe_mul, mul_assoc]

end Cert.ParitySum
-- ==== Proof.LibFiniteOps.lean ====
/-
  General lemmas about FINITENESS at the ideal instance, where a float is an extended real.

  An array "is real" when every entry is (the coercion of) a real number, that is, neither of the two
  infinities. The extended reals are not a ring: sums and products of infinities follow conventions
  (for instance the sum of the two infinities is the bottom one), so the usual algebraic identities hold only
  where all operands are real. This file shows that the array operations of a host program map real arrays
  to real arrays, so that realness of the inputs can be carried through a program one operation at a time.
  Nothing here mentions a particular program.
-/
import Idealize.ShloMosaic.PureOps.Ideal.Laws
import Idealize.ShloMosaic.PureOps.Contract

noncomputable section

namespace Cert.LibFiniteOps

open Idealize.ShloMosaic
open scoped BigOperators

/-! ### The two predicates -/

/-- Every entry of the array is a real number (not an infinity). -/
def AllReal {s : Shape} (v : s.Idx → EReal) : Prop := ∀ i, ∃ r : ℝ, v i = (r : EReal)

/-- Every entry of the array is a strictly positive real number. -/
def AllPos {s : Shape} (v : s.Idx → EReal) : Prop := ∀ i, ∃ r : ℝ, 0 < r ∧ v i = (r : EReal)

/-- Every entry of the array is a nonzero real number. -/
def AllNonzero {s : Shape} (v : s.Idx → EReal) : Prop := ∀ i, ∃ r : ℝ, r ≠ 0 ∧ v i = (r : EReal)

/-- A positive array is a real array. -/
theorem AllPos.allReal {s : Shape} {v : s.Idx → EReal} (h : AllPos v) : AllReal v :=
  fun i => let ⟨r, _, hr⟩ := h i; ⟨r, hr⟩

/-- A positive array is a nonzero array. -/
theorem AllPos.allNonzero {s : Shape} {v : s.Idx → EReal} (h : AllPos v) : AllNonzero v :=
  fun i => let ⟨r, hpos, hr⟩ := h i; ⟨r, hpos.ne', hr⟩

/-- A nonzero array is a real array. -/
theorem AllNonzero.allReal {s : Shape} {v : s.Idx → EReal} (h : AllNonzero v) : AllReal v :=
  fun i => let ⟨r, _, hr⟩ := h i; ⟨r, hr⟩

/-! ### Finite sums of reals inside the extended reals -/

/-- The coercion from the reals to the extended reals commutes with finite sums:
    the sum of the coercions is the coercion of the real sum. -/
theorem coe_finset_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of extended reals each of which is real is real. -/
theorem exists_real_sum {ι : Type} (s : Finset ι) (g : ι → EReal) (h : ∀ i ∈ s, ∃ r : ℝ, g i = (r : EReal)) :
    ∃ r : ℝ, ∑ i ∈ s, g i = (r : EReal) := by
  classical
  induction s using Finset.induction_on with
  | empty => exact ⟨0, by simp⟩
  | insert a s ha ih =>
    obtain ⟨r, hr⟩ := h a (Finset.mem_insert_self a s)
    obtain ⟨q, hq⟩ := ih (fun i hi => h i (Finset.mem_insert_of_mem hi))
    exact ⟨r + q, by rw [Finset.sum_insert ha, hr, hq, EReal.coe_add]⟩

/-- The sum of two reals is real. -/
theorem real_add {a b : EReal} (ha : ∃ r : ℝ, a = (r : EReal)) (hb : ∃ r : ℝ, b = (r : EReal)) :
    ∃ r : ℝ, a + b = (r : EReal) := by
  obtain ⟨r, rfl⟩ := ha; obtain ⟨q, rfl⟩ := hb; exact ⟨r + q, (EReal.coe_add r q).symm⟩

/-- The difference of two reals is real. -/
theorem real_sub {a b : EReal} (ha : ∃ r : ℝ, a = (r : EReal)) (hb : ∃ r : ℝ, b = (r : EReal)) :
    ∃ r : ℝ, a - b = (r : EReal) := by
  obtain ⟨r, rfl⟩ := ha; obtain ⟨q, rfl⟩ := hb; exact ⟨r - q, (EReal.coe_sub r q).symm⟩

/-- The product of two reals is real. -/
theorem real_mul {a b : EReal} (ha : ∃ r : ℝ, a = (r : EReal)) (hb : ∃ r : ℝ, b = (r : EReal)) :
    ∃ r : ℝ, a * b = (r : EReal) := by
  obtain ⟨r, rfl⟩ := ha; obtain ⟨q, rfl⟩ := hb; exact ⟨r * q, (EReal.coe_mul r q).symm⟩

/-- The negative of a real is real. -/
theorem real_neg {a : EReal} (ha : ∃ r : ℝ, a = (r : EReal)) : ∃ r : ℝ, -a = (r : EReal) := by
  obtain ⟨r, rfl⟩ := ha; exact ⟨-r, (EReal.coe_neg r).symm⟩

/-- The maximum of two reals is real (it is one of the two). -/
theorem real_max {a b : EReal} (ha : ∃ r : ℝ, a = (r : EReal)) (hb : ∃ r : ℝ, b = (r : EReal)) :
    ∃ r : ℝ, max a b = (r : EReal) := by
  rcases le_total a b with h | h
  · rw [max_eq_right h]; exact hb
  · rw [max_eq_left h]; exact ha

/-! ### Literals -/

/-- A splat of a literal whose bit pattern denotes a real number is a real array. -/
theorem allReal_constant {s : Shape} {φ : FTy} {b : BitVec φ.bits} {q : ℝ} (h : Ideal.ofBits φ b = (q : EReal)) :
    AllReal (constant (F := Ideal) s φ b) := fun _ => ⟨q, h⟩

/-- A splat of a literal whose bit pattern denotes a positive real number is a positive array. -/
theorem allPos_constant {s : Shape} {φ : FTy} {b : BitVec φ.bits} {q : ℝ} (hq : 0 < q)
    (h : Ideal.ofBits φ b = (q : EReal)) : AllPos (constant (F := Ideal) s φ b) := fun _ => ⟨q, hq, h⟩

/-- The single-precision pattern of all zero bits denotes the real number zero. -/
theorem ofBits_00000000 : Ideal.ofBits .f32 0x00000000#32 = ((0 : ℝ) : EReal) := by
  simp [Ideal.ofBits, Ideal.ieee]

/-- The single-precision pattern 0x40000000 (exponent field 128, fraction 0) denotes the real number two. -/
theorem ofBits_40000000 : Ideal.ofBits .f32 0x40000000#32 = ((2 : ℝ) : EReal) := by
  simp [Ideal.ofBits, Ideal.ieee, -EReal.coe_mul]; norm_num

/-- The single-precision pattern 0x48800000 (exponent field 145, fraction 0) denotes 2^18 = 262144. -/
theorem ofBits_48800000 : Ideal.ofBits .f32 0x48800000#32 = ((262144 : ℝ) : EReal) := by
  simp [Ideal.ofBits, Ideal.ieee, -EReal.coe_mul]; norm_num

/-- The single-precision pattern 0x3727C5AC (exponent field 110, fraction 2606508) denotes the dyadic
    rational (2^23 + 2606508) / 2^40 = 10995116 / 2^40, the float nearest to one hundred-thousandth. -/
theorem ofBits_3727C5AC : Ideal.ofBits .f32 0x3727C5AC#32 = ((10995116 / 2 ^ 40 : ℝ) : EReal) := by
  simp [Ideal.ofBits, Ideal.ieee, -EReal.coe_mul]; norm_num

/-- The single-precision pattern 0x2B8CBCCC (exponent field 87, fraction 834764) denotes the dyadic
    rational (2^23 + 834764) / 2^63 = 9223372 / 2^63, the float nearest to ten to the minus twelve. -/
theorem ofBits_2B8CBCCC : Ideal.ofBits .f32 0x2B8CBCCC#32 = ((9223372 / 2 ^ 63 : ℝ) : EReal) := by
  simp [Ideal.ofBits, Ideal.ieee, -EReal.coe_mul]; norm_num

theorem pos_3727C5AC : (0 : ℝ) < 10995116 / 2 ^ 40 := by positivity
theorem pos_2B8CBCCC : (0 : ℝ) < 9223372 / 2 ^ 63 := by positivity

/-! ### Re-indexings: every output entry is one of the input's entries -/

/-- Broadcasting along new or size-one axes reads input entries: a real array stays real. -/
theorem allReal_broadcastInDim {s t : Shape} (dims : Fin s.rank → Fin t.rank) (h : s.BroadcastsInDim t dims)
    {x : s.Idx → EReal} (hx : AllReal x) : AllReal (broadcastInDim t dims h x) := fun _ => hx _

/-- Broadcasting a positive array gives a positive array. -/
theorem allPos_broadcastInDim {s t : Shape} (dims : Fin s.rank → Fin t.rank) (h : s.BroadcastsInDim t dims)
    {x : s.Idx → EReal} (hx : AllPos x) : AllPos (broadcastInDim t dims h x) := fun _ => hx _

/-- Broadcasting a nonzero array gives a nonzero array. -/
theorem allNonzero_broadcastInDim {s t : Shape} (dims : Fin s.rank → Fin t.rank) (h : s.BroadcastsInDim t dims)
    {x : s.Idx → EReal} (hx : AllNonzero x) : AllNonzero (broadcastInDim t dims h x) := fun _ => hx _

/-- A transposition permutes the entries. -/
theorem allReal_transpose {s t : Shape} (perm : List (Fin s.rank)) (h : s.Transposes perm t)
    {x : s.Idx → EReal} (hx : AllReal x) : AllReal (transpose t perm x h) := fun _ => hx _

/-- A reshape keeps the entries in row-major order. -/
theorem allReal_shapeCast {s t : Shape} (h : s.ShapeCasts t)
    {x : s.Idx → EReal} (hx : AllReal x) : AllReal (shapeCast t x h) := fun _ => hx _

/-- A slice reads a block of the entries. -/
theorem allReal_extractStridedSlice {s t : Shape} (off : Fin s.rank → Nat) (h : s.Slices off t)
    {x : s.Idx → EReal} (hx : AllReal x) : AllReal (extractStridedSlice t off x h) := fun _ => hx _

/-- A gather reads, at every output index, SOME entry of the operand (the start index read off the index
    array is clamped into range by the definition), so a real operand gives a real result whatever the
    index array holds. -/
theorem allReal_gather {s si t : Shape} {w : Nat} (d : GatherDims s si t) (idx : IVec si w)
    {x : s.Idx → EReal} (hx : AllReal x) : AllReal (Host.gather d x idx) := fun _ => hx _

/-- A gather of a positive operand is positive. -/
theorem allPos_gather {s si t : Shape} {w : Nat} (d : GatherDims s si t) (idx : IVec si w)
    {x : s.Idx → EReal} (hx : AllPos x) : AllPos (Host.gather d x idx) := fun _ => hx _

/-- A lane-by-lane choice between two real arrays is real. -/
theorem allReal_select {s : Shape} (c : IVec s 1) {a b : s.Idx → EReal} (ha : AllReal a) (hb : AllReal b) :
    AllReal (select c a b) := fun i => by
  show ∃ r : ℝ, (if c i = 1 then a i else b i) = (r : EReal)
  split
  · exact ha i
  · exact hb i

/-- A concatenation reads, at every output index, an entry of one of the pieces; if every piece is real, so is
    the result. -/
theorem allReal_concatenate {t : Shape} (a : Fin t.rank) (xs : List ((s : Shape) × (s.Idx → EReal)))
    (h : Shape.Concatenates (xs.map (·.1)) t a) (hx : ∀ p ∈ xs, AllReal p.2) :
    AllReal (concatenate t a xs h) := fun j => by
  unfold concatenate
  exact hx _ (List.getElem_mem _) _

/-! ### Elementwise arithmetic -/

/-- The entrywise sum of real arrays is real. -/
theorem allReal_addf {s : Shape} {φ : FTy} {x y : FVec Ideal s φ} (hx : AllReal x) (hy : AllReal y) :
    AllReal (addf x y) := fun i => real_add (hx i) (hy i)

/-- The entrywise difference of real arrays is real. -/
theorem allReal_subf {s : Shape} {φ : FTy} {x y : FVec Ideal s φ} (hx : AllReal x) (hy : AllReal y) :
    AllReal (subf x y) := fun i => real_sub (hx i) (hy i)

/-- The entrywise product of real arrays is real. -/
theorem allReal_mulf {s : Shape} {φ : FTy} {x y : FVec Ideal s φ} (hx : AllReal x) (hy : AllReal y) :
    AllReal (mulf x y) := fun i => real_mul (hx i) (hy i)

/-- The entrywise negative of a real array is real. -/
theorem allReal_hostNegf {s : Shape} {φ : FTy} {x : FVec Ideal s φ} (hx : AllReal x) :
    AllReal (Host.negf x) := fun i => real_neg (hx i)

/-- The entrywise maximum of real arrays is real. -/
theorem allReal_maximumf {s : Shape} {φ : FTy} {x y : FVec Ideal s φ} (hx : AllReal x) (hy : AllReal y) :
    AllReal (maximumf x y) := fun i => real_max (hx i) (hy i)

/-- The entrywise maximum of a real array and a positive array is positive: it is real, and at least the
    positive entry. -/
theorem allPos_maximumf {s : Shape} {φ : FTy} {x y : FVec Ideal s φ} (hx : AllReal x) (hy : AllPos y) :
    AllPos (maximumf x y) := fun i => by
  obtain ⟨a, ha⟩ := hx i
  obtain ⟨b, hb, hyb⟩ := hy i
  refine ⟨max a b, lt_of_lt_of_le hb (le_max_right a b), ?_⟩
  show max (x i) (y i) = ((max a b : ℝ) : EReal)
  rw [ha, hyb]
  rcases le_total a b with h | h
  · rw [max_eq_right h, max_eq_right (EReal.coe_le_coe_iff.2 h)]
  · rw [max_eq_left h, max_eq_left (EReal.coe_le_coe_iff.2 h)]

/-- The reciprocal square root of a positive real is a positive real. -/
theorem rsqrt_pos {r : ℝ} (hr : 0 < r) :
    Ideal.rsqrt (r : EReal) = (((Real.sqrt r)⁻¹ : ℝ) : EReal) ∧ 0 < (Real.sqrt r)⁻¹ := by
  refine ⟨?_, inv_pos.2 (Real.sqrt_pos.2 hr)⟩
  rw [Ideal.rsqrt_coe, if_neg (not_lt.2 hr.le), if_neg hr.ne']

/-- The entrywise reciprocal square root of a positive array is positive. -/
theorem allPos_hostRsqrt {s : Shape} {φ : FTy} {x : FVec Ideal s φ} (hx : AllPos x) :
    AllPos (Host.rsqrt x) := fun i => by
  obtain ⟨r, hr, hxr⟩ := hx i
  refine ⟨(Real.sqrt r)⁻¹, (rsqrt_pos hr).2, ?_⟩
  show Ideal.rsqrt (x i) = _
  rw [hxr]; exact (rsqrt_pos hr).1

/-- The entrywise reciprocal square root of a positive array is real. -/
theorem allReal_hostRsqrt {s : Shape} {φ : FTy} {x : FVec Ideal s φ} (hx : AllPos x) :
    AllReal (Host.rsqrt x) := (allPos_hostRsqrt hx).allReal

/-- The quotient of a real by a nonzero real is real: division by a nonzero real is multiplication by its
    reciprocal. -/
theorem real_div {a b : EReal} (ha : ∃ r : ℝ, a = (r : EReal)) (hb : ∃ r : ℝ, r ≠ 0 ∧ b = (r : EReal)) :
    ∃ r : ℝ, Ideal.div a b = (r : EReal) := by
  obtain ⟨r, rfl⟩ := ha; obtain ⟨q, hq, rfl⟩ := hb
  exact ⟨r * (1 / q), by rw [Ideal.div_coe hq, EReal.coe_mul]⟩

/-- The entrywise quotient of a real array by a nonzero array (for instance a broadcast nonzero literal) is
    real. -/
theorem allReal_hostDivf {s : Shape} {φ : FTy} {x y : FVec Ideal s φ} (hx : AllReal x) (hy : AllNonzero y) :
    AllReal (Host.divf x y) := fun i => real_div (hx i) (hy i)

/-- The entrywise quotient of a real array by a nonzero array, kernel-side spelling. -/
theorem allReal_divf {s : Shape} {φ : FTy} {x y : FVec Ideal s φ} (hx : AllReal x) (hy : AllNonzero y) :
    AllReal (divf x y) := fun i => real_div (hx i) (hy i)

/-- An integer converted to a float is real. -/
theorem allReal_sitofp {s : Shape} {w : Nat} (φ : FTy) (x : IVec s w) : AllReal (sitofp (F := Ideal) φ x) :=
  fun i => ⟨((x i).toInt : ℝ), rfl⟩

/-! ### Sums: scatter-add, contractions, reductions -/

/-- An accumulating scatter gives, at each index, the operand's entry plus a finite sum of update entries;
    with real operand and real updates the result is real. -/
theorem allReal_scatterAdd {s si u : Shape} {w : Nat} {φ : FTy} (d : ScatterDims s si u) (idx : IVec si w)
    {x : FVec Ideal s φ} {upd : FVec Ideal u φ} (hx : AllReal x) (hu : AllReal upd) :
    AllReal (Host.scatterAdd d x idx upd) := fun i => by
  show ∃ r : ℝ, x i + ∑ j ∈ Finset.univ.filter (fun j => d.resultIdx? j idx = some i), upd j = (r : EReal)
  exact real_add (hx i) (exists_real_sum _ _ (fun j _ => hu j))

/-- A contraction is, at each output index, a finite sum of products of one entry of each operand; with real
    operands and a real accumulator the result is real. -/
theorem allReal_matmul {sl sr so : Shape} {φ₁ φ₂ : FTy} (d : DotDims sl sr so) (prec : Option ContractPrecision)
    {l : FVec Ideal sl φ₁} {r : FVec Ideal sr φ₂} {acc : FVec Ideal so .f32}
    (hl : AllReal l) (hr : AllReal r) (hacc : AllReal acc) : AllReal (matmul d prec l r acc) := fun j => by
  show ∃ q : ℝ, acc j + ∑ k : d.contr.Idx, l (d.lhsIdx j k) * r (d.rhsIdx j k) = (q : EReal)
  exact real_add (hacc j) (exists_real_sum _ _ (fun k _ => real_mul (hl _) (hr _)))

/-- A contraction onto the zero accumulator (the splat of the zero literal) of real operands is real. -/
theorem allReal_matmul_zero {sl sr so : Shape} {φ₁ φ₂ : FTy} (d : DotDims sl sr so) (prec : Option ContractPrecision)
    {l : FVec Ideal sl φ₁} {r : FVec Ideal sr φ₂} (hl : AllReal l) (hr : AllReal r) :
    AllReal (matmul d prec l r (constant so .f32 0x00000000#32)) :=
  allReal_matmul d prec hl hr (allReal_constant ofBits_00000000)

/-- The host's contraction (onto zero) of real operands is real. -/
theorem allReal_dotGeneral {sl sr so : Shape} {φ₁ φ₂ : FTy} (d : DotDims sl sr so) (prec : Option ContractPrecision)
    {l : FVec Ideal sl φ₁} {r : FVec Ideal sr φ₂} (hl : AllReal l) (hr : AllReal r) :
    AllReal (Host.dotGeneral d prec l r) := fun j => by
  show ∃ q : ℝ, (0 : EReal) + ∑ k : d.contr.Idx, l (d.lhsIdx j k) * r (d.rhsIdx j k) = (q : EReal)
  exact real_add ⟨0, rfl⟩ (exists_real_sum _ _ (fun k _ => real_mul (hl _) (hr _)))

/-- The host's sum along axes, from a real initial value, of a real array is real. -/
theorem allReal_reduceAdd {s t u : Shape} {φ : FTy} {axes : List (Fin s.rank)} (h : s.ReducesTo axes t)
    (hu : 0 < u.numel) {x : FVec Ideal s φ} {init : u.Idx → Ideal φ} (hx : AllReal x) (hinit : AllReal init) :
    AllReal (Host.reduceAdd x init h hu) := fun j => by
  show ∃ q : ℝ, init (Shape.Idx.first hu) + ∑ i ∈ Finset.univ.filter (fun i => h.drop i = j), x i = (q : EReal)
  exact real_add (hinit _) (exists_real_sum _ _ (fun i _ => hx i))

/-- A kernel's sum along axes of a real array is real. -/
theorem allReal_multiReduction_add {s t : Shape} {φ : FTy} (axes : List (Fin s.rank)) {src : FVec Ideal s φ}
    (acc : BitVec φ.bits) (h : s.Reduces axes t) (hφ : FKind.Formats φ) (hacc : acc = FKind.neutral .add φ hφ)
    (hx : AllReal src) : AllReal (multiReduction .add axes t src acc h hφ hacc) := fun j => by
  show ∃ q : ℝ, ∑ i ∈ Finset.univ.filter (fun i => h.drop i = j), src i = (q : EReal)
  exact exists_real_sum _ _ (fun i _ => hx i)

/-! ### The finiteness test: an absolute value strictly below plus infinity -/

/-- The single-precision pattern 0x7F800000 denotes plus infinity. -/
theorem ofBits_7F800000 : Ideal.ofBits .f32 0x7F800000#32 = (⊤ : EReal) := by
  simp [Ideal.ofBits, Ideal.ieee]

/-- An extended real whose absolute value (the maximum of it and its negative) compares strictly below plus
    infinity is a real number: at either infinity the absolute value IS plus infinity. -/
theorem real_of_abs_lt_top {φ : FTy} (a : Ideal φ)
    (h : FloatOps.cmpf .olt (FloatOps.hostAbsf a) ((⊤ : EReal) : Ideal φ) = 1#1) : ∃ r : ℝ, a = (r : EReal) := by
  have h' : BitVec.ofBool (decide (max (a : EReal) (-a) < ⊤)) = 1#1 := h
  induction a using EReal.rec with
  | bot => simp at h'
  | top => simp at h'
  | coe r => exact ⟨r, rfl⟩

/-- The array form: if every entry of |x| compares strictly below an array whose entries are all plus
    infinity, then x is a real array. -/
theorem allReal_of_abs_lt_top {s : Shape} {φ : FTy} {x inf : FVec Ideal s φ} (hinf : ∀ i, inf i = (⊤ : EReal))
    (h : ∀ i, cmpf .olt (Host.absf x) inf i = 1#1) : AllReal x := fun i => by
  have hi : FloatOps.cmpf .olt (FloatOps.hostAbsf (x i)) (inf i) = 1#1 := h i
  rw [hinf i] at hi
  exact real_of_abs_lt_top (x i) hi

end Cert.LibFiniteOps

end
-- ==== Proof.Bridge.lean ====
/-
  From the sum over bit strings, taken in the extended reals, to the specification's column.

  With real angles every amplitude is a real number: wire u has amplitude cos(y u / 2) at bit 0 and sin(y u / 2) at
  bit 1, and the amplitude of a basis state after the chain of controlled flips is the product of the ten wires'
  amplitudes at the bits the chain reads.  A product of reals taken in the extended reals is the real product, and a
  finite sum of reals taken in the extended reals is the real sum, so the expectation of the sign of bit w is the real
  expectation.  That one is the product over the wires whose parity bit w carries of cos² − sin² of half the angle,
  which is the cosine of the whole angle: the specification's column w of the ten cosines.
-/
import proofs.«177797_j65481071397000_2_alg».proof.Proof.Spec
import proofs.«177797_j65481071397000_2_alg».proof.Proof.ParitySum
import proofs.«177797_j65481071397000_2_alg».proof.Proof.Bits11
import proofs.«177797_j65481071397000_2_alg».proof.Proof.LibFiniteOps

namespace Cert.Bridge

open Finset Cert.ParitySum Cert.Bits11

/-- The amplitude of wire u at a bit given by its value n, as an extended real: the cosine of half the angle at 0, the
    sine of half the angle otherwise. -/
noncomputable def a (y : Fin 10 → ℝ) (u : Fin 10) (n : ℕ) : EReal :=
  if n = 0 then ((Real.cos (2⁻¹ * y u) : ℝ) : EReal) else ((Real.sin (2⁻¹ * y u) : ℝ) : EReal)

/-- The amplitude of the basis state i after the chain: the product, taken in the extended reals and associated to the
    left starting from one, of the ten wires' amplitudes at the bits the chain reads. -/
noncomputable def P (y : Fin 10 → ℝ) (i : Fin 10 → Fin 2) : EReal :=
  ((1 : ℝ) : EReal) * a y 0 (chainBits i 0).val * a y 1 (chainBits i 1).val * a y 2 (chainBits i 2).val
    * a y 3 (chainBits i 3).val * a y 4 (chainBits i 4).val * a y 5 (chainBits i 5).val * a y 6 (chainBits i 6).val
    * a y 7 (chainBits i 7).val * a y 8 (chainBits i 8).val * a y 9 (chainBits i 9).val

/-- The same amplitudes as real numbers, indexed by the bit. -/
noncomputable def q (y : Fin 10 → ℝ) (u : Fin 10) (r : Fin 2) : ℝ :=
  if r.val = 0 then Real.cos (2⁻¹ * y u) else Real.sin (2⁻¹ * y u)

theorem q_zero (y : Fin 10 → ℝ) (u : Fin 10) : q y u 0 = Real.cos (2⁻¹ * y u) := by simp [q]

theorem q_one (y : Fin 10 → ℝ) (u : Fin 10) : q y u 1 = Real.sin (2⁻¹ * y u) := by simp [q]

/-- An extended-real amplitude is the coercion of the real one. -/
theorem a_coe (y : Fin 10 → ℝ) (u : Fin 10) (r : Fin 2) : a y u r.val = ((q y u r : ℝ) : EReal) := by
  unfold a q
  split_ifs <;> rfl

/-- The two ways of writing the bits the chain reads agree: addition of bits is associative. -/
theorem chainBits_eq_chain (i : Fin 10 → Fin 2) : chainBits i = chain i := by
  unfold chainBits chain
  rw [add_assoc (i 1) (i 0) (i 9)]

/-- A product over the ten wires, written out from one and associated to the left. -/
theorem prod_ten (f : Fin 10 → ℝ) :
    ∏ u, f u = 1 * f 0 * f 1 * f 2 * f 3 * f 4 * f 5 * f 6 * f 7 * f 8 * f 9 := by
  simp only [Fin.prod_univ_castSucc, Fin.prod_univ_zero]
  rfl

/-- The amplitude of a basis state is the coercion of the real product of the wires' amplitudes. -/
theorem P_eq_coe (y : Fin 10 → ℝ) (i : Fin 10 → Fin 2) :
    P y i = ((∏ u, q y u (chain i u) : ℝ) : EReal) := by
  rw [prod_ten, ← chainBits_eq_chain]
  simp only [EReal.coe_mul]
  unfold P
  simp only [a_coe]

/-- The two amplitudes of a wire have squares adding to one. -/
theorem q_normalized (y : Fin 10 → ℝ) (u : Fin 10) : q y u 0 * q y u 0 + q y u 1 * q y u 1 = 1 := by
  rw [q_zero, q_one]
  exact cos_sq_add_sin_sq_half (y u)

/-- The difference of the squares of a wire's two amplitudes is the cosine of its whole angle. -/
theorem q_sq_sub (y : Fin 10 → ℝ) (u : Fin 10) : q y u 0 * q y u 0 - q y u 1 * q y u 1 = Real.cos (y u) := by
  rw [q_zero, q_one]
  exact cos_sq_sub_sin_sq_half (y u)

/-- THE BRIDGE: the sum over all bit strings, in the extended reals, of the squared amplitude times the sign of bit w
    is the specification's column w of the cosines of the ten angles. -/
theorem bridge {inst : Fintype (Fin 10 → Fin 2)} (y : Fin 10 → ℝ) (w : Fin 10) :
    ∑ i : Fin 10 → Fin 2, (P y i * P y i) * (((1 - 2 * (((i w).val : ℕ) : ℝ) : ℝ)) : EReal)
      = Cert.Spec.col (fun u => ((Real.cos (y u) : ℝ) : EReal)) w := by
  have h1 : ∀ i : Fin 10 → Fin 2, (P y i * P y i) * (((1 - 2 * (((i w).val : ℕ) : ℝ) : ℝ)) : EReal)
      = ((((∏ u, q y u (chain i u)) * (∏ u, q y u (chain i u))) * (1 - 2 * (((i w).val : ℕ) : ℝ)) : ℝ) : EReal) := by
    intro i
    rw [P_eq_coe, EReal.coe_mul, EReal.coe_mul]
  rw [Finset.sum_congr rfl fun i _ => h1 i, Cert.LibFiniteOps.coe_finset_sum,
    expectation (q y) (q_normalized y) w, Finset.prod_congr rfl fun u _ => q_sq_sub y u, prod_wires_eq_col]

end Cert.Bridge
-- ==== Proof.RefValue.lean ====
/-
  The reference computes the specification's function when every input is a real number.

  With real angles the amplitudes are real: cosines and sines of half angles.  The sum over bit strings of the squared
  amplitude product times the sign of wire `w` is then a finite sum of real numbers, and it equals the product over
  the wires whose parity wire `w` carries of cos²(a/2) − sin²(a/2) = cos a, because the remaining wires contribute
  cos²(a/2) + sin²(a/2) = 1.  That product, associated to the left, is the specification's column.
-/
import proofs.«177797_j65481071397000_2_alg».proof.Proof.RefSum
import proofs.«177797_j65481071397000_2_alg».proof.Proof.RefAmp
import proofs.«177797_j65481071397000_2_alg».proof.Proof.Bridge

noncomputable section

namespace Cert.RefValue

open Cert.ReferenceIdeal Cert.ReferenceIdeal.ReadP Cert.Bits11 Cert.ProductState Cert.RefSum
open Idealize.ShloMosaic Idealize.ShloMosaic.ValueIdx

/-- The reference's last stage is the specification's function of the two argument arrays, when both are real. -/
theorem ref_eq_G (x0 : FVec Ideal S65536x10 .f32) (x1 : FVec Ideal S10 .f32)
    (hx : ∀ i, ∃ r : ℝ, x0 i = (r : EReal)) (ht : ∀ i, ∃ r : ℝ, x1 i = (r : EReal)) :
    val_main_v215 (F := Ideal) x0 x1 = Cert.Spec.G x0 x1 := by
  funext j
  obtain ⟨b, w, rfl⟩ : ∃ (b : Fin 65536) (w : Fin 10), j = ix2 b w := ⟨j 0, j 1, eq_ix2 j⟩
  choose xr hxr using hx
  choose tr htr using ht
  rw [ref_sum (inst := inferInstance) x0 x1 b w, Cert.Spec.G_apply]
  -- the ten real angles of the row
  let y : Fin 10 → ℝ := fun u => xr (ix2 b u) + tr (ix1 u)
  have hamp : ∀ (u : Fin 10) (n : ℕ),
      amp (val_main_v5 (F := Ideal) x0 x1) (val_main_v6 (F := Ideal) x0 x1) b u n = Cert.Bridge.a y u n := by
    intro u n
    unfold amp Cert.Bridge.a
    split
    · exact Cert.RefAmp.cos_real x0 x1 b u _ _ (hxr _) (htr _)
    · exact Cert.RefAmp.sin_real x0 x1 b u _ _ (hxr _) (htr _)
  have hP : ∀ i : Fin 10 → Fin 2,
      ampProd (val_main_v5 (F := Ideal) x0 x1) (val_main_v6 (F := Ideal) x0 x1) b (chainBits i) = Cert.Bridge.P y i := by
    intro i
    unfold ampProd Cert.Bridge.P
    simp only [hamp, Cert.SignTable.ofBits_one]
  simp only [hP]
  rw [Cert.Bridge.bridge y w]
  congr 1
  funext u
  show ((Real.cos (xr (ix2 b u) + tr (ix1 u)) : ℝ) : EReal) = Ideal.cos (x0 (ix2 b u) + x1 (ix1 u))
  rw [hxr, htr, ← EReal.coe_add, Ideal.cos_coe]

end Cert.RefValue

end
-- ==== Proof.FiniteInputs.lean ====
/-
  From the finiteness test to real inputs.

  The precondition computes, for each of the two argument arrays, whether every entry has an absolute value
  strictly below plus infinity, and states that the conjunction of the two answers is true. A conjunction of two
  bits is 1 only if both are; a conjunction over a whole array is 1 only if every entry's bit is; and an extended
  real whose absolute value (the larger of it and its negative) is strictly below plus infinity is neither of the
  two infinities, hence a real number. So under the precondition every entry of both arrays is a real number, and
  the usual ring identities (which fail in the extended reals at the infinities) are available for them.
-/
import proofs.«177797_j65481071397000_2_alg».proof.Defs
import proofs.«177797_j65481071397000_2_alg».proof.Proof.Gen.Pre_finite_inputs
import proofs.«177797_j65481071397000_2_alg».proof.Proof.LibFiniteOps
import Idealize.ShloMosaic.Lib.ReduceAll
import Idealize.ShloMosaic.Lib.IdealHost
import Idealize.ShloMosaic.Lib.ValueIdx

noncomputable section

namespace Cert.FiniteInputs

open Idealize.ShloMosaic Idealize.ShloMosaic.ValueIdx Idealize.SL.Sem Cert.LibFiniteOps

/-- The shape with no axes has exactly one index (the empty tuple). -/
instance : Subsingleton Cert.Pre_finite_inputs.S_.Idx := ⟨fun a b => funext fun d => d.elim0⟩

/-- If the finiteness test of the two argument arrays answers 1, every entry of both arrays is a real number. -/
theorem real_inputs [hPre_finite_inputs : Cert.Pre_finite_inputs.Facts]
    (x : FVec Ideal Cert.Pre_finite_inputs.S65536x10 .f32) (θ : FVec Ideal Cert.Pre_finite_inputs.S10 .f32)
    (h : Cert.Pre_finite_inputs.fn (F := Ideal) x θ = fun _ => 1#1) :
    (∀ i, ∃ r : ℝ, x i = (r : EReal)) ∧ (∀ i, ∃ r : ℝ, θ i = (r : EReal)) := by
  have h0 := congrFun h ix0
  dsimp only [Cert.Pre_finite_inputs.fn] at h0
  -- the final bit is the conjunction of the two arrays' answers
  obtain ⟨hx, hθ⟩ := IntOp.andi_eq_one.1 h0
  constructor
  · -- every entry of |x| is strictly below the entry of the array of plus infinities
    refine allReal_of_abs_lt_top (inf := broadcastInDim Cert.Pre_finite_inputs.S65536x10 ![]
      Cert.Pre_finite_inputs.Facts.bcast_S_S65536x10 (constant Cert.Pre_finite_inputs.S_ .f32 0x7F800000#32)) (fun i => ?_)
      (Host.reduce_andi_all _ _ _ _ _ hx)
    rw [broadcastInDim_scalar_apply, constant_apply, ofBits_7F800000]
  · refine allReal_of_abs_lt_top (inf := broadcastInDim Cert.Pre_finite_inputs.S10 ![]
      Cert.Pre_finite_inputs.Facts.bcast_S_S10 (constant Cert.Pre_finite_inputs.S_ .f32 0x7F800000#32)) (fun i => ?_)
      (Host.reduce_andi_all _ _ _ _ _ hθ)
    rw [broadcastInDim_scalar_apply, constant_apply, ofBits_7F800000]

/-- The same in the form the claim supplies it: if the precondition holds of a memory, both argument arrays of
    that memory hold only real numbers, on every device. -/
theorem of_pre [hPre_finite_inputs : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    AllReal (s := Cert.Pre_finite_inputs.S65536x10)
        (m ((c.tc : Thread Cert.KernelIdeal.nD Cert.KernelIdeal.τ).loc Cert.KernelIdeal.main_arg0))
      ∧ AllReal (s := Cert.Pre_finite_inputs.S10)
        (m ((c.tc : Thread Cert.KernelIdeal.nD Cert.KernelIdeal.τ).loc Cert.KernelIdeal.main_arg1)) :=
  real_inputs _ _ (hpre c)

end Cert.FiniteInputs

end
-- ==== Proof.lean ====
/- The kernel and its reference compute one function, and both programs run to the end leaving their arguments as they
   found them.

   Row `b` of `x` and the vector `theta` give ten angles a_u = x(b,u) + theta(u).  The reference prepares wire `u` in the
   state (cos(a_u/2), sin(a_u/2)), forms the 1024 amplitudes of the product state, permutes them by the chain of
   controlled flips 0→1, …, 8→9, 9→0 and returns, per wire `w`, the sum of the squared amplitudes weighted by the sign
   (−1)^(bit w).  The chain is linear on bit strings over the field of two elements, so bit `w` after it is the parity
   of the original bits in a fixed set — {1,…,9} for w = 0 and {0,…,w} otherwise — and, the wires being independent, the
   weighted sum factors into the product over that set of cos²(a_u/2) − sin²(a_u/2) = cos a_u, every other wire
   contributing cos² + sin² = 1.  The kernel multiplies exactly these cosines.  The two factorisations need the angles to
   be real numbers, which is what the precondition says of the inputs.

   Kernel side: each grid point writes 4096 rows of the specification's array, and the sixteen blocks cover it.
   Reference side: its operations are read one at a time at an index, down to the sum over bit strings. -/
import proofs.«177797_j65481071397000_2_alg».proof.Defs
import proofs.«177797_j65481071397000_2_alg».proof.Proof.Gen.Kernel
import proofs.«177797_j65481071397000_2_alg».proof.Proof.Gen.Kernel.Skeleton
import proofs.«177797_j65481071397000_2_alg».proof.Proof.Gen.Kernel.Launch
import proofs.«177797_j65481071397000_2_alg».proof.Proof.Gen.Kernel.Points
import proofs.«177797_j65481071397000_2_alg».proof.Proof.Gen.Kernel.Frame
import proofs.«177797_j65481071397000_2_alg».proof.Proof.Gen.KernelIdeal
import proofs.«177797_j65481071397000_2_alg».proof.Proof.Gen.KernelIdeal.Skeleton
import proofs.«177797_j65481071397000_2_alg».proof.Proof.Gen.KernelIdeal.Launch
import proofs.«177797_j65481071397000_2_alg».proof.Proof.Gen.KernelIdeal.Points
import proofs.«177797_j65481071397000_2_alg».proof.Proof.Gen.KernelIdeal.Frame
import proofs.«177797_j65481071397000_2_alg».proof.Proof.Gen.ReferenceIdeal
import proofs.«177797_j65481071397000_2_alg».proof.Proof.Gen.Pre_finite_inputs
import proofs.«177797_j65481071397000_2_alg».proof.Proof.Gen.KernelIdeal.Value
import proofs.«177797_j65481071397000_2_alg».proof.Proof.KernelArray
import proofs.«177797_j65481071397000_2_alg».proof.Proof.RefRun
import proofs.«177797_j65481071397000_2_alg».proof.Proof.RefValue
import proofs.«177797_j65481071397000_2_alg».proof.Proof.FiniteInputs
import Idealize.ShloMosaic.Adequacy
import Idealize.ShloMosaic.Init

noncomputable section

namespace Cert.Proof

open Idealize.ShloMosaic Idealize.SL.Sem Cert.Kernel

/-- The word-level kernel runs to the end and keeps its arguments. -/
theorem frame_kernel : Cert.frame_Kernel := fun m ρ _ => Cert.Kernel.Gen.frame m ρ

/-- The kernel read over the extended reals runs to the end and keeps its arguments. -/
theorem frame_kernel_ideal : Cert.frame_KernelIdeal := fun m ρ _ => Cert.KernelIdeal.Gen.frame m ρ

/-- The reference runs to the end and keeps its arguments: its run, with the result forgotten. -/
theorem frame_reference : Cert.frame_ReferenceIdeal := fun m ρ _ =>
  (θ_run Cert.ReferenceIdeal.defs _ _).mono (fun _ h c => (h c).2) (Cert.ReferenceIdeal.RunP.run (F := Ideal) m ρ)

/-- From real inputs both programs end with the specification's array: the kernel block by block, the reference
    through the sum over bit strings. -/
theorem algebraic : Cert.algebraic_KernelIdeal_ReferenceIdeal := by
  intro m ρ m' ρ' hpre hagree
  refine ⟨fun c => Cert.Spec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.RunP.run (F := Ideal) m' ρ')
  rw [(hagree c).1, (hagree c).2]
  exact Cert.RefValue.ref_eq_G _ _ (Cert.FiniteInputs.of_pre m hpre c).1 (Cert.FiniteInputs.of_pre m hpre c).2

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
